-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel

variable [Facts]

def fn {F : FTy → Type} [FloatOps F] (main_arg0 : FVec F S16x2048x256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  main_v3
-- ==== Kernel.lean ====
abbrev S16x2048x256 : Shape := ⟨3, ![16, 2048, 256]⟩
abbrev S1x512x256 : Shape := ⟨3, ![1, 512, 256]⟩
abbrev S1x1024x256 : Shape := ⟨3, ![1, 1024, 256]⟩
abbrev S512x1 : Shape := ⟨2, ![512, 1]⟩
abbrev S512x256 : Shape := ⟨2, ![512, 256]⟩
abbrev S1024x256 : Shape := ⟨2, ![1024, 256]⟩
abbrev S1024 : Shape := ⟨1, ![1024]⟩
abbrev S1024x1 : Shape := ⟨2, ![1024, 1]⟩
abbrev S256x1024 : Shape := ⟨2, ![256, 1024]⟩
abbrev S512x1024 : Shape := ⟨2, ![512, 1024]⟩
abbrev S512 : Shape := ⟨1, ![512]⟩

abbrev nBuf : Space → Nat
  | .hbm => 2
  | .vmem => 9
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .local _ .vmem, ⟨0, _⟩ => ⟨S1x512x256, .f32⟩
  | .local _ .vmem, ⟨1, _⟩ => ⟨S1x512x256, .f32⟩
  | .local _ .vmem, ⟨2, _⟩ => ⟨S1x1024x256, .f32⟩
  | .local _ .vmem, ⟨3, _⟩ => ⟨S1x1024x256, .f32⟩
  | .local _ .vmem, ⟨4, _⟩ => ⟨S1x512x256, .f32⟩
  | .local _ .vmem, ⟨5, _⟩ => ⟨S1x512x256, .f32⟩
  | .local _ .vmem, ⟨6, _⟩ => ⟨S512x1, .f32⟩
  | .local _ .vmem, ⟨7, _⟩ => ⟨S512x1, .f32⟩
  | .local _ .vmem, ⟨8, _⟩ => ⟨S512x256, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v51 : BitVec 1 := Scalar.cmpi .eq arg2 c1_i32
  let v52 : BitVec 32 := Scalar.extui v51
  let c0_i32_24 : BitVec 32 := 0#32
  let v53 : BitVec 1 := Scalar.cmpi .ne v52 c0_i32_24
  v53

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  transposes_S1024x256_p1_0_S256x1024 : S1024x256.Transposes [1, 0] S256x1024
  reduces_S512x1024_S512 : S512x1024.Reduces [1] S512
  shapeCasts_S512_S512x1 : S512.ShapeCasts S512x1
  broadcasts_S512x1_S512x1024 : S512x1.Broadcasts S512x1024
  broadcasts_S512x1_S512x256 : S512x1.Broadcasts S512x256
  shapeCasts_S512x256_S1x512x256 : S512x256.ShapeCasts S1x512x256
  dot_S512x256_S256x1024_S512x1024_1_0_0_1_n_n_wf : DotDims.WF S512x256 S256x1024 S512x1024 [1] [0] [0] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S16x2048x256.size a
  hwx0_0 : ∀ i : grid0.Coords, EltTy.bits .f32 = 32 ∨ (Rect.block (s := S16x2048x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S16x2048x256.size a
  hwx0_1 : ∀ i : grid0.Coords, EltTy.bits .f32 = 32 ∨ (Rect.block (s := S16x2048x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S16x2048x256.size a
  hwx0_2 : ∀ i : grid0.Coords, EltTy.bits .f32 = 32 ∨ (Rect.block (s := S16x2048x256) S1x512x256.size (cc0_transform_2 i) (hinb0_2 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x2048x256 : Shape := ⟨3, ![16, 2048, 256]⟩
abbrev S_ : Shape := ⟨0, ![]⟩
abbrev S16x2048 : Shape := ⟨2, ![16, 2048]⟩
abbrev S16x2048x1 : Shape := ⟨3, ![16, 2048, 1]⟩
abbrev S16x2048x2048 : Shape := ⟨3, ![16, 2048, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S_, .f32⟩
  | .hbm, ⟨3, _⟩ => ⟨S16x2048, .f32⟩
  | .hbm, ⟨4, _⟩ => ⟨S16x2048x1, .f32⟩
  | .hbm, ⟨5, _⟩ => ⟨S16x2048x1, .f32⟩
  | .hbm, ⟨6, _⟩ => ⟨S_, .f32⟩
  | .hbm, ⟨7, _⟩ => ⟨S16x2048x1, .f32⟩
  | .hbm, ⟨8, _⟩ => ⟨S16x2048x1, .f32⟩
  | .hbm, ⟨9, _⟩ => ⟨S16x2048x256, .f32⟩
  | .hbm, ⟨10, _⟩ => ⟨S16x2048x256, .f32⟩
  | .hbm, ⟨11, _⟩ => ⟨S16x2048x2048, .f32⟩
  | .hbm, ⟨12, _⟩ => ⟨S_, .f32⟩
  | .hbm, ⟨13, _⟩ => ⟨S16x2048x2048, .f32⟩
  | .hbm, ⟨14, _⟩ => ⟨S16x2048x2048, .f32⟩
  | .hbm, ⟨15, _⟩ => ⟨S_, .f32⟩
  | .hbm, ⟨16, _⟩ => ⟨S16x2048, .f32⟩
  | .hbm, ⟨17, _⟩ => ⟨S_, .f32⟩
  | .hbm, ⟨18, _⟩ => ⟨S16x2048, .f32⟩
  | .hbm, ⟨19, _⟩ => ⟨S16x2048, .f32⟩
  | .hbm, ⟨20, _⟩ => ⟨S16x2048x1, .f32⟩
  | .hbm, ⟨21, _⟩ => ⟨S16x2048x2048, .f32⟩
  | .hbm, ⟨22, _⟩ => ⟨S16x2048x2048, .f32⟩
  | .hbm, ⟨23, _⟩ => ⟨S16x2048x2048, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S16x2048x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  reducesTo_S16x2048x256_S16x2048_d2 : S16x2048x256.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x256_0_1_2 : S16x2048x1.BroadcastsInDim S16x2048x256 (![0, 1, 2] : Fin 3 → Fin S16x2048x256.rank)
  bcast_S_S16x2048x2048 : S_.BroadcastsInDim S16x2048x2048 (![] : Fin 0 → Fin S16x2048x2048.rank)
  reducesTo_S16x2048x2048_S16x2048_d2 : S16x2048x2048.ReducesTo [2] S16x2048
  bcast_S_S16x2048 : S_.BroadcastsInDim S16x2048 (![] : Fin 0 → Fin S16x2048.rank)
  bcast_S16x2048x1_S16x2048x2048_0_1_2 : S16x2048x1.BroadcastsInDim S16x2048x2048 (![0, 1, 2] : Fin 3 → Fin S16x2048x2048.rank)
  dot_S16x2048x256_S16x2048x256_S16x2048x2048_2_2_1_1_0_0_wf : DotDims.WF S16x2048x256 S16x2048x256 S16x2048x2048 [2] [2] [1] [1] [0] [0]
  dot_S16x2048x2048_S16x2048x256_S16x2048x256_2_1_1_2_0_0_wf : DotDims.WF S16x2048x2048 S16x2048x256 S16x2048x256 [2] [1] [1] [2] [0] [0]

variable [Facts₀]

def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf
def dot_S16x2048x2048_S16x2048x256_S16x2048x256_2_1_1_2_0_0 : DotDims S16x2048x2048 S16x2048x256 S16x2048x256 where
  lhsContracting := [2]
  rhsContracting := [1]
  lhsNonContracting := [1]
  rhsNonContracting := [2]
  lhsBatch := [0]
  rhsBatch := [0]
  wf := dot_S16x2048x2048_S16x2048x256_S16x2048x256_2_1_1_2_0_0_wf

class Facts : Prop extends Facts₀ where

variable [Facts]
-- ==== Proof.Kernel.Base.lean ====
/-
  What the frame of `Kernel` is stated over.

  The program is one pallas_call on the grid (16 batches) × (4 query tiles) × (2 key/value tiles), the key/value
  axis innermost, so grid point t is at key/value tile t mod 2.  Two input windows read ONE array (the queries'
  blocks of 512 rows and the keys'/values' blocks of 1024 rows of the same x); the output window's block is stored
  only at the last key/value tile of a query tile, and three scratch buffers carry the running maximum, the running
  denominator and the running weighted sum from the first key/value tile to the last.

  Here: the arrays as the region finds them (the launch contents: @main is the region alone), a window's block at a
  point, the fact that an input window's staging buffer holds its block at every point whether fetched there or not,
  the body's two branch conditions decided over the grid (first tile: t even; last tile: t odd), where the output
  window is idle, names for the staging and scratch memrefs, and the class invariant with the three scratch buffers
  spelt out.
-/
import proofs.«159938_j14027363188928_2_alg».proof.Proof.Gen.Kernel.Launch
import proofs.«159938_j14027363188928_2_alg».proof.Proof.Gen.Kernel.Skeleton
import proofs.«159938_j14027363188928_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main and the arrays at the region's entry -/

/-- Core `c`'s buffer contents when the region is entered: the launch contents (no host operation precedes it). -/
abbrev V (c : Dev nD) (b : Ref sig .tc) : Buf (Elt F) ((c : Thread nD τ).loc b) := m ((c : Thread nD τ).loc b)

/-- @main is the region alone. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The queries' staging buffer holds the query block at every point — fetched there (first key/value tile) or
    left from the point before (same query tile, the block index has not moved) — for any proof data whose array is
    the entry contents and whose body leaves the block in place. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The keys'/values' staging buffer holds the key/value block at every point (it is fetched at every point). -/
theorem before_kv_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first key/value tile": the condition under which the body resets the three scratch buffers. -/
abbrev condFirst (i : grid0.Coords) : Prop := (Scalar.cmpi .ne (Scalar.extui (Scalar.cmpi .eq (BitVec.ofNat 32 (i 2).val) 0#32)) 0#32) = 1#1
/-- It holds at the even points. -/
theorem hcondFirst : ∀ t : Fin cfg0.N, condFirst (grid0.coords t) ↔ t.val % 2 = 0 :=
  (by decide +kernel : ∀ t : Fin grid0.N, condFirst (grid0.coords t) ↔ t.val % 2 = 0)

/-- "This is the last key/value tile": the condition under which the body stores the output block. -/
abbrev condLast (i : grid0.Coords) : Prop := k0_cond2 i = 1#1
/-- It holds at the odd points. -/
theorem hcondLast : ∀ t : Fin cfg0.N, condLast (grid0.coords t) ↔ t.val % 2 = 1 :=
  (by decide +kernel : ∀ t : Fin grid0.N, condLast (grid0.coords t) ↔ t.val % 2 = 1)

/-! ## Where the windows are idle -/

theorem live_q : ∀ t : Fin cfg0.N, cfg0.idle 0 (grid0.coords t) = false := by decide +kernel
theorem live_kv : ∀ t : Fin cfg0.N, cfg0.idle 1 (grid0.coords t) = false := by decide +kernel
/-- At a first tile the body stores nothing into the output window, -/
theorem idle_out_first : ∀ t : Fin cfg0.N, condFirst (grid0.coords t) → ¬condLast (grid0.coords t) → cfg0.idle 2 (grid0.coords t) = true := by decide +kernel
/-- and the pipeline does not write its block back there. -/
theorem noFlush_out_first : ∀ t : Fin cfg0.N, condFirst (grid0.coords t) → ¬condLast (grid0.coords t) → (cfg0.win 2).flush t = false := by decide +kernel
/-- At a last tile the output window is live. -/
theorem live_out_last : ∀ t : Fin cfg0.N, ¬condFirst (grid0.coords t) → condLast (grid0.coords t) → cfg0.idle 2 (grid0.coords t) = false := by decide +kernel

/-! ## The memrefs the body is called with -/

/-- One staging buffer of the output window, through which its contents are stated. -/
abbrev VOut : View sig .tc .vmem S1x512x256 .f32 := (Memref.whole cc0_stg2_0 : Memref sig .tc .vmem S1x512x256 .f32).view
abbrev msQ (t : Fin cfg0.N) : Memref sig .tc .vmem S1x512x256 .f32 := win0_0.stage (cfg0.slots t 0)
abbrev hsQ (t : Fin cfg0.N) : (msQ t).IsWhole := hstage0_0 ((cfg0.slots t 0).cast nbuf0_0)
abbrev msKV (t : Fin cfg0.N) : Memref sig .tc .vmem S1x1024x256 .f32 := win0_1.stage (cfg0.slots t 1)
abbrev hsKV (t : Fin cfg0.N) : (msKV t).IsWhole := hstage0_1 ((cfg0.slots t 1).cast nbuf0_1)
abbrev msO (t : Fin cfg0.N) : Memref sig .tc .vmem S1x512x256 .f32 := win0_2.stage (cfg0.slots t 2)
abbrev hsO (t : Fin cfg0.N) : (msO t).IsWhole := hstage0_2 ((cfg0.slots t 2).cast nbuf0_2)
/-- The scratch operands: the running maximum, the running denominator, the running weighted sum. -/
abbrev scMax : Memref sig .tc .vmem S512x1 .f32 := Memref.whole cc0_scratch0
abbrev scDen : Memref sig .tc .vmem S512x1 .f32 := Memref.whole cc0_scratch1
abbrev scAcc : Memref sig .tc .vmem S512x256 .f32 := Memref.whole cc0_scratch2
abbrev VMax : View sig .tc .vmem S512x1 .f32 := scMax.view
abbrev VDen : View sig .tc .vmem S512x1 .f32 := scDen.view
abbrev VAcc : View sig .tc .vmem S512x256 .f32 := scAcc.view

/-- The class invariant with the three scratch buffers as memrefs owned at some contents. -/
theorem PhiA_eq (c : Dev nD) :
    (Pipeline.ΦA spec0 c : sProp 𝕄)
      = iprop(iprop((∃ d, owns (c : Thread nD τ) scMax fullShare d) ∗ (∃ d, owns (c : Thread nD τ) scDen fullShare d) ∗ (∃ d, owns (c : Thread nD τ) scAcc fullShare d)) ∗ (∃ r, prngReg c r)) := by
  unfold Pipeline.ΦA; rw [scopedRest0_eq]; simp only [scMax, scDen, scAcc, owns_whole]; try rfl

end Cert.Kernel.Attn

end
-- ==== Proof.Kernel.RunFirst.lean ====
/-
  The kernel body at a FIRST key/value tile, run once on symbolic memrefs.

  At such a point the body resets the three scratch buffers (running maximum to -inf, running denominator and running
  weighted sum to 0), folds the key/value tile into them, and stores nothing into the output block.  The run holds the
  two input blocks at their contents and hands them back unchanged, hands the output's staging buffer back untouched,
  and leaves each scratch buffer with the pieces its stores wrote (the reset, then the update), which the run finds.
-/
import proofs.«159938_j14027363188928_2_alg».proof.Proof.Kernel.Base

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the stores of a first-tile point leave in the three scratch buffers (last store first), with the proof
    that from whole memrefs — the inputs at `xq`, `xkv`, the output's buffer at any `xi`, the scratch at anything —
    the body runs to a continuation that gets the inputs and the output's buffer back as they were and each scratch
    buffer with its pieces written. -/
noncomputable def runFirst (c : Dev nD) (i : grid0.Coords) (arg3 : Memref sig .tc .vmem S1x512x256 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hcF : condFirst i) (hcL : ¬condLast i)
    (xq : Vec F S1x512x256 .f32) (xkv : Vec F S1x1024x256 .f32) :
    Σ' (LMax : List (View.Piece (Elt F) S512x1 .f32)) (LDen : List (View.Piece (Elt F) S512x1 .f32)), { LAcc : List (View.Piece (Elt F) S512x256 .f32) //
      ∀ (xi : Vec F S1x512x256 .f32) (E : Set ℕ) (K : PUnit → sProp 𝕄),
        iprop(owns (c : Thread nD τ) arg3 fullShare xq ∗ owns (c : Thread nD τ) arg4 fullShare xkv ∗ owns (c : Thread nD τ) arg5 fullShare xi
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare xq ∗ owns (c : Thread nD τ) arg4 fullShare xkv ∗ owns (c : Thread nD τ) arg5 fullShare xi
                ∗ (∃ f, arg6.view.loc (c : Thread nD τ) ↦[arg6.view.set]{fullShare} arg6.view.writes (Elt F) f LMax)
                ∗ (∃ f, arg7.view.loc (c : Thread nD τ) ↦[arg7.view.set]{fullShare} arg7.view.writes (Elt F) f LDen)
                ∗ (∃ f, arg8.view.loc (c : Thread nD τ) ↦[arg8.view.set]{fullShare} arg8.view.writes (Elt F) f LAcc)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, ?_, fun xi E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    iexists _; iexact HS2

end Cert.Kernel.Attn

end
-- ==== Proof.Kernel.RunLast.lean ====
/-
  The kernel body at a LAST key/value tile, run once on symbolic memrefs.

  At such a point the body does not reset the scratch: it finds the running maximum, denominator and weighted sum the
  point before left, folds the key/value tile into them, and stores the quotient (weighted sum / denominator) into the
  output block.  The run holds the two input blocks and the three scratch buffers at their contents and leaves the
  output's staging buffer and each scratch buffer with the pieces its stores wrote, which the run finds.
-/
import proofs.«159938_j14027363188928_2_alg».proof.Proof.Kernel.Base

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the stores of a last-tile point leave in the output's staging buffer and the three scratch buffers, with
    the proof that from whole memrefs — the inputs at `xq`, `xkv`, the output's buffer at anything, the scratch at what
    the point before left (`xm`, `xl`, `xa`) — the body runs to a continuation that gets the inputs back as they were and
    the four written buffers with their pieces written. -/
noncomputable def runLast (c : Dev nD) (i : grid0.Coords) (arg3 : Memref sig .tc .vmem S1x512x256 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hcF : ¬condFirst i) (hcL : condLast i)
    (xq : Vec F S1x512x256 .f32) (xkv : Vec F S1x1024x256 .f32) (xm xl : Vec F S512x1 .f32) (xa : Vec F S512x256 .f32) :
    Σ' (LOut : List (View.Piece (Elt F) S1x512x256 .f32)) (LMax : List (View.Piece (Elt F) S512x1 .f32)) (LDen : List (View.Piece (Elt F) S512x1 .f32)), { LAcc : List (View.Piece (Elt F) S512x256 .f32) //
      ∀ (E : Set ℕ) (K : PUnit → sProp 𝕄),
        iprop(owns (c : Thread nD τ) arg3 fullShare xq ∗ owns (c : Thread nD τ) arg4 fullShare xkv ∗ (∃ d, owns (c : Thread nD τ) arg5 fullShare d)
            ∗ owns (c : Thread nD τ) arg6 fullShare xm ∗ owns (c : Thread nD τ) arg7 fullShare xl ∗ owns (c : Thread nD τ) arg8 fullShare xa
            ∗ (iprop(owns (c : Thread nD τ) arg3 fullShare xq ∗ owns (c : Thread nD τ) arg4 fullShare xkv
                ∗ (∃ f, arg5.view.loc (c : Thread nD τ) ↦[arg5.view.set]{fullShare} arg5.view.writes (Elt F) f LOut)
                ∗ (∃ f, arg6.view.loc (c : Thread nD τ) ↦[arg6.view.set]{fullShare} arg6.view.writes (Elt F) f LMax)
                ∗ (∃ f, arg7.view.loc (c : Thread nD τ) ↦[arg7.view.set]{fullShare} arg7.view.writes (Elt F) f LDen)
                ∗ (∃ f, arg8.view.loc (c : Thread nD τ) ↦[arg8.view.set]{fullShare} arg8.view.writes (Elt F) f LAcc)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg3.eq_unread hf0; obtain rfl := harg4.eq_unread hf1
    obtain rfl := harg6.eq_unread hfs0; obtain rfl := harg7.eq_unread hfs1; obtain rfl := harg8.eq_unread hfs2
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    isplitl [HS1]; · iexists _; iexact HS1
    iexists _; iexact HS2

end Cert.Kernel.Attn

end
-- ==== Proof.Kernel.State.lean ====
/-
  What the output's staging buffer and the three scratch buffers hold after each grid point, and the proof data of the
  pipeline.

  Grid point t is the key/value tile t mod 2 of a query tile.  At an even point (first tile) the scratch buffers end
  at what the first-tile run leaves from the reset values; at an odd point (last tile) they and the output block end at
  what the last-tile run leaves from the scratch contents of the point before.  The region invariant carries the three
  scratch buffers at exactly those contents from one point to the next; before the first point it is the class
  invariant (the scratch at anything).  The two input windows lie on one array: each holds half of its share.
-/
import proofs.«159938_j14027363188928_2_alg».proof.Proof.Kernel.RunFirst
import proofs.«159938_j14027363188928_2_alg».proof.Proof.Kernel.RunLast

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state after a point: the output's staging buffer, the running maximum, the running denominator, the running
    weighted sum. -/
abbrev St (F : FTy → Type) [FloatOps F] : Type := Vec F S1x512x256 .f32 × Vec F S512x1 .f32 × Vec F S512x1 .f32 × Vec F S512x256 .f32

/-- The first-tile run at point `t`, on the point's memrefs and input blocks. -/
def rf (c : Dev nD) (t : Fin cfg0.N) (h0 : t.val % 2 = 0) :=
  runFirst (F := F) c (grid0.coords t) (msQ t) (hsQ t) (msKV t) (hsKV t) (msO t) (hsO t) scMax (Memref.isWhole_whole _) scDen (Memref.isWhole_whole _) scAcc (Memref.isWhole_whole _)
    ((hcondFirst t).mpr h0) (fun h => by have := (hcondLast t).mp h; omega) (iblk m c 0 t) (iblk m c 1 t)

/-- The last-tile run at point `t`, on the point's memrefs and input blocks, from the scratch contents `s`. -/
def rl (c : Dev nD) (t : Fin cfg0.N) (h0 : ¬t.val % 2 = 0) (s : St F) :=
  runLast (F := F) c (grid0.coords t) (msQ t) (hsQ t) (msKV t) (hsKV t) (msO t) (hsO t) scMax (Memref.isWhole_whole _) scDen (Memref.isWhole_whole _) scAcc (Memref.isWhole_whole _)
    (fun h => h0 ((hcondFirst t).mp h)) ((hcondLast t).mpr (by omega)) (iblk m c 0 t) (iblk m c 1 t) s.2.1 s.2.2.1 s.2.2.2

/-- The state after a first-tile point: the scratch buffers' pieces read back; the output's buffer is not stored into
    (a placeholder nothing consults: the window is idle there and not written back). -/
def stFirst (c : Dev nD) (t : Fin cfg0.N) (h0 : t.val % 2 = 0) : St F :=
  (VOut.read (Elt F) VOut.junk,
   VMax.read (Elt F) (VMax.writes (Elt F) VMax.junk (rf m c t h0).1),
   VDen.read (Elt F) (VDen.writes (Elt F) VDen.junk (rf m c t h0).2.1),
   VAcc.read (Elt F) (VAcc.writes (Elt F) VAcc.junk (rf m c t h0).2.2.1))

/-- The state after a last-tile point, from the state `s` the point before left. -/
def stLast (c : Dev nD) (t : Fin cfg0.N) (h0 : ¬t.val % 2 = 0) (s : St F) : St F :=
  (VOut.read (Elt F) (VOut.writes (Elt F) VOut.junk (rl m c t h0 s).1),
   VMax.read (Elt F) (VMax.writes (Elt F) VMax.junk (rl m c t h0 s).2.1),
   VDen.read (Elt F) (VDen.writes (Elt F) VDen.junk (rl m c t h0 s).2.2.1),
   VAcc.read (Elt F) (VAcc.writes (Elt F) VAcc.junk (rl m c t h0 s).2.2.2.1))

/-! ## The stores of each case cover the buffers they write -/

theorem cover_first_max (c : Dev nD) (t : Fin cfg0.N) (h0 : t.val % 2 = 0) (y : S512x1.Idx) : ∃ pc ∈ (rf m c t h0).1, y ∈ pc.1.set :=
  View.cover_of_tiledL (rf m c t h0).1 S512x1.size (by sl_kernel_rfl) y
theorem cover_first_den (c : Dev nD) (t : Fin cfg0.N) (h0 : t.val % 2 = 0) (y : S512x1.Idx) : ∃ pc ∈ (rf m c t h0).2.1, y ∈ pc.1.set :=
  View.cover_of_tiledL (rf m c t h0).2.1 S512x1.size (by sl_kernel_rfl) y
theorem cover_first_acc (c : Dev nD) (t : Fin cfg0.N) (h0 : t.val % 2 = 0) (y : S512x256.Idx) : ∃ pc ∈ (rf m c t h0).2.2.1, y ∈ pc.1.set :=
  View.cover_of_tiledL (rf m c t h0).2.2.1 S512x256.size (by sl_kernel_rfl) y
theorem cover_last_out (c : Dev nD) (t : Fin cfg0.N) (h0 : ¬t.val % 2 = 0) (s : St F) (y : S1x512x256.Idx) : ∃ pc ∈ (rl m c t h0 s).1, y ∈ pc.1.set :=
  View.cover_of_tiledL (rl m c t h0 s).1 S1x512x256.size (by sl_kernel_rfl) y
theorem cover_last_max (c : Dev nD) (t : Fin cfg0.N) (h0 : ¬t.val % 2 = 0) (s : St F) (y : S512x1.Idx) : ∃ pc ∈ (rl m c t h0 s).2.1, y ∈ pc.1.set :=
  View.cover_of_tiledL (rl m c t h0 s).2.1 S512x1.size (by sl_kernel_rfl) y
theorem cover_last_den (c : Dev nD) (t : Fin cfg0.N) (h0 : ¬t.val % 2 = 0) (s : St F) (y : S512x1.Idx) : ∃ pc ∈ (rl m c t h0 s).2.2.1, y ∈ pc.1.set :=
  View.cover_of_tiledL (rl m c t h0 s).2.2.1 S512x1.size (by sl_kernel_rfl) y
theorem cover_last_acc (c : Dev nD) (t : Fin cfg0.N) (h0 : ¬t.val % 2 = 0) (s : St F) (y : S512x256.Idx) : ∃ pc ∈ (rl m c t h0 s).2.2.2.1, y ∈ pc.1.set :=
  View.cover_of_tiledL (rl m c t h0 s).2.2.2.1 S512x256.size (by sl_kernel_rfl) y

/-! ## The state point by point -/

/-- The state after the body at position `n`, by recursion on the point. -/
def outsAt (c : Dev nD) : (n : ℕ) → n < cfg0.N → St F
  | 0, hn => stFirst m c ⟨0, hn⟩ (Nat.zero_mod _)
  | n + 1, hn =>
    if h0 : (n + 1) % 2 = 0 then stFirst m c ⟨n + 1, hn⟩ h0
    else stLast m c ⟨n + 1, hn⟩ h0 (outsAt c n (Nat.lt_of_succ_lt hn))

theorem outsAt_first (c : Dev nD) (t : Fin cfg0.N) (h0 : t.val % 2 = 0) : outsAt m c t.val t.isLt = stFirst m c t h0 := by
  obtain ⟨n, hn⟩ := t
  cases n with
  | zero => rfl
  | succ n => exact dif_pos h0

theorem outsAt_last (c : Dev nD) (t : Fin cfg0.N) (h0 : ¬t.val % 2 = 0) :
    outsAt m c t.val t.isLt = stLast m c t h0 (outsAt m c (t.val - 1) (Nat.lt_of_le_of_lt (Nat.sub_le _ _) t.isLt)) := by
  obtain ⟨n, hn⟩ := t
  cases n with
  | zero => exact absurd (Nat.zero_mod _) h0
  | succ n => exact dif_neg h0

/-! ## The region invariant -/

/-- Before position `n`: the class invariant before the first point; afterwards the three scratch buffers at what the
    point before left, and the generator register at some state. -/
def PhiS (c : Dev nD) : (n : ℕ) → n ≤ cfg0.N → sProp 𝕄
  | 0, _ => Pipeline.ΦA spec0 c
  | n + 1, hn => iprop(iprop(owns (c : Thread nD τ) scMax fullShare (outsAt m c n hn).2.1 ∗ owns (c : Thread nD τ) scDen fullShare (outsAt m c n hn).2.2.1
      ∗ owns (c : Thread nD τ) scAcc fullShare (outsAt m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMax fullShare (outsAt m c n hn).2.1 ∗ owns (c : Thread nD τ) scDen fullShare (outsAt m c n hn).2.2.1
      ∗ owns (c : Thread nD τ) scAcc fullShare (outsAt m c n hn).2.2.2) ∗ (∃ r, prngReg c r)) := rfl

theorem PhiS_pos (c : Dev nD) (n : ℕ) (h : n ≤ cfg0.N) (hz : n ≠ 0) :
    PhiS m c n h = iprop(iprop(owns (c : Thread nD τ) scMax fullShare (outsAt m c (n - 1) (by omega)).2.1 ∗ owns (c : Thread nD τ) scDen fullShare (outsAt m c (n - 1) (by omega)).2.2.1
      ∗ owns (c : Thread nD τ) scAcc fullShare (outsAt m c (n - 1) (by omega)).2.2.2) ∗ (∃ r, prngReg c r)) := by
  cases n with
  | zero => exact absurd rfl hz
  | succ n => rfl

/-! ## The proof data -/

/-- The proof data of the pipeline on core `c`: the arrays as the region finds them; after the body each input's buffer at
    its block and the output's at the state's first component; the invariant `PhiS`; nothing owed; the one array behind
    the two input windows held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_q (c : Dev nD) (t : Fin cfg0.N) : (dats m 0 c).after 0 t = iblk m c 0 t := by dsimp only [dats]
theorem after_kv (c : Dev nD) (t : Fin cfg0.N) : (dats m 0 c).after 1 t = iblk m c 1 t := by dsimp only [dats]
theorem after_out (c : Dev nD) (t : Fin cfg0.N) : (dats m 0 c).after 2 t = (outsAt m c t.val t.isLt).1 := by dsimp only [dats]

theorem before_q (c : Dev nD) (t : Fin cfg0.N) (d) : (dats m 0 c).before 0 t d = iblk m c 0 t :=
  before_q_of m (dats m 0 c) (A_eq m c 0) (after_q m c) t d
theorem before_kv (c : Dev nD) (t : Fin cfg0.N) (d) : (dats m 0 c).before 1 t d = iblk m c 1 t :=
  before_kv_of m (dats m 0 c) (A_eq m c 1) (after_kv m c) t d

end Cert.Kernel.Attn

end
-- ==== Proof.Kernel.Body.lean ====
/-
  The body obligation of the pipeline: at every grid point, from what the pipeline hands the body — the invariant
  before the point, and each window's current staging buffer at what it holds there — the body runs and hands back the
  invariant after the point and each buffer at what the proof data say it leaves.

  An even point is a first key/value tile (the scratch may hold anything: at the very first point by the class
  invariant, later because what an earlier query tile left is forgotten); an odd point is a last tile and finds the
  scratch at what the point before left.  Each case is the corresponding whole-body run.
-/
import proofs.«159938_j14027363188928_2_alg».proof.Proof.Kernel.State

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (msQ t) fullShare ((dats m 0 c).before 0 t d))
    ∗ (∃ d, owns (c : Thread nD τ) (msKV t) fullShare ((dats m 0 c).before 1 t d))
    ∗ (∃ d, owns (c : Thread nD τ) (msO t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_kv]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (msQ t) fullShare ((dats m 0 c).after 0 t) from by
    unfold Dat.leavesExact; rw [live_q t], after_q]
  rw [show (dats m 0 c).leavesExact 1 t = owns (c : Thread nD τ) (msKV t) fullShare ((dats m 0 c).after 1 t) from by
    unfold Dat.leavesExact; rw [live_kv t], after_kv]
  have hN : t.val < 128 := lt_of_lt_of_eq t.isLt (show cfg0.N = 128 from N_0)
  by_cases h0 : t.val % 2 = 0
  · have hcF : condFirst (grid0.coords t) := (hcondFirst t).mpr h0
    have hcL : ¬condLast (grid0.coords t) := fun h => by have := (hcondLast t).mp h; omega
    rw [Dat.leavesExact_idle (dats m 0 c) 2 t (idle_out_first t hcF hcL) (noFlush_out_first t hcF hcL)]
    rw [outsAt_first m c t h0]
    unfold stFirst; dsimp only
    by_cases hz : t.val = 0
    · rw [PhiS_castSucc m c t, PhiS_zero m c _ _ hz, PhiA_eq]
      iintro ⟨⟨⟨HS0, HS1, HS2⟩, Hg⟩, Ho, ⟨%d0, H0⟩, ⟨%d1, H1⟩, ⟨%d2, H2⟩⟩
      iapply ((rf m c t h0).2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%e0, HS0⟩, ⟨%e1, HS1⟩, ⟨%e2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (cover_first_max m c t h0)
          isplitl [HS1]
          · unfold owns; iexists _; isplitr
            swap; · iexact HS1
            ipureintro; exact View.read_writes_of_cover _ _ _ _ _ (cover_first_den m c t h0)
          unfold owns; iexists _; isplitr
          swap; · iexact HS2
          ipureintro; exact View.read_writes_of_cover _ _ _ _ _ (cover_first_acc m c t h0)
        iexact Hg
      isplitl [Ho]; · iexact Ho
      isplitl [H0]; · iexact H0
      isplitl [H1]; · iexact H1
      iexists _; iexact H2
    · rw [PhiS_castSucc m c t, PhiS_pos m c _ _ hz]
      iintro ⟨⟨⟨HS0, HS1, HS2⟩, Hg⟩, Ho, ⟨%d0, H0⟩, ⟨%d1, H1⟩, ⟨%d2, H2⟩⟩
      iapply ((rf m c t h0).2.2.2 _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, ⟨%e0, HS0⟩, ⟨%e1, HS1⟩, ⟨%e2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (cover_first_max m c t h0)
          isplitl [HS1]
          · unfold owns; iexists _; isplitr
            swap; · iexact HS1
            ipureintro; exact View.read_writes_of_cover _ _ _ _ _ (cover_first_den m c t h0)
          unfold owns; iexists _; isplitr
          swap; · iexact HS2
          ipureintro; exact View.read_writes_of_cover _ _ _ _ _ (cover_first_acc m c t h0)
        iexact Hg
      isplitl [Ho]; · iexact Ho
      isplitl [H0]; · iexact H0
      isplitl [H1]; · iexact H1
      iexists _; iexact H2
  · have hcF : ¬condFirst (grid0.coords t) := fun h => h0 ((hcondFirst t).mp h)
    have hcL : condLast (grid0.coords t) := (hcondLast t).mpr (by omega)
    have hz : t.val ≠ 0 := fun h => h0 (by rw [h])
    rw [show (dats m 0 c).leavesExact 2 t = owns (c : Thread nD τ) (msO t) fullShare ((dats m 0 c).after 2 t) from by
      unfold Dat.leavesExact; rw [live_out_last t hcF hcL], after_out]
    rw [outsAt_last m c t h0]
    unfold stLast; dsimp only
    rw [PhiS_castSucc m c t, PhiS_pos m c _ _ hz]
    iintro ⟨⟨⟨HS0, HS1, HS2⟩, Hg⟩, Ho, ⟨%d0, H0⟩, ⟨%d1, H1⟩, ⟨%d2, H2⟩⟩
    iapply ((rl m c t h0 _).2.2.2.2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e, H2⟩, ⟨%e0, HS0⟩, ⟨%e1, HS1⟩, ⟨%e2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (cover_last_max m c t h0 _)
        isplitl [HS1]
        · unfold owns; iexists _; isplitr
          swap; · iexact HS1
          ipureintro; exact View.read_writes_of_cover _ _ _ _ _ (cover_last_den m c t h0 _)
        unfold owns; iexists _; isplitr
        swap; · iexact HS2
        ipureintro; exact View.read_writes_of_cover _ _ _ _ _ (cover_last_acc m c t h0 _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover_last_out m c t h0 _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Attn

end
-- ==== Proof.Kernel.Launch.lean ====
/-
  The launch of `Kernel`'s region.

  The two input windows of the pallas_call — the queries' blocks and the keys'/values' blocks — read ONE array, the
  program's argument; the third window writes the result.  At the region's entry the core holds each of the two
  buffers behind the windows' arrays whole; the argument's full share is split in its two halves, one for each
  input window (an input window only reads, so any positive share serves it), and the result is handed to the
  output window whole.  With that split the region runs as any pipeline does; at the end the argument is what it
  was at the entry (no window writes it) and the result is what the proof data computes from the body's
  write-backs.
-/
import proofs.«159938_j14027363188928_2_alg».proof.Proof.Kernel.Base
import Idealize.ShloMosaic.Lib.Pipeline.Frame

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- The buffers behind the windows' arrays: the argument (read by both input windows) and the result. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v0) ↦{fullShare} V m c main_v0)) := by
  unfold Pipeline.arrBufs
  exact bigSep_eq_bigSepL_of_eq [main_arg0, main_v0] (by decide) (by decide) _

/-- The buffers behind the arrays, each whole, give the proof data's arrays at entry: the argument's full share is
    split in its left half (the queries' window) and its right half (the keys'/values' window); the result goes to the
    output window whole. -/
theorem arrays_of_arrBufs {c : Dev nD} (dat : Dat τ (Elt F) Unit ℕ (UR sig nD τ) ℕ cfg0 c)
    (hq0 : dat.q 0 = fullShare.left) (hq1 : dat.q 1 = fullShare.right)
    (hA : ∀ w, dat.A w = V m c (Pipeline.arrRef spec0 w)) :
    (Pipeline.arrBufs (Ix := Unit) (Name := ℕ) (U := UR sig nD τ) (Lvl := ℕ) spec0 c (V m c) : sProp 𝕄) ⊢ dat.arrays (dat.arrAt · 0) := by
  have hs0 : dat.share 0 = fullShare.left := by unfold Dat.share; rw [if_neg (by decide)]; exact hq0
  have hs1 : dat.share 1 = fullShare.right := by unfold Dat.share; rw [if_neg (by decide)]; exact hq1
  have hs2 : dat.share 2 = fullShare := by unfold Dat.share; rw [if_pos (by decide)]
  have e0 : dat.arrAt 0 0 = V m c main_arg0 := hA 0
  have e1 : dat.arrAt 1 0 = V m c main_arg0 := hA 1
  have e2 : dat.arrAt 2 0 = V m c main_v0 := hA 2
  rw [arrBufs_eq]
  unfold Dat.arrays
  rw [bigSep_W0]
  beta_reduce
  rw [hs0, hs1, hs2, e0, e1, e2, (arr_whole0 0).set_eq_univ, (arr_whole0 2).set_eq_univ]
  iintro ⟨HA, HB⟩
  ihave HA := (pointsTo_share (PosShare.mem_left_op_right fullShare)).1 $$ HA
  icases HA with ⟨HA₁, HA₂⟩
  isplitl [HA₁]; · iexact HA₁
  isplitl [HA₂]; · iexact HA₂
  iexact HB

/-! ## The run of the region -/

set_option backward.isDefEq.respectTransparency.types false in
/-- THE RUN: at the compiled mesh, for any values, from any memory with zero counters, every weakly fair execution
    of @main terminates, and in every final state each window's array holds what the proof data computes for it
    after the last point.  The two input windows hold the two halves of the argument's share; the class invariant
    (the scratch buffers at some contents and the generator register) yields the data's invariant before point 0
    and comes back after the last point. -/
theorem run_shared (dats : (p : Fin 1) → (c : Dev nD) → Dat τ (Elt F) Unit ℕ (UR sig nD τ) ℕ (cfgs p) c)
    (hbody : ∀ c, Pipeline.BodyObligationLoose (dats 0 c) defs₀ Variants.none () Set.univ)
    (hq0 : ∀ c, (dats 0 c).q 0 = fullShare.left) (hq1 : ∀ c, (dats 0 c).q 1 = fullShare.right)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩
      (fun r => ∀ c : Dev nD, ∀ w, r.2.mem (((cfgs 0).spec w).arr.view.loc (c.tc : Thread nD τ)) = (dats 0 c).arrAt w cfg0.N) := by
  classical
  exact Pipeline.θ_run_region_pf (fun p => (cfgs p).toPCfg (Val := Elt F)) (fun p => (cfgs p).toPCfg_adm) dats () cellOf_inj 0
    winFacts₀0 (Pipeline.OwnSemFacts.none spec0) (Pipeline.PreFacts.none _) emb₁ defs₀ Variants.none m ρ main
    hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_arrBufs m (dats 0 c) (hq0 c) (hq1 c) (hA c))
    (hpf := fun _ k => k.elim0)
    (X := fun c => iprop(∃ r, prngReg c r)) (Y := fun c => iprop(∃ r, prngReg c r))
    (Z := fun _ => iprop(emp))
    (hX := fun c => by
      iintro ⟨-, -, -, -, Hp, -⟩; imodintro
      isplitl [Hp]; · iexists _; iexact Hp
      iempintro)
    (hin := fun c => (show _ ⊢ Pipeline.ΦA spec0 c by
        unfold Pipeline.ΦA; iintro ⟨Hp, -, Hr⟩
        isplitl [Hr] <;> iassumption).trans (hin c))
    (hout := fun c => (hout c).trans (by
        rw [Pipeline.ownSems0_none]; unfold Pipeline.ΦA
        iintro ⟨Hr, Hp⟩
        isplitl [Hp]; · iexact Hp
        isplitr; · iempintro
        iexact Hr))
    (QY := fun _ _ => True)
    (hY := fun c s' => by
      iintro ⟨-, -, HSI⟩; imodintro
      isplitr; · ipureintro; trivial
      iexact HSI)
    (hQ := fun s h c w => (h c).1 w)

/-- What the run leaves in the two buffers: the argument as it was at the launch (no window writes it: both windows on
    it are inputs), and the result at what the proof data computes for the output window after the last point. -/
theorem run_shared_io (dats : (p : Fin 1) → (c : Dev nD) → Dat τ (Elt F) Unit ℕ (UR sig nD τ) ℕ (cfgs p) c)
    (hbody : ∀ c, Pipeline.BodyObligationLoose (dats 0 c) defs₀ Variants.none () Set.univ)
    (hq0 : ∀ c, (dats 0 c).q 0 = fullShare.left) (hq1 : ∀ c, (dats 0 c).q 1 = fullShare.right)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
        ∧ r.2.mem ((c.tc : Thread nD τ).loc main_v0) = (dats 0 c).arrAt 2 cfg0.N) :=
  (θ_run defs _ _).mono
    (fun r h c => ⟨((h c 0).trans ((dats 0 c).arrAt_in 0 rfl _)).trans (hA c 0), h c 2⟩)
    (run_shared m ρ dats hbody hq0 hq1 howed hA hin hout)

end Cert.Kernel.Attn

end
-- ==== Proof.Kernel.Frame.lean ====
/-
  The run of `Kernel` and its frame.

  The body obligation (every grid point, by the two whole-body runs) and the launch of a region whose two input
  windows share the argument array give: every weakly fair execution of @main terminates, nothing faults, the result
  array ends at what the write-backs of the odd grid points (the last key/value tile of each query tile) leave in it,
  and the argument array ends as it began.
-/
import proofs.«159938_j14027363188928_2_alg».proof.Proof.Kernel.Body
import proofs.«159938_j14027363188928_2_alg».proof.Proof.Kernel.Launch

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: the result array at the proof data's final contents, the argument unchanged. -/
theorem run_main : θ_run (defs (F := F)) (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run (defs (F := F)) _ _).mono (fun _ h c => ⟨(h c).2, (h c).1⟩)
    (run_shared_io m ρ (dats m) (fun c => (body_obligation m c).loose) (fun _ => rfl) (fun _ => rfl) (fun _ _ => rfl)
      (A_eq m) (hin m) (hout m))

/-- The frame: @main runs to the end without a fault and leaves its argument array unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run (defs (F := F)) _ _).mono (fun _ h c => (h c).2) (run_main m ρ)

end Cert.Kernel.Attn

end
-- ==== Proof.KernelIdeal.Base.lean ====
/-
  What the frame of `KernelIdeal` is stated over.

  The program is one pallas_call on the grid (16 batches) × (4 query tiles) × (2 key/value tiles), the key/value
  axis innermost, so grid point t is at key/value tile t mod 2.  Two input windows read ONE array (the queries'
  blocks of 512 rows and the keys'/values' blocks of 1024 rows of the same x); the output window's block is stored
  only at the last key/value tile of a query tile, and three scratch buffers carry the running maximum, the running
  denominator and the running weighted sum from the first key/value tile to the last.

  Here: the arrays as the region finds them (the launch contents: @main is the region alone), a window's block at a
  point, the fact that an input window's staging buffer holds its block at every point whether fetched there or not,
  the body's two branch conditions decided over the grid (first tile: t even; last tile: t odd), where the output
  window is idle, names for the staging and scratch memrefs, and the class invariant with the three scratch buffers
  spelt out.
-/
import proofs.«159938_j14027363188928_2_alg».proof.Proof.Gen.KernelIdeal.Launch
import proofs.«159938_j14027363188928_2_alg».proof.Proof.Gen.KernelIdeal.Skeleton
import proofs.«159938_j14027363188928_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main and the arrays at the region's entry -/

/-- Core `c`'s buffer contents when the region is entered: the launch contents (no host operation precedes it). -/
abbrev V (c : Dev nD) (b : Ref sig .tc) : Buf (Elt F) ((c : Thread nD τ).loc b) := m ((c : Thread nD τ).loc b)

/-- @main is the region alone. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The queries' staging buffer holds the query block at every point — fetched there (first key/value tile) or
    left from the point before (same query tile, the block index has not moved) — for any proof data whose array is
    the entry contents and whose body leaves the block in place. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The keys'/values' staging buffer holds the key/value block at every point (it is fetched at every point). -/
theorem before_kv_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first key/value tile": the condition under which the body resets the three scratch buffers. -/
abbrev condFirst (i : grid0.Coords) : Prop := (Scalar.cmpi .ne (Scalar.extui (Scalar.cmpi .eq (BitVec.ofNat 32 (i 2).val) 0#32)) 0#32) = 1#1
/-- It holds at the even points. -/
theorem hcondFirst : ∀ t : Fin cfg0.N, condFirst (grid0.coords t) ↔ t.val % 2 = 0 :=
  (by decide +kernel : ∀ t : Fin grid0.N, condFirst (grid0.coords t) ↔ t.val % 2 = 0)

/-- "This is the last key/value tile": the condition under which the body stores the output block. -/
abbrev condLast (i : grid0.Coords) : Prop := k0_cond2 i = 1#1
/-- It holds at the odd points. -/
theorem hcondLast : ∀ t : Fin cfg0.N, condLast (grid0.coords t) ↔ t.val % 2 = 1 :=
  (by decide +kernel : ∀ t : Fin grid0.N, condLast (grid0.coords t) ↔ t.val % 2 = 1)

/-! ## Where the windows are idle -/

theorem live_q : ∀ t : Fin cfg0.N, cfg0.idle 0 (grid0.coords t) = false := by decide +kernel
theorem live_kv : ∀ t : Fin cfg0.N, cfg0.idle 1 (grid0.coords t) = false := by decide +kernel
/-- At a first tile the body stores nothing into the output window, -/
theorem idle_out_first : ∀ t : Fin cfg0.N, condFirst (grid0.coords t) → ¬condLast (grid0.coords t) → cfg0.idle 2 (grid0.coords t) = true := by decide +kernel
/-- and the pipeline does not write its block back there. -/
theorem noFlush_out_first : ∀ t : Fin cfg0.N, condFirst (grid0.coords t) → ¬condLast (grid0.coords t) → (cfg0.win 2).flush t = false := by decide +kernel
/-- At a last tile the output window is live. -/
theorem live_out_last : ∀ t : Fin cfg0.N, ¬condFirst (grid0.coords t) → condLast (grid0.coords t) → cfg0.idle 2 (grid0.coords t) = false := by decide +kernel

/-! ## The memrefs the body is called with -/

/-- One staging buffer of the output window, through which its contents are stated. -/
abbrev VOut : View sig .tc .vmem S1x512x256 .f32 := (Memref.whole cc0_stg2_0 : Memref sig .tc .vmem S1x512x256 .f32).view
abbrev msQ (t : Fin cfg0.N) : Memref sig .tc .vmem S1x512x256 .f32 := win0_0.stage (cfg0.slots t 0)
abbrev hsQ (t : Fin cfg0.N) : (msQ t).IsWhole := hstage0_0 ((cfg0.slots t 0).cast nbuf0_0)
abbrev msKV (t : Fin cfg0.N) : Memref sig .tc .vmem S1x1024x256 .f32 := win0_1.stage (cfg0.slots t 1)
abbrev hsKV (t : Fin cfg0.N) : (msKV t).IsWhole := hstage0_1 ((cfg0.slots t 1).cast nbuf0_1)
abbrev msO (t : Fin cfg0.N) : Memref sig .tc .vmem S1x512x256 .f32 := win0_2.stage (cfg0.slots t 2)
abbrev hsO (t : Fin cfg0.N) : (msO t).IsWhole := hstage0_2 ((cfg0.slots t 2).cast nbuf0_2)
/-- The scratch operands: the running maximum, the running denominator, the running weighted sum. -/
abbrev scMax : Memref sig .tc .vmem S512x1 .f32 := Memref.whole cc0_scratch0
abbrev scDen : Memref sig .tc .vmem S512x1 .f32 := Memref.whole cc0_scratch1
abbrev scAcc : Memref sig .tc .vmem S512x256 .f32 := Memref.whole cc0_scratch2
abbrev VMax : View sig .tc .vmem S512x1 .f32 := scMax.view
abbrev VDen : View sig .tc .vmem S512x1 .f32 := scDen.view
abbrev VAcc : View sig .tc .vmem S512x256 .f32 := scAcc.view

/-- The class invariant with the three scratch buffers as memrefs owned at some contents. -/
theorem PhiA_eq (c : Dev nD) :
    (Pipeline.ΦA spec0 c : sProp 𝕄)
      = iprop(iprop((∃ d, owns (c : Thread nD τ) scMax fullShare d) ∗ (∃ d, owns (c : Thread nD τ) scDen fullShare d) ∗ (∃ d, owns (c : Thread nD τ) scAcc fullShare d)) ∗ (∃ r, prngReg c r)) := by
  unfold Pipeline.ΦA; rw [scopedRest0_eq]; simp only [scMax, scDen, scAcc, owns_whole]; try rfl

end Cert.KernelIdeal.Attn

end
-- ==== Proof.KernelIdeal.RunFirst.lean ====
/-
  The kernel body at a FIRST key/value tile, run once on symbolic memrefs.

  At such a point the body resets the three scratch buffers (running maximum to -inf, running denominator and running
  weighted sum to 0), folds the key/value tile into them, and stores nothing into the output block.  The run holds the
  two input blocks at their contents and hands them back unchanged, hands the output's staging buffer back untouched,
  and leaves each scratch buffer with the pieces its stores wrote (the reset, then the update), which the run finds.
-/
import proofs.«159938_j14027363188928_2_alg».proof.Proof.KernelIdeal.Base

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the stores of a first-tile point leave in the three scratch buffers (last store first), with the proof
    that from whole memrefs — the inputs at `xq`, `xkv`, the output's buffer at any `xi`, the scratch at anything —
    the body runs to a continuation that gets the inputs and the output's buffer back as they were and each scratch
    buffer with its pieces written. -/
noncomputable def runFirst (c : Dev nD) (i : grid0.Coords) (arg3 : Memref sig .tc .vmem S1x512x256 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hcF : condFirst i) (hcL : ¬condLast i)
    (xq : Vec F S1x512x256 .f32) (xkv : Vec F S1x1024x256 .f32) :
    Σ' (LMax : List (View.Piece (Elt F) S512x1 .f32)) (LDen : List (View.Piece (Elt F) S512x1 .f32)), { LAcc : List (View.Piece (Elt F) S512x256 .f32) //
      ∀ (xi : Vec F S1x512x256 .f32) (E : Set ℕ) (K : PUnit → sProp 𝕄),
        iprop(owns (c : Thread nD τ) arg3 fullShare xq ∗ owns (c : Thread nD τ) arg4 fullShare xkv ∗ owns (c : Thread nD τ) arg5 fullShare xi
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare xq ∗ owns (c : Thread nD τ) arg4 fullShare xkv ∗ owns (c : Thread nD τ) arg5 fullShare xi
                ∗ (∃ f, arg6.view.loc (c : Thread nD τ) ↦[arg6.view.set]{fullShare} arg6.view.writes (Elt F) f LMax)
                ∗ (∃ f, arg7.view.loc (c : Thread nD τ) ↦[arg7.view.set]{fullShare} arg7.view.writes (Elt F) f LDen)
                ∗ (∃ f, arg8.view.loc (c : Thread nD τ) ↦[arg8.view.set]{fullShare} arg8.view.writes (Elt F) f LAcc)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, ?_, fun xi E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    iexists _; iexact HS2

end Cert.KernelIdeal.Attn

end
-- ==== Proof.KernelIdeal.RunLast.lean ====
/-
  The kernel body at a LAST key/value tile, run once on symbolic memrefs.

  At such a point the body does not reset the scratch: it finds the running maximum, denominator and weighted sum the
  point before left, folds the key/value tile into them, and stores the quotient (weighted sum / denominator) into the
  output block.  The run holds the two input blocks and the three scratch buffers at their contents and leaves the
  output's staging buffer and each scratch buffer with the pieces its stores wrote, which the run finds.
-/
import proofs.«159938_j14027363188928_2_alg».proof.Proof.KernelIdeal.Base

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the stores of a last-tile point leave in the output's staging buffer and the three scratch buffers, with
    the proof that from whole memrefs — the inputs at `xq`, `xkv`, the output's buffer at anything, the scratch at what
    the point before left (`xm`, `xl`, `xa`) — the body runs to a continuation that gets the inputs back as they were and
    the four written buffers with their pieces written. -/
noncomputable def runLast (c : Dev nD) (i : grid0.Coords) (arg3 : Memref sig .tc .vmem S1x512x256 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x256 .f32) (harg8 : arg8.IsWhole) (hcF : ¬condFirst i) (hcL : condLast i)
    (xq : Vec F S1x512x256 .f32) (xkv : Vec F S1x1024x256 .f32) (xm xl : Vec F S512x1 .f32) (xa : Vec F S512x256 .f32) :
    Σ' (LOut : List (View.Piece (Elt F) S1x512x256 .f32)) (LMax : List (View.Piece (Elt F) S512x1 .f32)) (LDen : List (View.Piece (Elt F) S512x1 .f32)), { LAcc : List (View.Piece (Elt F) S512x256 .f32) //
      ∀ (E : Set ℕ) (K : PUnit → sProp 𝕄),
        iprop(owns (c : Thread nD τ) arg3 fullShare xq ∗ owns (c : Thread nD τ) arg4 fullShare xkv ∗ (∃ d, owns (c : Thread nD τ) arg5 fullShare d)
            ∗ owns (c : Thread nD τ) arg6 fullShare xm ∗ owns (c : Thread nD τ) arg7 fullShare xl ∗ owns (c : Thread nD τ) arg8 fullShare xa
            ∗ (iprop(owns (c : Thread nD τ) arg3 fullShare xq ∗ owns (c : Thread nD τ) arg4 fullShare xkv
                ∗ (∃ f, arg5.view.loc (c : Thread nD τ) ↦[arg5.view.set]{fullShare} arg5.view.writes (Elt F) f LOut)
                ∗ (∃ f, arg6.view.loc (c : Thread nD τ) ↦[arg6.view.set]{fullShare} arg6.view.writes (Elt F) f LMax)
                ∗ (∃ f, arg7.view.loc (c : Thread nD τ) ↦[arg7.view.set]{fullShare} arg7.view.writes (Elt F) f LDen)
                ∗ (∃ f, arg8.view.loc (c : Thread nD τ) ↦[arg8.view.set]{fullShare} arg8.view.writes (Elt F) f LAcc)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg3.eq_unread hf0; obtain rfl := harg4.eq_unread hf1
    obtain rfl := harg6.eq_unread hfs0; obtain rfl := harg7.eq_unread hfs1; obtain rfl := harg8.eq_unread hfs2
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    isplitl [HS1]; · iexists _; iexact HS1
    iexists _; iexact HS2

end Cert.KernelIdeal.Attn

end
-- ==== Proof.KernelIdeal.State.lean ====
/-
  What the output's staging buffer and the three scratch buffers hold after each grid point, and the proof data of the
  pipeline.

  Grid point t is the key/value tile t mod 2 of a query tile.  At an even point (first tile) the scratch buffers end
  at what the first-tile run leaves from the reset values; at an odd point (last tile) they and the output block end at
  what the last-tile run leaves from the scratch contents of the point before.  The region invariant carries the three
  scratch buffers at exactly those contents from one point to the next; before the first point it is the class
  invariant (the scratch at anything).  The two input windows lie on one array: each holds half of its share.
-/
import proofs.«159938_j14027363188928_2_alg».proof.Proof.KernelIdeal.RunFirst
import proofs.«159938_j14027363188928_2_alg».proof.Proof.KernelIdeal.RunLast

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state after a point: the output's staging buffer, the running maximum, the running denominator, the running
    weighted sum. -/
abbrev St (F : FTy → Type) [FloatOps F] : Type := Vec F S1x512x256 .f32 × Vec F S512x1 .f32 × Vec F S512x1 .f32 × Vec F S512x256 .f32

/-- The first-tile run at point `t`, on the point's memrefs and input blocks. -/
def rf (c : Dev nD) (t : Fin cfg0.N) (h0 : t.val % 2 = 0) :=
  runFirst (F := F) c (grid0.coords t) (msQ t) (hsQ t) (msKV t) (hsKV t) (msO t) (hsO t) scMax (Memref.isWhole_whole _) scDen (Memref.isWhole_whole _) scAcc (Memref.isWhole_whole _)
    ((hcondFirst t).mpr h0) (fun h => by have := (hcondLast t).mp h; omega) (iblk m c 0 t) (iblk m c 1 t)

/-- The last-tile run at point `t`, on the point's memrefs and input blocks, from the scratch contents `s`. -/
def rl (c : Dev nD) (t : Fin cfg0.N) (h0 : ¬t.val % 2 = 0) (s : St F) :=
  runLast (F := F) c (grid0.coords t) (msQ t) (hsQ t) (msKV t) (hsKV t) (msO t) (hsO t) scMax (Memref.isWhole_whole _) scDen (Memref.isWhole_whole _) scAcc (Memref.isWhole_whole _)
    (fun h => h0 ((hcondFirst t).mp h)) ((hcondLast t).mpr (by omega)) (iblk m c 0 t) (iblk m c 1 t) s.2.1 s.2.2.1 s.2.2.2

/-- The state after a first-tile point: the scratch buffers' pieces read back; the output's buffer is not stored into
    (a placeholder nothing consults: the window is idle there and not written back). -/
def stFirst (c : Dev nD) (t : Fin cfg0.N) (h0 : t.val % 2 = 0) : St F :=
  (VOut.read (Elt F) VOut.junk,
   VMax.read (Elt F) (VMax.writes (Elt F) VMax.junk (rf m c t h0).1),
   VDen.read (Elt F) (VDen.writes (Elt F) VDen.junk (rf m c t h0).2.1),
   VAcc.read (Elt F) (VAcc.writes (Elt F) VAcc.junk (rf m c t h0).2.2.1))

/-- The state after a last-tile point, from the state `s` the point before left. -/
def stLast (c : Dev nD) (t : Fin cfg0.N) (h0 : ¬t.val % 2 = 0) (s : St F) : St F :=
  (VOut.read (Elt F) (VOut.writes (Elt F) VOut.junk (rl m c t h0 s).1),
   VMax.read (Elt F) (VMax.writes (Elt F) VMax.junk (rl m c t h0 s).2.1),
   VDen.read (Elt F) (VDen.writes (Elt F) VDen.junk (rl m c t h0 s).2.2.1),
   VAcc.read (Elt F) (VAcc.writes (Elt F) VAcc.junk (rl m c t h0 s).2.2.2.1))

/-! ## The stores of each case cover the buffers they write -/

theorem cover_first_max (c : Dev nD) (t : Fin cfg0.N) (h0 : t.val % 2 = 0) (y : S512x1.Idx) : ∃ pc ∈ (rf m c t h0).1, y ∈ pc.1.set :=
  View.cover_of_tiledL (rf m c t h0).1 S512x1.size (by sl_kernel_rfl) y
theorem cover_first_den (c : Dev nD) (t : Fin cfg0.N) (h0 : t.val % 2 = 0) (y : S512x1.Idx) : ∃ pc ∈ (rf m c t h0).2.1, y ∈ pc.1.set :=
  View.cover_of_tiledL (rf m c t h0).2.1 S512x1.size (by sl_kernel_rfl) y
theorem cover_first_acc (c : Dev nD) (t : Fin cfg0.N) (h0 : t.val % 2 = 0) (y : S512x256.Idx) : ∃ pc ∈ (rf m c t h0).2.2.1, y ∈ pc.1.set :=
  View.cover_of_tiledL (rf m c t h0).2.2.1 S512x256.size (by sl_kernel_rfl) y
theorem cover_last_out (c : Dev nD) (t : Fin cfg0.N) (h0 : ¬t.val % 2 = 0) (s : St F) (y : S1x512x256.Idx) : ∃ pc ∈ (rl m c t h0 s).1, y ∈ pc.1.set :=
  View.cover_of_tiledL (rl m c t h0 s).1 S1x512x256.size (by sl_kernel_rfl) y
theorem cover_last_max (c : Dev nD) (t : Fin cfg0.N) (h0 : ¬t.val % 2 = 0) (s : St F) (y : S512x1.Idx) : ∃ pc ∈ (rl m c t h0 s).2.1, y ∈ pc.1.set :=
  View.cover_of_tiledL (rl m c t h0 s).2.1 S512x1.size (by sl_kernel_rfl) y
theorem cover_last_den (c : Dev nD) (t : Fin cfg0.N) (h0 : ¬t.val % 2 = 0) (s : St F) (y : S512x1.Idx) : ∃ pc ∈ (rl m c t h0 s).2.2.1, y ∈ pc.1.set :=
  View.cover_of_tiledL (rl m c t h0 s).2.2.1 S512x1.size (by sl_kernel_rfl) y
theorem cover_last_acc (c : Dev nD) (t : Fin cfg0.N) (h0 : ¬t.val % 2 = 0) (s : St F) (y : S512x256.Idx) : ∃ pc ∈ (rl m c t h0 s).2.2.2.1, y ∈ pc.1.set :=
  View.cover_of_tiledL (rl m c t h0 s).2.2.2.1 S512x256.size (by sl_kernel_rfl) y

/-! ## The state point by point -/

/-- The state after the body at position `n`, by recursion on the point. -/
def outsAt (c : Dev nD) : (n : ℕ) → n < cfg0.N → St F
  | 0, hn => stFirst m c ⟨0, hn⟩ (Nat.zero_mod _)
  | n + 1, hn =>
    if h0 : (n + 1) % 2 = 0 then stFirst m c ⟨n + 1, hn⟩ h0
    else stLast m c ⟨n + 1, hn⟩ h0 (outsAt c n (Nat.lt_of_succ_lt hn))

theorem outsAt_first (c : Dev nD) (t : Fin cfg0.N) (h0 : t.val % 2 = 0) : outsAt m c t.val t.isLt = stFirst m c t h0 := by
  obtain ⟨n, hn⟩ := t
  cases n with
  | zero => rfl
  | succ n => exact dif_pos h0

theorem outsAt_last (c : Dev nD) (t : Fin cfg0.N) (h0 : ¬t.val % 2 = 0) :
    outsAt m c t.val t.isLt = stLast m c t h0 (outsAt m c (t.val - 1) (Nat.lt_of_le_of_lt (Nat.sub_le _ _) t.isLt)) := by
  obtain ⟨n, hn⟩ := t
  cases n with
  | zero => exact absurd (Nat.zero_mod _) h0
  | succ n => exact dif_neg h0

/-! ## The region invariant -/

/-- Before position `n`: the class invariant before the first point; afterwards the three scratch buffers at what the
    point before left, and the generator register at some state. -/
def PhiS (c : Dev nD) : (n : ℕ) → n ≤ cfg0.N → sProp 𝕄
  | 0, _ => Pipeline.ΦA spec0 c
  | n + 1, hn => iprop(iprop(owns (c : Thread nD τ) scMax fullShare (outsAt m c n hn).2.1 ∗ owns (c : Thread nD τ) scDen fullShare (outsAt m c n hn).2.2.1
      ∗ owns (c : Thread nD τ) scAcc fullShare (outsAt m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMax fullShare (outsAt m c n hn).2.1 ∗ owns (c : Thread nD τ) scDen fullShare (outsAt m c n hn).2.2.1
      ∗ owns (c : Thread nD τ) scAcc fullShare (outsAt m c n hn).2.2.2) ∗ (∃ r, prngReg c r)) := rfl

theorem PhiS_pos (c : Dev nD) (n : ℕ) (h : n ≤ cfg0.N) (hz : n ≠ 0) :
    PhiS m c n h = iprop(iprop(owns (c : Thread nD τ) scMax fullShare (outsAt m c (n - 1) (by omega)).2.1 ∗ owns (c : Thread nD τ) scDen fullShare (outsAt m c (n - 1) (by omega)).2.2.1
      ∗ owns (c : Thread nD τ) scAcc fullShare (outsAt m c (n - 1) (by omega)).2.2.2) ∗ (∃ r, prngReg c r)) := by
  cases n with
  | zero => exact absurd rfl hz
  | succ n => rfl

/-! ## The proof data -/

/-- The proof data of the pipeline on core `c`: the arrays as the region finds them; after the body each input's buffer at
    its block and the output's at the state's first component; the invariant `PhiS`; nothing owed; the one array behind
    the two input windows held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_q (c : Dev nD) (t : Fin cfg0.N) : (dats m 0 c).after 0 t = iblk m c 0 t := by dsimp only [dats]
theorem after_kv (c : Dev nD) (t : Fin cfg0.N) : (dats m 0 c).after 1 t = iblk m c 1 t := by dsimp only [dats]
theorem after_out (c : Dev nD) (t : Fin cfg0.N) : (dats m 0 c).after 2 t = (outsAt m c t.val t.isLt).1 := by dsimp only [dats]

theorem before_q (c : Dev nD) (t : Fin cfg0.N) (d) : (dats m 0 c).before 0 t d = iblk m c 0 t :=
  before_q_of m (dats m 0 c) (A_eq m c 0) (after_q m c) t d
theorem before_kv (c : Dev nD) (t : Fin cfg0.N) (d) : (dats m 0 c).before 1 t d = iblk m c 1 t :=
  before_kv_of m (dats m 0 c) (A_eq m c 1) (after_kv m c) t d

end Cert.KernelIdeal.Attn

end
-- ==== Proof.KernelIdeal.Body.lean ====
/-
  The body obligation of the pipeline: at every grid point, from what the pipeline hands the body — the invariant
  before the point, and each window's current staging buffer at what it holds there — the body runs and hands back the
  invariant after the point and each buffer at what the proof data say it leaves.

  An even point is a first key/value tile (the scratch may hold anything: at the very first point by the class
  invariant, later because what an earlier query tile left is forgotten); an odd point is a last tile and finds the
  scratch at what the point before left.  Each case is the corresponding whole-body run.
-/
import proofs.«159938_j14027363188928_2_alg».proof.Proof.KernelIdeal.State

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (msQ t) fullShare ((dats m 0 c).before 0 t d))
    ∗ (∃ d, owns (c : Thread nD τ) (msKV t) fullShare ((dats m 0 c).before 1 t d))
    ∗ (∃ d, owns (c : Thread nD τ) (msO t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_kv]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (msQ t) fullShare ((dats m 0 c).after 0 t) from by
    unfold Dat.leavesExact; rw [live_q t], after_q]
  rw [show (dats m 0 c).leavesExact 1 t = owns (c : Thread nD τ) (msKV t) fullShare ((dats m 0 c).after 1 t) from by
    unfold Dat.leavesExact; rw [live_kv t], after_kv]
  have hN : t.val < 128 := lt_of_lt_of_eq t.isLt (show cfg0.N = 128 from N_0)
  by_cases h0 : t.val % 2 = 0
  · have hcF : condFirst (grid0.coords t) := (hcondFirst t).mpr h0
    have hcL : ¬condLast (grid0.coords t) := fun h => by have := (hcondLast t).mp h; omega
    rw [Dat.leavesExact_idle (dats m 0 c) 2 t (idle_out_first t hcF hcL) (noFlush_out_first t hcF hcL)]
    rw [outsAt_first m c t h0]
    unfold stFirst; dsimp only
    by_cases hz : t.val = 0
    · rw [PhiS_castSucc m c t, PhiS_zero m c _ _ hz, PhiA_eq]
      iintro ⟨⟨⟨HS0, HS1, HS2⟩, Hg⟩, Ho, ⟨%d0, H0⟩, ⟨%d1, H1⟩, ⟨%d2, H2⟩⟩
      iapply ((rf m c t h0).2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%e0, HS0⟩, ⟨%e1, HS1⟩, ⟨%e2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (cover_first_max m c t h0)
          isplitl [HS1]
          · unfold owns; iexists _; isplitr
            swap; · iexact HS1
            ipureintro; exact View.read_writes_of_cover _ _ _ _ _ (cover_first_den m c t h0)
          unfold owns; iexists _; isplitr
          swap; · iexact HS2
          ipureintro; exact View.read_writes_of_cover _ _ _ _ _ (cover_first_acc m c t h0)
        iexact Hg
      isplitl [Ho]; · iexact Ho
      isplitl [H0]; · iexact H0
      isplitl [H1]; · iexact H1
      iexists _; iexact H2
    · rw [PhiS_castSucc m c t, PhiS_pos m c _ _ hz]
      iintro ⟨⟨⟨HS0, HS1, HS2⟩, Hg⟩, Ho, ⟨%d0, H0⟩, ⟨%d1, H1⟩, ⟨%d2, H2⟩⟩
      iapply ((rf m c t h0).2.2.2 _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, ⟨%e0, HS0⟩, ⟨%e1, HS1⟩, ⟨%e2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (cover_first_max m c t h0)
          isplitl [HS1]
          · unfold owns; iexists _; isplitr
            swap; · iexact HS1
            ipureintro; exact View.read_writes_of_cover _ _ _ _ _ (cover_first_den m c t h0)
          unfold owns; iexists _; isplitr
          swap; · iexact HS2
          ipureintro; exact View.read_writes_of_cover _ _ _ _ _ (cover_first_acc m c t h0)
        iexact Hg
      isplitl [Ho]; · iexact Ho
      isplitl [H0]; · iexact H0
      isplitl [H1]; · iexact H1
      iexists _; iexact H2
  · have hcF : ¬condFirst (grid0.coords t) := fun h => h0 ((hcondFirst t).mp h)
    have hcL : condLast (grid0.coords t) := (hcondLast t).mpr (by omega)
    have hz : t.val ≠ 0 := fun h => h0 (by rw [h])
    rw [show (dats m 0 c).leavesExact 2 t = owns (c : Thread nD τ) (msO t) fullShare ((dats m 0 c).after 2 t) from by
      unfold Dat.leavesExact; rw [live_out_last t hcF hcL], after_out]
    rw [outsAt_last m c t h0]
    unfold stLast; dsimp only
    rw [PhiS_castSucc m c t, PhiS_pos m c _ _ hz]
    iintro ⟨⟨⟨HS0, HS1, HS2⟩, Hg⟩, Ho, ⟨%d0, H0⟩, ⟨%d1, H1⟩, ⟨%d2, H2⟩⟩
    iapply ((rl m c t h0 _).2.2.2.2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e, H2⟩, ⟨%e0, HS0⟩, ⟨%e1, HS1⟩, ⟨%e2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (cover_last_max m c t h0 _)
        isplitl [HS1]
        · unfold owns; iexists _; isplitr
          swap; · iexact HS1
          ipureintro; exact View.read_writes_of_cover _ _ _ _ _ (cover_last_den m c t h0 _)
        unfold owns; iexists _; isplitr
        swap; · iexact HS2
        ipureintro; exact View.read_writes_of_cover _ _ _ _ _ (cover_last_acc m c t h0 _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover_last_out m c t h0 _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Attn

end
-- ==== Proof.KernelIdeal.Launch.lean ====
/-
  The launch of `KernelIdeal`'s region.

  The two input windows of the pallas_call — the queries' blocks and the keys'/values' blocks — read ONE array, the
  program's argument; the third window writes the result.  At the region's entry the core holds each of the two
  buffers behind the windows' arrays whole; the argument's full share is split in its two halves, one for each
  input window (an input window only reads, so any positive share serves it), and the result is handed to the
  output window whole.  With that split the region runs as any pipeline does; at the end the argument is what it
  was at the entry (no window writes it) and the result is what the proof data computes from the body's
  write-backs.
-/
import proofs.«159938_j14027363188928_2_alg».proof.Proof.KernelIdeal.Base
import Idealize.ShloMosaic.Lib.Pipeline.Frame

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- The buffers behind the windows' arrays: the argument (read by both input windows) and the result. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v0) ↦{fullShare} V m c main_v0)) := by
  unfold Pipeline.arrBufs
  exact bigSep_eq_bigSepL_of_eq [main_arg0, main_v0] (by decide) (by decide) _

/-- The buffers behind the arrays, each whole, give the proof data's arrays at entry: the argument's full share is
    split in its left half (the queries' window) and its right half (the keys'/values' window); the result goes to the
    output window whole. -/
theorem arrays_of_arrBufs {c : Dev nD} (dat : Dat τ (Elt F) Unit ℕ (UR sig nD τ) ℕ cfg0 c)
    (hq0 : dat.q 0 = fullShare.left) (hq1 : dat.q 1 = fullShare.right)
    (hA : ∀ w, dat.A w = V m c (Pipeline.arrRef spec0 w)) :
    (Pipeline.arrBufs (Ix := Unit) (Name := ℕ) (U := UR sig nD τ) (Lvl := ℕ) spec0 c (V m c) : sProp 𝕄) ⊢ dat.arrays (dat.arrAt · 0) := by
  have hs0 : dat.share 0 = fullShare.left := by unfold Dat.share; rw [if_neg (by decide)]; exact hq0
  have hs1 : dat.share 1 = fullShare.right := by unfold Dat.share; rw [if_neg (by decide)]; exact hq1
  have hs2 : dat.share 2 = fullShare := by unfold Dat.share; rw [if_pos (by decide)]
  have e0 : dat.arrAt 0 0 = V m c main_arg0 := hA 0
  have e1 : dat.arrAt 1 0 = V m c main_arg0 := hA 1
  have e2 : dat.arrAt 2 0 = V m c main_v0 := hA 2
  rw [arrBufs_eq]
  unfold Dat.arrays
  rw [bigSep_W0]
  beta_reduce
  rw [hs0, hs1, hs2, e0, e1, e2, (arr_whole0 0).set_eq_univ, (arr_whole0 2).set_eq_univ]
  iintro ⟨HA, HB⟩
  ihave HA := (pointsTo_share (PosShare.mem_left_op_right fullShare)).1 $$ HA
  icases HA with ⟨HA₁, HA₂⟩
  isplitl [HA₁]; · iexact HA₁
  isplitl [HA₂]; · iexact HA₂
  iexact HB

/-! ## The run of the region -/

set_option backward.isDefEq.respectTransparency.types false in
/-- THE RUN: at the compiled mesh, for any values, from any memory with zero counters, every weakly fair execution
    of @main terminates, and in every final state each window's array holds what the proof data computes for it
    after the last point.  The two input windows hold the two halves of the argument's share; the class invariant
    (the scratch buffers at some contents and the generator register) yields the data's invariant before point 0
    and comes back after the last point. -/
theorem run_shared (dats : (p : Fin 1) → (c : Dev nD) → Dat τ (Elt F) Unit ℕ (UR sig nD τ) ℕ (cfgs p) c)
    (hbody : ∀ c, Pipeline.BodyObligationLoose (dats 0 c) defs₀ Variants.none () Set.univ)
    (hq0 : ∀ c, (dats 0 c).q 0 = fullShare.left) (hq1 : ∀ c, (dats 0 c).q 1 = fullShare.right)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩
      (fun r => ∀ c : Dev nD, ∀ w, r.2.mem (((cfgs 0).spec w).arr.view.loc (c.tc : Thread nD τ)) = (dats 0 c).arrAt w cfg0.N) := by
  classical
  exact Pipeline.θ_run_region_pf (fun p => (cfgs p).toPCfg (Val := Elt F)) (fun p => (cfgs p).toPCfg_adm) dats () cellOf_inj 0
    winFacts₀0 (Pipeline.OwnSemFacts.none spec0) (Pipeline.PreFacts.none _) emb₁ defs₀ Variants.none m ρ main
    hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_arrBufs m (dats 0 c) (hq0 c) (hq1 c) (hA c))
    (hpf := fun _ k => k.elim0)
    (X := fun c => iprop(∃ r, prngReg c r)) (Y := fun c => iprop(∃ r, prngReg c r))
    (Z := fun _ => iprop(emp))
    (hX := fun c => by
      iintro ⟨-, -, -, -, Hp, -⟩; imodintro
      isplitl [Hp]; · iexists _; iexact Hp
      iempintro)
    (hin := fun c => (show _ ⊢ Pipeline.ΦA spec0 c by
        unfold Pipeline.ΦA; iintro ⟨Hp, -, Hr⟩
        isplitl [Hr] <;> iassumption).trans (hin c))
    (hout := fun c => (hout c).trans (by
        rw [Pipeline.ownSems0_none]; unfold Pipeline.ΦA
        iintro ⟨Hr, Hp⟩
        isplitl [Hp]; · iexact Hp
        isplitr; · iempintro
        iexact Hr))
    (QY := fun _ _ => True)
    (hY := fun c s' => by
      iintro ⟨-, -, HSI⟩; imodintro
      isplitr; · ipureintro; trivial
      iexact HSI)
    (hQ := fun s h c w => (h c).1 w)

/-- What the run leaves in the two buffers: the argument as it was at the launch (no window writes it: both windows on
    it are inputs), and the result at what the proof data computes for the output window after the last point. -/
theorem run_shared_io (dats : (p : Fin 1) → (c : Dev nD) → Dat τ (Elt F) Unit ℕ (UR sig nD τ) ℕ (cfgs p) c)
    (hbody : ∀ c, Pipeline.BodyObligationLoose (dats 0 c) defs₀ Variants.none () Set.univ)
    (hq0 : ∀ c, (dats 0 c).q 0 = fullShare.left) (hq1 : ∀ c, (dats 0 c).q 1 = fullShare.right)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
        ∧ r.2.mem ((c.tc : Thread nD τ).loc main_v0) = (dats 0 c).arrAt 2 cfg0.N) :=
  (θ_run defs _ _).mono
    (fun r h c => ⟨((h c 0).trans ((dats 0 c).arrAt_in 0 rfl _)).trans (hA c 0), h c 2⟩)
    (run_shared m ρ dats hbody hq0 hq1 howed hA hin hout)

end Cert.KernelIdeal.Attn

end
-- ==== Proof.KernelIdeal.Frame.lean ====
/-
  The run of `KernelIdeal` and its frame.

  The body obligation (every grid point, by the two whole-body runs) and the launch of a region whose two input
  windows share the argument array give: every weakly fair execution of @main terminates, nothing faults, the result
  array ends at what the write-backs of the odd grid points (the last key/value tile of each query tile) leave in it,
  and the argument array ends as it began.
-/
import proofs.«159938_j14027363188928_2_alg».proof.Proof.KernelIdeal.Body
import proofs.«159938_j14027363188928_2_alg».proof.Proof.KernelIdeal.Launch

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: the result array at the proof data's final contents, the argument unchanged. -/
theorem run_main : θ_run (defs (F := F)) (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run (defs (F := F)) _ _).mono (fun _ h c => ⟨(h c).2, (h c).1⟩)
    (run_shared_io m ρ (dats m) (fun c => (body_obligation m c).loose) (fun _ => rfl) (fun _ => rfl) (fun _ _ => rfl)
      (A_eq m) (hin m) (hout m))

/-- The frame: @main runs to the end without a fault and leaves its argument array unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run (defs (F := F)) _ _).mono (fun _ h c => (h c).2) (run_main m ρ)

end Cert.KernelIdeal.Attn

end
-- ==== Proof.KernelIdeal.ValueBlocks.lean ====
/-
  The input windows' blocks as entries of the argument.

  Grid point t is (batch, query tile, key/value tile) = (t / 8, (t / 2) mod 4, t mod 2).  The queries' block at t is
  rows [512·qi, 512·qi + 512) of batch b of the argument, the keys'/values' block is rows [1024·ki, 1024·ki + 1024) of
  the same batch: an element of a block sits in the array at block index × block size + its coordinate inside the
  block, on every axis.  The queries' block does not depend on the key/value tile: two points of one query tile read
  the same block.

  Last, the output window's blocks tile the result: row i₁ of batch i₀ is written back at the last key/value tile of
  query tile i₁ / 512.
-/
import proofs.«159938_j14027363188928_2_alg».proof.Proof.KernelIdeal.Base
import Idealize.ShloMosaic.Lib.ValueIdx
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' block indices over the grid -/

/-- The queries' window at point t reads block (t / 8, (t / 2) mod 4, 0). -/
theorem index_q : ∀ t : Fin cfg0.N, win0_0.index t (0 : Fin 3) = t.val / 8 ∧ win0_0.index t (1 : Fin 3) = (t.val / 2) % 4
    ∧ win0_0.index t (2 : Fin 3) = 0 :=
  (by decide +kernel : ∀ t : Fin grid0.N, _)

/-- The keys'/values' window at point t reads block (t / 8, t mod 2, 0). -/
theorem index_kv : ∀ t : Fin cfg0.N, win0_1.index t (0 : Fin 3) = t.val / 8 ∧ win0_1.index t (1 : Fin 3) = t.val % 2
    ∧ win0_1.index t (2 : Fin 3) = 0 :=
  (by decide +kernel : ∀ t : Fin grid0.N, _)

/-! ## The blocks' entries -/

/-- Row r of the queries' block at a point of batch b and query tile qi is row 512·qi + r of batch b. -/
theorem iblk_q_apply (c : Dev nD) (t : Fin cfg0.N) (b : Fin 16) (qi : Fin 4) (ht : t.val / 8 = b.val ∧ (t.val / 2) % 4 = qi.val)
    (r : Fin 512) (d : Fin 256) :
    (iblk m c 0 t : Vec F S1x512x256 .f32) (ValueIdx.ix3 (0 : Fin 1) r d)
      = m ((c.tc : Thread nD τ).loc main_arg0) (ValueIdx.ix3 b (⟨qi.val * 512 + r.val, by omega⟩ : Fin 2048) d) := by
  obtain ⟨e0, e1, e2⟩ := index_q t
  obtain ⟨hb, hq⟩ := ht
  unfold iblk
  show V m c main_arg0 (((cfg0.win 0).blk t).view.emb (ValueIdx.ix3 (0 : Fin 1) r d)) = _
  refine congrArg _ ?_
  funext a; apply Fin.ext
  match a with
  | ⟨0, _⟩ => show win0_0.index t (0 : Fin 3) * 1 + 1 * 0 = b.val; omega
  | ⟨1, _⟩ => show win0_0.index t (1 : Fin 3) * 512 + 1 * r.val = qi.val * 512 + r.val; omega
  | ⟨2, _⟩ => show win0_0.index t (2 : Fin 3) * 256 + 1 * d.val = d.val; omega

/-- Row j of the keys'/values' block at a point of batch b and key/value tile ki is row 1024·ki + j of batch b. -/
theorem iblk_kv_apply (c : Dev nD) (t : Fin cfg0.N) (b : Fin 16) (ki : Fin 2) (ht : t.val / 8 = b.val ∧ t.val % 2 = ki.val)
    (j : Fin 1024) (d : Fin 256) :
    (iblk m c 1 t : Vec F S1x1024x256 .f32) (ValueIdx.ix3 (0 : Fin 1) j d)
      = m ((c.tc : Thread nD τ).loc main_arg0) (ValueIdx.ix3 b (⟨ki.val * 1024 + j.val, by omega⟩ : Fin 2048) d) := by
  obtain ⟨e0, e1, e2⟩ := index_kv t
  obtain ⟨hb, hk⟩ := ht
  unfold iblk
  show V m c main_arg0 (((cfg0.win 1).blk t).view.emb (ValueIdx.ix3 (0 : Fin 1) j d)) = _
  refine congrArg _ ?_
  funext a; apply Fin.ext
  match a with
  | ⟨0, _⟩ => show win0_1.index t (0 : Fin 3) * 1 + 1 * 0 = b.val; omega
  | ⟨1, _⟩ => show win0_1.index t (1 : Fin 3) * 1024 + 1 * j.val = ki.val * 1024 + j.val; omega
  | ⟨2, _⟩ => show win0_1.index t (2 : Fin 3) * 256 + 1 * d.val = d.val; omega

/-- Two points of one query tile read the same queries' block. -/
theorem iblk_q_pair (c : Dev nD) (t t' : Fin cfg0.N) (h : t.val / 2 = t'.val / 2) :
    (iblk m c 0 t : Vec F S1x512x256 .f32) = iblk m c 0 t' := by
  have ht : t.val < 128 := lt_of_lt_of_eq t.isLt N_0
  have ht' : t'.val < 128 := lt_of_lt_of_eq t'.isLt N_0
  funext y
  obtain ⟨z, r, d, rfl⟩ : ∃ (z : Fin 1) (r : Fin 512) (d : Fin 256), y = ValueIdx.ix3 z r d := ⟨y 0, y 1, y 2, ValueIdx.eq_ix3 y⟩
  obtain rfl : z = 0 := Subsingleton.elim _ _
  rw [iblk_q_apply m c t ⟨t.val / 8, by omega⟩ ⟨(t.val / 2) % 4, by omega⟩ ⟨rfl, rfl⟩ r d,
    iblk_q_apply m c t' ⟨t.val / 8, by omega⟩ ⟨(t.val / 2) % 4, by omega⟩ ⟨by show t'.val / 8 = t.val / 8; omega, by show (t'.val / 2) % 4 = (t.val / 2) % 4; omega⟩ r d]

/-! ## The output window's blocks cover the result -/

/-- The output window at point t writes block (t / 8, (t / 2) mod 4, 0). -/
theorem index_out : ∀ t : Fin cfg0.N, win0_2.index t (0 : Fin 3) = t.val / 8 ∧ win0_2.index t (1 : Fin 3) = (t.val / 2) % 4
    ∧ win0_2.index t (2 : Fin 3) = 0 :=
  (by decide +kernel : ∀ t : Fin grid0.N, _)

/-- An index of the result is in point t's block iff each coordinate is in the block's range on its axis. -/
theorem mem_blk_out (t : Fin cfg0.N) (i : S16x2048x256.Idx) :
    i ∈ ((cfg0.win 2).blk t).view.set ↔ ∀ a : Fin 3, win0_2.index t a * S1x512x256.size a ≤ (i a).val
      ∧ (i a).val < win0_2.index t a * S1x512x256.size a + S1x512x256.size a := by
  show i ∈ ((View.whole main_v0).slice (win0_2.rect t)).set ↔ _
  rw [View.set_slice_whole, Rect.mem_set_unit]
  exact Iff.rfl

/-- Every index of the result is written back: row i₁ of batch i₀ at the last key/value tile of query tile i₁ / 512,
    the odd point 8·i₀ + 2·(i₁ / 512) + 1. -/
theorem covered_out (i : S16x2048x256.Idx) :
    ∃ t : Fin cfg0.N, (cfg0.win 2).flush t = true ∧ i ∈ ((cfg0.win 2).blk t).view.set := by
  have h0 : (i 0).val < 16 := (i 0).isLt
  have h1 : (i 1).val < 2048 := (i 1).isLt
  have h2 : (i 2).val < 256 := (i 2).isLt
  obtain ⟨t, ht⟩ : ∃ t : Fin cfg0.N, t.val = (i 0).val * 8 + ((i 1).val / 512) * 2 + 1 :=
    ⟨⟨(i 0).val * 8 + ((i 1).val / 512) * 2 + 1, by show _ < grid0.N; rw [N_0]; omega⟩, rfl⟩
  refine ⟨t, (flush0_2 t).mpr (by omega), ?_⟩
  rw [mem_blk_out]
  obtain ⟨e0, e1, e2⟩ := index_out t
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 256 ≤ (i 2).val ∧ (i 2).val < win0_2.index t (2 : Fin 3) * 256 + 256
    omega

end Cert.KernelIdeal.Attn

end
-- ==== Proof.KernelIdeal.Value1.lean ====
/-
  What the body leaves at a grid point, read as values.

  The body's runs at a first and at a last key/value tile record, for each buffer they store into, the list of
  pieces stored.  Every store of this kernel covers its whole buffer, so what a buffer holds afterwards is the payload
  of its last store; and every load reads a whole buffer, either one the run holds at known contents (the two input
  blocks, and at a last tile the three scratch buffers as the point before left them) or one a store of the same run
  has just covered (the reset values at a first tile; the updated denominator and weighted sum when the output block
  is formed).  So each component of the state after a point is one payload of the skeleton applied to the input
  blocks and the scratch contents the point started from.
-/
import proofs.«159938_j14027363188928_2_alg».proof.Proof.KernelIdeal.State
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## A first key/value tile: what the three scratch buffers end at -/

theorem first_max (c : Dev nD) (t : Fin cfg0.N) (h0 : t.val % 2 = 0) :
    (stFirst m c t h0).2.1 = k0_pay3 (k0_pay11 (iblk m c 0 t) (iblk m c 1 t) k0_pay5) := by
  unfold stFirst; dsimp only
  rw [View.read_writes_eq_canon _ _ _ (cover_first_max m c t h0)]
  unfold rf runFirst; dsimp only
  sl_unfold_words
  rw [View.canon_cons_unit_zero (S := S512x1) hz2]
  simp only [View.readCov_unit_zero (S := S512x1) _ hz2, View.readCov_unit_zero (S := S512x256) _ hz2,
    View.readAt_eq_ld, Memref.IsWhole.read_unread,
    Memref.IsWhole.read_unread (Val := Elt F) (m := scMax) (Memref.isWhole_whole _),
    Memref.IsWhole.read_unread (Val := Elt F) (m := scDen) (Memref.isWhole_whole _),
    Memref.IsWhole.read_unread (Val := Elt F) (m := scAcc) (Memref.isWhole_whole _),
    View.ld_unit_zero (S := S1x512x256) hz3, View.ld_unit_zero (S := S1x1024x256) hz3, View.ld_unit_zero (S := S512x1) hz2,
    View.ld_unit_zero (S := S512x256) hz2]

theorem first_den (c : Dev nD) (t : Fin cfg0.N) (h0 : t.val % 2 = 0) :
    (stFirst m c t h0).2.2.1 = k0_pay1 (k0_pay14 (iblk m c 0 t) (iblk m c 1 t) k0_pay5 k0_pay6) := by
  unfold stFirst; dsimp only
  rw [View.read_writes_eq_canon _ _ _ (cover_first_den m c t h0)]
  unfold rf runFirst; dsimp only
  sl_unfold_words
  rw [View.canon_cons_unit_zero (S := S512x1) hz2]
  simp only [View.readCov_unit_zero (S := S512x1) _ hz2, View.readCov_unit_zero (S := S512x256) _ hz2,
    View.readAt_eq_ld, Memref.IsWhole.read_unread,
    Memref.IsWhole.read_unread (Val := Elt F) (m := scMax) (Memref.isWhole_whole _),
    Memref.IsWhole.read_unread (Val := Elt F) (m := scDen) (Memref.isWhole_whole _),
    Memref.IsWhole.read_unread (Val := Elt F) (m := scAcc) (Memref.isWhole_whole _),
    View.ld_unit_zero (S := S1x512x256) hz3, View.ld_unit_zero (S := S1x1024x256) hz3, View.ld_unit_zero (S := S512x1) hz2,
    View.ld_unit_zero (S := S512x256) hz2]

theorem first_acc (c : Dev nD) (t : Fin cfg0.N) (h0 : t.val % 2 = 0) :
    (stFirst m c t h0).2.2.2 = k0_pay2 (k0_pay9 (iblk m c 1 t)) (k0_pay12 (iblk m c 0 t) (iblk m c 1 t) k0_pay5)
      (k0_pay13 (iblk m c 0 t) (iblk m c 1 t) k0_pay5) k0_pay7 := by
  unfold stFirst; dsimp only
  rw [View.read_writes_eq_canon _ _ _ (cover_first_acc m c t h0)]
  unfold rf runFirst; dsimp only
  sl_unfold_words
  rw [View.canon_cons_unit_zero (S := S512x256) hz2]
  simp only [View.readCov_unit_zero (S := S512x1) _ hz2, View.readCov_unit_zero (S := S512x256) _ hz2,
    View.readAt_eq_ld, Memref.IsWhole.read_unread,
    Memref.IsWhole.read_unread (Val := Elt F) (m := scMax) (Memref.isWhole_whole _),
    Memref.IsWhole.read_unread (Val := Elt F) (m := scDen) (Memref.isWhole_whole _),
    Memref.IsWhole.read_unread (Val := Elt F) (m := scAcc) (Memref.isWhole_whole _),
    View.ld_unit_zero (S := S1x512x256) hz3, View.ld_unit_zero (S := S1x1024x256) hz3, View.ld_unit_zero (S := S512x1) hz2,
    View.ld_unit_zero (S := S512x256) hz2]

/-! ## A last key/value tile: what the scratch buffers and the output block end at -/

theorem last_max (c : Dev nD) (t : Fin cfg0.N) (h0 : ¬t.val % 2 = 0) (s : St F) :
    (stLast m c t h0 s).2.1 = k0_pay3 (k0_pay11 (iblk m c 0 t) (iblk m c 1 t) s.2.1) := by
  unfold stLast; dsimp only
  rw [View.read_writes_eq_canon _ _ _ (cover_last_max m c t h0 s)]
  unfold rl runLast; dsimp only
  sl_unfold_words
  rw [View.canon_cons_unit_zero (S := S512x1) hz2]
  simp only [View.readCov_unit_zero (S := S512x1) _ hz2, View.readCov_unit_zero (S := S512x256) _ hz2,
    View.readAt_eq_ld, Memref.IsWhole.read_unread,
    Memref.IsWhole.read_unread (Val := Elt F) (m := scMax) (Memref.isWhole_whole _),
    Memref.IsWhole.read_unread (Val := Elt F) (m := scDen) (Memref.isWhole_whole _),
    Memref.IsWhole.read_unread (Val := Elt F) (m := scAcc) (Memref.isWhole_whole _),
    View.ld_unit_zero (S := S1x512x256) hz3, View.ld_unit_zero (S := S1x1024x256) hz3, View.ld_unit_zero (S := S512x1) hz2,
    View.ld_unit_zero (S := S512x256) hz2]

theorem last_den (c : Dev nD) (t : Fin cfg0.N) (h0 : ¬t.val % 2 = 0) (s : St F) :
    (stLast m c t h0 s).2.2.1 = k0_pay1 (k0_pay14 (iblk m c 0 t) (iblk m c 1 t) s.2.1 s.2.2.1) := by
  unfold stLast; dsimp only
  rw [View.read_writes_eq_canon _ _ _ (cover_last_den m c t h0 s)]
  unfold rl runLast; dsimp only
  sl_unfold_words
  rw [View.canon_cons_unit_zero (S := S512x1) hz2]
  simp only [View.readCov_unit_zero (S := S512x1) _ hz2, View.readCov_unit_zero (S := S512x256) _ hz2,
    View.readAt_eq_ld, Memref.IsWhole.read_unread,
    Memref.IsWhole.read_unread (Val := Elt F) (m := scMax) (Memref.isWhole_whole _),
    Memref.IsWhole.read_unread (Val := Elt F) (m := scDen) (Memref.isWhole_whole _),
    Memref.IsWhole.read_unread (Val := Elt F) (m := scAcc) (Memref.isWhole_whole _),
    View.ld_unit_zero (S := S1x512x256) hz3, View.ld_unit_zero (S := S1x1024x256) hz3, View.ld_unit_zero (S := S512x1) hz2,
    View.ld_unit_zero (S := S512x256) hz2]

theorem last_acc (c : Dev nD) (t : Fin cfg0.N) (h0 : ¬t.val % 2 = 0) (s : St F) :
    (stLast m c t h0 s).2.2.2 = k0_pay2 (k0_pay9 (iblk m c 1 t)) (k0_pay12 (iblk m c 0 t) (iblk m c 1 t) s.2.1)
      (k0_pay13 (iblk m c 0 t) (iblk m c 1 t) s.2.1) s.2.2.2 := by
  unfold stLast; dsimp only
  rw [View.read_writes_eq_canon _ _ _ (cover_last_acc m c t h0 s)]
  unfold rl runLast; dsimp only
  sl_unfold_words
  rw [View.canon_cons_unit_zero (S := S512x256) hz2]
  simp only [View.readCov_unit_zero (S := S512x1) _ hz2, View.readCov_unit_zero (S := S512x256) _ hz2,
    View.readAt_eq_ld, Memref.IsWhole.read_unread,
    Memref.IsWhole.read_unread (Val := Elt F) (m := scMax) (Memref.isWhole_whole _),
    Memref.IsWhole.read_unread (Val := Elt F) (m := scDen) (Memref.isWhole_whole _),
    Memref.IsWhole.read_unread (Val := Elt F) (m := scAcc) (Memref.isWhole_whole _),
    View.ld_unit_zero (S := S1x512x256) hz3, View.ld_unit_zero (S := S1x1024x256) hz3, View.ld_unit_zero (S := S512x1) hz2,
    View.ld_unit_zero (S := S512x256) hz2]

theorem last_out (c : Dev nD) (t : Fin cfg0.N) (h0 : ¬t.val % 2 = 0) (s : St F) :
    (stLast m c t h0 s).1 = k0_pay4 (k0_pay2 (k0_pay9 (iblk m c 1 t)) (k0_pay12 (iblk m c 0 t) (iblk m c 1 t) s.2.1)
        (k0_pay13 (iblk m c 0 t) (iblk m c 1 t) s.2.1) s.2.2.2)
      (k0_pay1 (k0_pay14 (iblk m c 0 t) (iblk m c 1 t) s.2.1 s.2.2.1)) := by
  unfold stLast; dsimp only
  rw [View.read_writes_eq_canon _ _ _ (cover_last_out m c t h0 s)]
  unfold rl runLast; dsimp only
  sl_unfold_words
  rw [View.canon_cons_unit_zero (S := S1x512x256) hz3]
  simp only [View.readCov_unit_zero (S := S512x1) _ hz2, View.readCov_unit_zero (S := S512x256) _ hz2,
    View.readAt_eq_ld, Memref.IsWhole.read_unread,
    Memref.IsWhole.read_unread (Val := Elt F) (m := scMax) (Memref.isWhole_whole _),
    Memref.IsWhole.read_unread (Val := Elt F) (m := scDen) (Memref.isWhole_whole _),
    Memref.IsWhole.read_unread (Val := Elt F) (m := scAcc) (Memref.isWhole_whole _),
    View.ld_unit_zero (S := S1x512x256) hz3, View.ld_unit_zero (S := S1x1024x256) hz3, View.ld_unit_zero (S := S512x1) hz2,
    View.ld_unit_zero (S := S512x256) hz2]

end Cert.KernelIdeal.Attn

end
-- ==== Proof.AttnSpec.lean ====
/-
  Cosine-key attention on real arrays, stated once.

  For an array x of sixteen batches of 2048 rows of 256 reals, the queries and the values are the rows of x
  themselves and the key of row j is x[b, j, ·] divided by its Euclidean norm, the norm clamped below by a
  small positive constant.  The score of query row i against key row j is their inner product times
  256^(-1/2) = 1/16; the weights of row i are the softmax of its 2048 scores (stabilised by the row's
  maximum, as both programs compute it); the result row is the weighted sum of the value rows.

  Both programs are shown to compute `out` at every index; nothing here mentions a program.
-/
import Idealize.ShloMosaic.PureOps.Ideal

noncomputable section

namespace Cert.AttnSpec

/-- Sixteen batches of 2048 rows of 256 reals. -/
abbrev Arr : Type := Fin 16 → Fin 2048 → Fin 256 → ℝ

/-- The clamp under a key's norm: the real that the binary32 word 0x2B8CBCCC denotes, 9223372 · 2⁻⁶³
    (the nearest binary32 to 10⁻¹²). -/
def eps : ℝ := 9223372 / 2 ^ 63

/-- The score scale 256^(-1/2) = 1/16: the real that the binary32 word 0x3D800000 denotes. -/
def sc : ℝ := 1 / 16

/-- The clamped Euclidean norm of row j of batch b. -/
def knorm (x : Arr) (b : Fin 16) (j : Fin 2048) : ℝ := max (Real.sqrt (∑ d, x b j d * x b j d)) eps

/-- The key: row j divided by its clamped norm. -/
def key (x : Arr) (b : Fin 16) (j : Fin 2048) (d : Fin 256) : ℝ := x b j d / knorm x b j

/-- The scaled score of query row i against key row j. -/
def score (x : Arr) (b : Fin 16) (i j : Fin 2048) : ℝ := (∑ d, x b i d * key x b j d) * sc

/-- The largest score of query row i. -/
def rowMax (x : Arr) (b : Fin 16) (i : Fin 2048) : ℝ := Finset.univ.sup' Finset.univ_nonempty (score x b i)

/-- The unnormalised softmax weight of key row j for query row i. -/
def weight (x : Arr) (b : Fin 16) (i j : Fin 2048) : ℝ := Real.exp (score x b i j - rowMax x b i)

/-- The softmax denominator of query row i. -/
def denom (x : Arr) (b : Fin 16) (i : Fin 2048) : ℝ := ∑ j, weight x b i j

/-- Attention: the softmax-weighted sum of the value rows. -/
def out (x : Arr) (b : Fin 16) (i : Fin 2048) (d : Fin 256) : ℝ := ∑ j, weight x b i j / denom x b i * x b j d

theorem eps_pos : 0 < eps := by unfold eps; positivity

theorem knorm_pos (x : Arr) (b : Fin 16) (j : Fin 2048) : 0 < knorm x b j :=
  lt_of_lt_of_le eps_pos (le_max_right _ _)

end Cert.AttnSpec

end
-- ==== Proof.KernelPay1.lean ====
/-
  The arithmetic of one attention tile at the ideal float instance, part 1: layout, products, the score tile.

  Every float is an extended real and every operation exact.  This part reads the layout operations the tile
  uses at an index written by coordinates (a vector cast to a column, a column broadcast along the lane, a
  reduction along the lane), reads the two matrix products at an index as finite sums over the contracted
  axis, and shows that the score tile, at (r, j), is the inner product of the scaled query row r with the
  key row j divided by its clamped Euclidean norm — a coerced real whenever the blocks hold coerced reals.
-/
import proofs.«159938_j14027363188928_2_alg».proof.Proof.Gen.KernelIdeal.Skeleton
import proofs.«159938_j14027363188928_2_alg».proof.Proof.AttnSpec
import Idealize.ShloMosaic.Lib.ValueLayout
import Idealize.ShloMosaic.PureOps.Ideal.Laws

noncomputable section

namespace Cert.KernelPay

open Idealize.ShloMosaic Idealize.ShloMosaic.ValueIdx Cert.KernelIdeal Cert.KernelIdeal.Gen

variable {α : Type}

/-! ## Layout operations at an index: the column forms -/

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the operand's row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction along the lane inserts: row r, lane k. -/
theorem lift_ix1 {a b : ℕ} (h : (⟨2, ![a, b]⟩ : Shape).Reduces [1] ⟨1, ![a]⟩) (r : Fin a) (k : Fin b) :
    h.lift (ix1 r) k = ix2 r k := by
  funext ax
  match ax with
  | ⟨0, _⟩ => rfl
  | ⟨1, _⟩ => rfl

/-- A sum along the lane of a matrix, at row r, is the sum of the row's entries. -/
theorem reduce_add_lane {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  (Ideal.multiReduction_add_single src 0x00000000#32 h hφ hacc (ix1 r)).trans
    (Finset.sum_congr rfl fun k _ => congrArg src (lift_ix1 h r k))

/-- A maximum along the lane of a matrix, at row r, is the fold of max over the row's entries from the bottom element. -/
theorem reduce_max_lane {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction .maximumf [1] ⟨1, ![a]⟩ src 0xFF800000#32 h hφ hacc (ix1 r)
      = (Finset.univ : Finset (Fin b)).fold max (Ideal.ofBits .f32 0xFF800000#32) (fun k => src (ix2 r k)) :=
  (Ideal.multiReduction_maximumf_single src 0xFF800000#32 h hφ hacc (ix1 r)).trans
    (congrArg (fun f => (Finset.univ : Finset (Fin b)).fold max (Ideal.ofBits .f32 0xFF800000#32) f)
      (funext fun k => congrArg src (lift_ix1 h r k)))

/-! ## Coerced reals -/

/-- The coercion of a finite sum of reals is the sum of the coercions. -/
theorem coe_sum_univ {ι : Type} [Fintype ι] (f : ι → ℝ) :
    ((∑ i, f i : ℝ) : EReal) = ∑ i, ((f i : ℝ) : EReal) := by
  classical
  refine Finset.induction_on (Finset.univ : Finset ι) (by simp) fun a s ha ih => ?_
  rw [Finset.sum_insert ha, Finset.sum_insert ha, EReal.coe_add, ih]

/-- The word 0x2B8CBCCC denotes the clamp. -/
theorem ofBits_eps : Ideal.ofBits .f32 0x2B8CBCCC#32 = ((Cert.AttnSpec.eps : ℝ) : EReal) := by
  unfold Cert.AttnSpec.eps
  simp [Ideal.ofBits, Ideal.ieee, -EReal.coe_mul]; norm_num

/-- The word 0x3D800000 denotes the score scale. -/
theorem ofBits_sc : Ideal.ofBits .f32 0x3D800000#32 = ((Cert.AttnSpec.sc : ℝ) : EReal) := by
  unfold Cert.AttnSpec.sc
  simp [Ideal.ofBits, Ideal.ieee, -EReal.coe_mul]; norm_num

/-- The word 0xFF800000 denotes the bottom element. -/
theorem ofBits_neg_inf : Ideal.ofBits .f32 0xFF800000#32 = ⊥ := by
  simp [Ideal.ofBits, Ideal.ieee]

/-! ## The two matrix products read at an index -/

theorem dot1_lhs0 (i : S512x1024.Idx) (q : dot_S512x256_S256x1024_S512x1024_1_0_0_1_n_n.contr.Idx) : (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide),
    dif_pos (show (0 : Fin S512x256.rank) ∈ dot_S512x256_S256x1024_S512x1024_1_0_0_1_n_n.lhsNonContracting by decide)]
  rfl
theorem dot1_lhs1 (i : S512x1024.Idx) (q : dot_S512x256_S256x1024_S512x1024_1_0_0_1_n_n.contr.Idx) : (dot_S512x256_S256x1024_S512x1024_1_0_0_1_n_n.lhsIdx i q 1).val = (q ⟨0, by decide⟩).val :=
  dot_S512x256_S256x1024_S512x1024_1_0_0_1_n_n.lhsIdx_val_of_single rfl i q
theorem dot1_rhs0 (i : S512x1024.Idx) (q : dot_S512x256_S256x1024_S512x1024_1_0_0_1_n_n.contr.Idx) : (dot_S512x256_S256x1024_S512x1024_1_0_0_1_n_n.rhsIdx i q 0).val = (q ⟨0, by decide⟩).val :=
  dot_S512x256_S256x1024_S512x1024_1_0_0_1_n_n.rhsIdx_val_of_single rfl i q
theorem dot1_rhs1 (i : S512x1024.Idx) (q : dot_S512x256_S256x1024_S512x1024_1_0_0_1_n_n.contr.Idx) : (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide),
    dif_pos (show (1 : Fin S256x1024.rank) ∈ dot_S512x256_S256x1024_S512x1024_1_0_0_1_n_n.rhsNonContracting by decide)]
  rfl

/-- The product [512,256] · [256,1024] into the zero accumulator, at (r, c): the sum over the 256 contracted entries. -/
theorem dot1_apply (lhs : FVec Ideal S512x256 .bf16) (rhs : FVec Ideal S256x1024 .bf16) (r : Fin 512) (c : Fin 1024) :
    matmul dot_S512x256_S256x1024_S512x1024_1_0_0_1_n_n none lhs rhs (constant S512x1024 .f32 0x00000000#32) (ix2 r c)
      = ∑ k : Fin 256, lhs (ix2 r k) * rhs (ix2 k c) := by
  refine (Ideal.matmul_constant_zero_apply dot_S512x256_S256x1024_S512x1024_1_0_0_1_n_n none lhs rhs (ix2 r c)).trans ?_
  rw [← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 r c) ((contrEquiv1 dot_S512x256_S256x1024_S512x1024_1_0_0_1_n_n 256 rfl rfl).symm k) = ix2 r k :=
    funext fun a => Fin.ext (by
      match a with
      | ⟨0, _⟩ => exact dot1_lhs0 _ _
      | ⟨1, _⟩ => exact (dot1_lhs1 _ _).trans hk)
  have er : dot_S512x256_S256x1024_S512x1024_1_0_0_1_n_n.rhsIdx (ix2 r c) ((contrEquiv1 dot_S512x256_S256x1024_S512x1024_1_0_0_1_n_n 256 rfl rfl).symm k) = ix2 k c :=
    funext fun a => Fin.ext (by
      match a with
      | ⟨0, _⟩ => exact (dot1_rhs0 _ _).trans hk
      | ⟨1, _⟩ => exact dot1_rhs1 _ _)
  rw [el, er]

theorem dot2_lhs0 (i : S512x256.Idx) (q : dot_S512x1024_S1024x256_S512x256_1_0_0_1_n_n.contr.Idx) : (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide),
    dif_pos (show (0 : Fin S512x1024.rank) ∈ dot_S512x1024_S1024x256_S512x256_1_0_0_1_n_n.lhsNonContracting by decide)]
  rfl
theorem dot2_lhs1 (i : S512x256.Idx) (q : dot_S512x1024_S1024x256_S512x256_1_0_0_1_n_n.contr.Idx) : (dot_S512x1024_S1024x256_S512x256_1_0_0_1_n_n.lhsIdx i q 1).val = (q ⟨0, by decide⟩).val :=
  dot_S512x1024_S1024x256_S512x256_1_0_0_1_n_n.lhsIdx_val_of_single rfl i q
theorem dot2_rhs0 (i : S512x256.Idx) (q : dot_S512x1024_S1024x256_S512x256_1_0_0_1_n_n.contr.Idx) : (dot_S512x1024_S1024x256_S512x256_1_0_0_1_n_n.rhsIdx i q 0).val = (q ⟨0, by decide⟩).val :=
  dot_S512x1024_S1024x256_S512x256_1_0_0_1_n_n.rhsIdx_val_of_single rfl i q
theorem dot2_rhs1 (i : S512x256.Idx) (q : dot_S512x1024_S1024x256_S512x256_1_0_0_1_n_n.contr.Idx) : (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide),
    dif_pos (show (1 : Fin S1024x256.rank) ∈ dot_S512x1024_S1024x256_S512x256_1_0_0_1_n_n.rhsNonContracting by decide)]
  rfl

/-- The product [512,1024] · [1024,256] into the zero accumulator, at (r, c): the sum over the 1024 contracted entries. -/
theorem dot2_apply (lhs : FVec Ideal S512x1024 .bf16) (rhs : FVec Ideal S1024x256 .bf16) (r : Fin 512) (c : Fin 256) :
    matmul dot_S512x1024_S1024x256_S512x256_1_0_0_1_n_n none lhs rhs (constant S512x256 .f32 0x00000000#32) (ix2 r c)
      = ∑ k : Fin 1024, lhs (ix2 r k) * rhs (ix2 k c) := by
  refine (Ideal.matmul_constant_zero_apply dot_S512x1024_S1024x256_S512x256_1_0_0_1_n_n none lhs rhs (ix2 r c)).trans ?_
  rw [← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 r c) ((contrEquiv1 dot_S512x1024_S1024x256_S512x256_1_0_0_1_n_n 1024 rfl rfl).symm k) = ix2 r k :=
    funext fun a => Fin.ext (by
      match a with
      | ⟨0, _⟩ => exact dot2_lhs0 _ _
      | ⟨1, _⟩ => exact (dot2_lhs1 _ _).trans hk)
  have er : dot_S512x1024_S1024x256_S512x256_1_0_0_1_n_n.rhsIdx (ix2 r c) ((contrEquiv1 dot_S512x1024_S1024x256_S512x256_1_0_0_1_n_n 1024 rfl rfl).symm k) = ix2 k c :=
    funext fun a => Fin.ext (by
      match a with
      | ⟨0, _⟩ => exact (dot2_rhs0 _ _).trans hk
      | ⟨1, _⟩ => exact dot2_rhs1 _ _)
  rw [el, er]

/-! ## The score tile -/

/-- The clamped Euclidean norm of row j of a key/value tile. -/
def kn (kv : Fin 1024 → Fin 256 → ℝ) (j : Fin 1024) : ℝ :=
  max (Real.sqrt (∑ d, kv j d * kv j d)) Cert.AttnSpec.eps

/-- The score of query row r against key row j of the tile: the scaled query row against the normalised key row. -/
def s (q : Fin 512 → Fin 256 → ℝ) (kv : Fin 1024 → Fin 256 → ℝ) (r : Fin 512) (j : Fin 1024) : ℝ :=
  ∑ d, (q r d * Cert.AttnSpec.sc) * (kv j d / kn kv j)

theorem kn_pos (kv : Fin 1024 → Fin 256 → ℝ) (j : Fin 1024) : 0 < kn kv j :=
  lt_of_lt_of_le Cert.AttnSpec.eps_pos (le_max_right _ _)

/-- The key/value block with its unit axis dropped. -/
theorem pay8_apply (v5 : Vec Ideal S1x1024x256 .f32) (j : Fin 1024) (d : Fin 256) :
    k0_pay8 (F := Ideal) v5 (ix2 j d) = v5 (ix3 (0 : Fin 1) j d) :=
  shapeCast_1ab_ab_apply v5 _ j d

/-- The clamped norm column of the key/value block. -/
theorem norm_apply (v5 : Vec Ideal S1x1024x256 .f32) (kv : Fin 1024 → Fin 256 → ℝ)
    (hkv : ∀ j d, v5 (ix3 (0 : Fin 1) j d) = ((kv j d : ℝ) : EReal)) (j : Fin 1024) (u : Fin 1)
    (h1 : S1024x256.Reduces [1] S1024) (hφ : FKind.Formats .f32) (hacc : (0x00000000#32 : BitVec 32) = 0x00000000#32)
    (h2 : S1024.ShapeCasts S1024x1) :
    maximumf (sqrt (shapeCast S1024x1 (multiReduction .add [1] S1024 (mulf (k0_pay8 (F := Ideal) v5) (k0_pay8 v5)) 0x00000000#32 h1 hφ hacc) h2))
        (broadcast S1024x1 (Scalar.ofBits (F := Ideal) .f32 0x2B8CBCCC#32)) (ix2 j u)
      = ((kn kv j : ℝ) : EReal) := by
  show max (Ideal.sqrt (shapeCast S1024x1 (multiReduction .add [1] S1024 (mulf (k0_pay8 (F := Ideal) v5) (k0_pay8 v5)) 0x00000000#32 h1 hφ hacc) h2 (ix2 j u)))
      (Ideal.ofBits .f32 0x2B8CBCCC#32) = _
  rw [shapeCast_a_a1_apply, reduce_add_lane, ofBits_eps]
  have hsum : (∑ k : Fin 256, mulf (k0_pay8 (F := Ideal) v5) (k0_pay8 v5) (ix2 j k)) = (((∑ d, kv j d * kv j d : ℝ)) : EReal) := by
    rw [coe_sum_univ]
    refine Finset.sum_congr rfl fun d _ => ?_
    show k0_pay8 (F := Ideal) v5 (ix2 j d) * k0_pay8 (F := Ideal) v5 (ix2 j d) = _
    rw [pay8_apply, hkv, ← EReal.coe_mul]
  rw [hsum, Ideal.sqrt_coe, if_neg (not_lt.mpr (Finset.sum_nonneg fun d _ => mul_self_nonneg _))]
  exact (EReal.coe_strictMono.monotone.map_max).symm

/-- THE SCORE TILE: at (r, j), the score of query row r against key row j. -/
theorem pay10_apply (v3 : Vec Ideal S1x512x256 .f32) (v5 : Vec Ideal S1x1024x256 .f32)
    (q : Fin 512 → Fin 256 → ℝ) (kv : Fin 1024 → Fin 256 → ℝ)
    (hq : ∀ r d, v3 (ix3 (0 : Fin 1) r d) = ((q r d : ℝ) : EReal))
    (hkv : ∀ j d, v5 (ix3 (0 : Fin 1) j d) = ((kv j d : ℝ) : EReal)) (r : Fin 512) (j : Fin 1024) :
    k0_pay10 (F := Ideal) v3 v5 (ix2 r j) = ((s q kv r j : ℝ) : EReal) := by
  unfold k0_pay10
  refine (dot1_apply _ _ r j).trans ?_
  unfold s
  rw [coe_sum_univ]
  refine Finset.sum_congr rfl fun d _ => ?_
  rw [EReal.coe_mul]
  refine congrArg₂ (· * ·) ?_ ?_
  · show shapeCast S512x256 v3 _ (ix2 r d) * Ideal.ofBits .f32 0x3D800000#32 = _
    rw [shapeCast_1ab_ab_apply, hq, ofBits_sc, ← EReal.coe_mul]
  · refine (transpose_ix2_apply _ _ d j).trans ?_
    show Ideal.div (k0_pay8 (F := Ideal) v5 (ix2 j d)) (broadcastTo S1024x256 _ _ (ix2 j d)) = _
    rw [broadcastTo_a1_ab_apply, norm_apply v5 kv hkv, pay8_apply, hkv, Ideal.div_coe (kn_pos kv j).ne', ← EReal.coe_mul,
      mul_one_div]

end Cert.KernelPay

end
-- ==== Proof.KernelPay2.lean ====
/-
  The arithmetic of one attention tile at the ideal float instance, part 2: the online-softmax step.

  From the score tile (part 1) one step of the online softmax computes, for each query row r: the new running
  maximum (the old one against the largest score of the row within the tile), the rescale factor (the
  exponential of old maximum minus new maximum), the weights (the exponentials of score minus new maximum), the
  new denominator (the old one rescaled plus the sum of the weights) and the new accumulator (the old one
  rescaled plus the weights against the value rows).  The old maximum is an extended real: the bottom element
  before the first tile, a coerced real afterwards; once the new maximum is known to be a real the weights and
  the two sums are coerced reals.  The reset values are the bottom element and zero.
-/
import proofs.«159938_j14027363188928_2_alg».proof.Proof.KernelPay1

noncomputable section

namespace Cert.KernelPay

open Idealize.ShloMosaic Idealize.ShloMosaic.ValueIdx Cert.KernelIdeal Cert.KernelIdeal.Gen

/-! ## Maxima of coerced reals -/

/-- The fold of max from the bottom element over finitely many coerced reals is the coerced real maximum. -/
theorem fold_max_bot_coe {ι : Type} (t : Finset ι) (ht : t.Nonempty) (f : ι → ℝ) :
    t.fold max (⊥ : EReal) (fun j => ((f j : ℝ) : EReal)) = ((t.sup' ht f : ℝ) : EReal) := by
  classical
  induction ht using Finset.Nonempty.cons_induction with
  | singleton a =>
    rw [Finset.fold_singleton, Finset.sup'_singleton]
    exact max_eq_left bot_le
  | cons a t ha ht ih =>
    rw [Finset.fold_cons, ih, Finset.sup'_cons ht]
    exact (EReal.coe_strictMono.monotone.map_max).symm

/-- The largest score of query row r within the tile. -/
def smax (q : Fin 512 → Fin 256 → ℝ) (kv : Fin 1024 → Fin 256 → ℝ) (r : Fin 512) : ℝ :=
  Finset.univ.sup' Finset.univ_nonempty fun j => s q kv r j

/-! ## The identity casts and the reset values -/

theorem pay1_eq (v : FVec Ideal S512x1 .f32) : k0_pay1 (F := Ideal) v = v := shapeCast_self v _
theorem pay3_eq (v : FVec Ideal S512x1 .f32) : k0_pay3 (F := Ideal) v = v := shapeCast_self v _

/-- The running maximum is reset to the bottom element. -/
theorem pay5_apply (i : S512x1.Idx) : k0_pay5 (F := Ideal) i = ⊥ := by
  unfold k0_pay5
  rw [shapeCast_self]
  exact ofBits_neg_inf

/-- The running denominator is reset to zero. -/
theorem pay6_apply (i : S512x1.Idx) : k0_pay6 (F := Ideal) i = 0 := by
  unfold k0_pay6
  rw [shapeCast_self]
  exact Ideal.ofBits_zero_f32

/-- The running accumulator is reset to zero. -/
theorem pay7_apply (i : S512x256.Idx) : k0_pay7 (F := Ideal) i = 0 := by
  unfold k0_pay7
  rw [shapeCast_self]
  exact Ideal.ofBits_zero_f32

section Tile

variable (v3 : Vec Ideal S1x512x256 .f32) (v5 : Vec Ideal S1x1024x256 .f32) (v22 : Vec Ideal S512x1 .f32)
  (q : Fin 512 → Fin 256 → ℝ) (kv : Fin 1024 → Fin 256 → ℝ)
  (hq : ∀ r d, v3 (ix3 (0 : Fin 1) r d) = ((q r d : ℝ) : EReal))
  (hkv : ∀ j d, v5 (ix3 (0 : Fin 1) j d) = ((kv j d : ℝ) : EReal))
  (mprev : Fin 512 → EReal) (hm : ∀ r, v22 (ix2 r (0 : Fin 1)) = mprev r)

include hq hkv hm

/-- THE NEW MAXIMUM: the old one against the largest score of the tile's row. -/
theorem pay11_apply (r : Fin 512) :
    k0_pay11 (F := Ideal) v3 v5 v22 (ix2 r (0 : Fin 1)) = max (mprev r) ((smax q kv r : ℝ) : EReal) := by
  unfold k0_pay11
  show max (v22 (ix2 r (0 : Fin 1))) (shapeCast S512x1 _ _ (ix2 r (0 : Fin 1))) = _
  rw [shapeCast_a_a1_apply, reduce_max_lane, hm, ofBits_neg_inf]
  refine congrArg (max (mprev r)) ?_
  rw [funext fun k => pay10_apply v3 v5 q kv hq hkv r k]
  exact fold_max_bot_coe Finset.univ Finset.univ_nonempty fun j => s q kv r j

/-- THE RESCALE FACTOR: the exponential of old maximum minus new maximum. -/
theorem pay12_apply (r : Fin 512) :
    k0_pay12 (F := Ideal) v3 v5 v22 (ix2 r (0 : Fin 1))
      = Ideal.exp (mprev r - max (mprev r) ((smax q kv r : ℝ) : EReal)) := by
  unfold k0_pay12
  show Ideal.exp (v22 (ix2 r (0 : Fin 1)) - k0_pay11 (F := Ideal) v3 v5 v22 (ix2 r (0 : Fin 1))) = _
  rw [pay11_apply v3 v5 v22 q kv hq hkv mprev hm, hm]

/-- THE WEIGHTS: the exponential of score minus new maximum. -/
theorem pay13_apply (r : Fin 512) (j : Fin 1024) :
    k0_pay13 (F := Ideal) v3 v5 v22 (ix2 r j)
      = Ideal.exp (((s q kv r j : ℝ) : EReal) - max (mprev r) ((smax q kv r : ℝ) : EReal)) := by
  unfold k0_pay13
  show Ideal.exp (k0_pay10 (F := Ideal) v3 v5 (ix2 r j) - broadcastTo S512x1024 (k0_pay11 (F := Ideal) v3 v5 v22) _ (ix2 r j)) = _
  rw [broadcastTo_a1_ab_apply, pay11_apply v3 v5 v22 q kv hq hkv mprev hm, pay10_apply v3 v5 q kv hq hkv]

variable (mn : Fin 512 → ℝ) (hmn : ∀ r, max (mprev r) ((smax q kv r : ℝ) : EReal) = ((mn r : ℝ) : EReal))

include hmn

/-- The weights when the new maximum is a real. -/
theorem pay13_real (r : Fin 512) (j : Fin 1024) :
    k0_pay13 (F := Ideal) v3 v5 v22 (ix2 r j) = ((Real.exp (s q kv r j - mn r) : ℝ) : EReal) := by
  rw [pay13_apply v3 v5 v22 q kv hq hkv mprev hm, hmn, ← EReal.coe_sub]
  rfl

/-- The rescale factor when the new maximum is a real. -/
theorem pay12_real (r : Fin 512) :
    k0_pay12 (F := Ideal) v3 v5 v22 (ix2 r (0 : Fin 1)) = Ideal.exp (mprev r - ((mn r : ℝ) : EReal)) := by
  rw [pay12_apply v3 v5 v22 q kv hq hkv mprev hm, hmn]

/-- THE DENOMINATOR: the old one rescaled plus the sum of the tile's weights. -/
theorem pay14_apply (v31 : Vec Ideal S512x1 .f32) (r : Fin 512) :
    k0_pay14 (F := Ideal) v3 v5 v22 v31 (ix2 r (0 : Fin 1))
      = Ideal.exp (mprev r - ((mn r : ℝ) : EReal)) * v31 (ix2 r (0 : Fin 1))
        + ((∑ j, Real.exp (s q kv r j - mn r) : ℝ) : EReal) := by
  unfold k0_pay14
  show k0_pay12 (F := Ideal) v3 v5 v22 (ix2 r (0 : Fin 1)) * v31 (ix2 r (0 : Fin 1))
      + shapeCast S512x1 _ _ (ix2 r (0 : Fin 1)) = _
  rw [shapeCast_a_a1_apply, reduce_add_lane, pay12_real v3 v5 v22 q kv hq hkv mprev hm mn hmn, coe_sum_univ]
  refine congrArg (_ + ·) (Finset.sum_congr rfl fun j _ => ?_)
  exact pay13_real v3 v5 v22 q kv hq hkv mprev hm mn hmn r j

/-- THE ACCUMULATOR: the old one rescaled plus the tile's weights against its value rows. -/
theorem pay2_apply (v41 : Vec Ideal S512x256 .f32) (r : Fin 512) (d : Fin 256) :
    k0_pay2 (F := Ideal) (k0_pay9 v5) (k0_pay12 v3 v5 v22) (k0_pay13 v3 v5 v22) v41 (ix2 r d)
      = Ideal.exp (mprev r - ((mn r : ℝ) : EReal)) * v41 (ix2 r d)
        + ((∑ j, Real.exp (s q kv r j - mn r) * kv j d : ℝ) : EReal) := by
  unfold k0_pay2
  rw [shapeCast_self]
  show broadcastTo S512x256 (k0_pay12 (F := Ideal) v3 v5 v22) _ (ix2 r d) * v41 (ix2 r d)
      + matmul dot_S512x1024_S1024x256_S512x256_1_0_0_1_n_n none _ _ (constant S512x256 .f32 0x00000000#32) (ix2 r d) = _
  rw [broadcastTo_a1_ab_apply, dot2_apply, pay12_real v3 v5 v22 q kv hq hkv mprev hm mn hmn, coe_sum_univ]
  refine congrArg (_ + ·) (Finset.sum_congr rfl fun j _ => ?_)
  show k0_pay13 (F := Ideal) v3 v5 v22 (ix2 r j) * k0_pay8 (F := Ideal) v5 (ix2 j d) = _
  rw [pay13_real v3 v5 v22 q kv hq hkv mprev hm mn hmn, pay8_apply, hkv, ← EReal.coe_mul]

end Tile

end Cert.KernelPay

end
-- ==== Proof.LibOnlineSoftmax.lean ====
/-
  The online softmax over two tiles, as a law of real numbers.

  A row of 2048 scores s and 2048 values v is processed in two halves of 1024.  After the first half one holds
  the running maximum m0, the running denominator l0 = ∑ exp (s - m0) and the running weighted sum
  a0 = ∑ exp (s - m0) * v.  The second half raises the maximum to m1, rescales what was accumulated by
  exp (m0 - m1) and adds its own terms taken against m1.  This file proves that the quotient a1 / l1 obtained
  that way is the softmax-weighted sum ∑ j, exp (s j - M) / (∑ j', exp (s j' - M)) * v j over the whole row,
  M the maximum of the whole row, and that l1 is positive.

  The ingredients: a sum (a maximum) over 2048 indices is the sum (the maximum) of the two halves;
  exp (m0 - m1) * exp (t - m0) = exp (t - m1).

  Nothing here mentions a program; only real numbers and finite sums.
-/
import Mathlib.Analysis.SpecialFunctions.Exp
import Mathlib.Algebra.BigOperators.Fin
import Mathlib.Order.Fin.Basic
import Mathlib.Data.Finset.Lattice.Fold
import Mathlib.Algebra.Order.BigOperators.Ring.Finset
import Mathlib.Algebra.BigOperators.Field

namespace Cert.OnlineSoftmax

/-- index jj of the lower half, as an index of the whole row -/
def lo (jj : Fin 1024) : Fin 2048 := ⟨jj.val, by omega⟩

/-- index jj of the upper half, as an index of the whole row -/
def hi (jj : Fin 1024) : Fin 2048 := ⟨1024 + jj.val, by omega⟩

/-- every index of the row lies in the lower half or in the upper half -/
theorem lo_or_hi (j : Fin 2048) : (∃ jj, j = lo jj) ∨ ∃ jj, j = hi jj := by
  by_cases h : j.val < 1024
  · exact Or.inl ⟨⟨j.val, h⟩, Fin.ext rfl⟩
  · refine Or.inr ⟨⟨j.val - 1024, by omega⟩, Fin.ext ?_⟩
    show j.val = 1024 + (j.val - 1024)
    omega

/-- a sum over 2048 indices is the sum over the lower 1024 plus the sum over the upper 1024 -/
theorem sum_split {M : Type*} [AddCommMonoid M] (f : Fin 2048 → M) :
    ∑ j, f j = (∑ jj, f (lo jj)) + ∑ jj, f (hi jj) :=
  Fin.sum_univ_add (a := 1024) (b := 1024) f

/-- likewise for the maximum -/
theorem sup_split (s : Fin 2048 → ℝ) :
    Finset.univ.sup' Finset.univ_nonempty s
      = max (Finset.univ.sup' Finset.univ_nonempty fun jj => s (lo jj))
            (Finset.univ.sup' Finset.univ_nonempty fun jj => s (hi jj)) := by
  apply le_antisymm
  · refine Finset.sup'_le _ _ fun j _ => ?_
    rcases lo_or_hi j with ⟨jj, rfl⟩ | ⟨jj, rfl⟩
    · exact le_max_of_le_left
        (Finset.le_sup' (fun jj => s (lo jj)) (Finset.mem_univ jj))
    · exact le_max_of_le_right
        (Finset.le_sup' (fun jj => s (hi jj)) (Finset.mem_univ jj))
  · refine max_le ?_ ?_
    · exact Finset.sup'_le _ _ fun jj _ => Finset.le_sup' s (Finset.mem_univ (lo jj))
    · exact Finset.sup'_le _ _ fun jj _ => Finset.le_sup' s (Finset.mem_univ (hi jj))

/-- rescaling a term taken against the old maximum gives the term taken against the new one -/
theorem rescale (m0 m1 t : ℝ) : Real.exp (m0 - m1) * Real.exp (t - m0) = Real.exp (t - m1) := by
  rw [← Real.exp_add]
  congr 1
  ring

/-- the denominator after two steps is the denominator of the whole row against the final maximum -/
theorem denom_two (s : Fin 2048 → ℝ) (m0 m1 : ℝ) :
    Real.exp (m0 - m1) * (∑ jj, Real.exp (s (lo jj) - m0)) + ∑ jj, Real.exp (s (hi jj) - m1)
      = ∑ j, Real.exp (s j - m1) := by
  rw [sum_split (fun j => Real.exp (s j - m1)), Finset.mul_sum]
  simp only [rescale]

/-- the weighted sum after two steps is the weighted sum of the whole row against the final maximum -/
theorem numer_two (s v : Fin 2048 → ℝ) (m0 m1 : ℝ) :
    Real.exp (m0 - m1) * (∑ jj, Real.exp (s (lo jj) - m0) * v (lo jj))
        + ∑ jj, Real.exp (s (hi jj) - m1) * v (hi jj)
      = ∑ j, Real.exp (s j - m1) * v j := by
  rw [sum_split (fun j => Real.exp (s j - m1) * v j), Finset.mul_sum]
  simp only [← mul_assoc, rescale]

/-- the softmax denominator of a row is positive, whatever is subtracted in the exponent -/
theorem sum_exp_pos (s : Fin 2048 → ℝ) (m : ℝ) : 0 < ∑ j, Real.exp (s j - m) :=
  Finset.sum_pos (fun _ _ => Real.exp_pos _) Finset.univ_nonempty

/-- the softmax denominator of a row (against the row's maximum) is positive -/
theorem denom_pos' (s : Fin 2048 → ℝ) :
    0 < ∑ j, Real.exp (s j - Finset.univ.sup' Finset.univ_nonempty s) :=
  sum_exp_pos s _

/-- THE LAW: two steps of the online softmax (running maximum m, running denominator l, running weighted sum a, the
    earlier partial results rescaled by exp (m_old - m_new)) followed by the division a / l give the
    softmax-weighted sum. -/
theorem two_tiles (s v : Fin 2048 → ℝ) :
    let m0 := Finset.univ.sup' Finset.univ_nonempty fun jj => s (lo jj)
    let l0 := ∑ jj, Real.exp (s (lo jj) - m0)
    let a0 := ∑ jj, Real.exp (s (lo jj) - m0) * v (lo jj)
    let m1 := max m0 (Finset.univ.sup' Finset.univ_nonempty fun jj => s (hi jj))
    let α  := Real.exp (m0 - m1)
    let l1 := α * l0 + ∑ jj, Real.exp (s (hi jj) - m1)
    let a1 := α * a0 + ∑ jj, Real.exp (s (hi jj) - m1) * v (hi jj)
    let M  := Finset.univ.sup' Finset.univ_nonempty s
    a1 / l1 = ∑ j, Real.exp (s j - M) / (∑ j', Real.exp (s j' - M)) * v j := by
  intro m0 l0 a0 m1 α l1 a1 M
  have hM : m1 = M := (sup_split s).symm
  have hl : l1 = ∑ j, Real.exp (s j - M) := by
    rw [← hM]; exact denom_two s m0 m1
  have ha : a1 = ∑ j, Real.exp (s j - M) * v j := by
    rw [← hM]; exact numer_two s v m0 m1
  rw [hl, ha, Finset.sum_div]
  exact Finset.sum_congr rfl fun j _ => (div_mul_eq_mul_div _ _ _).symm

/-- and the denominator l1 is positive (so the division is a real division) -/
theorem l1_pos (s : Fin 2048 → ℝ) :
    let m0 := Finset.univ.sup' Finset.univ_nonempty fun jj => s (lo jj)
    let l0 := ∑ jj, Real.exp (s (lo jj) - m0)
    let m1 := max m0 (Finset.univ.sup' Finset.univ_nonempty fun jj => s (hi jj))
    let α  := Real.exp (m0 - m1)
    let l1 := α * l0 + ∑ jj, Real.exp (s (hi jj) - m1)
    0 < l1 := by
  intro m0 l0 m1 α l1
  have hl : l1 = ∑ j, Real.exp (s j - m1) := denom_two s m0 m1
  rw [hl]
  exact sum_exp_pos s m1

end Cert.OnlineSoftmax
-- ==== Proof.KernelPay3.lean ====
/-
  The arithmetic of one attention tile at the ideal float instance, part 3: two tiles compose to attention.

  For one block of 512 query rows the two key/value tiles are taken in turn, starting from the reset
  values (running maximum the bottom element, denominator and accumulator zero).  After the first tile the three
  running quantities are coerced reals: the tile's row maximum, the sum of its weights, its weights against its
  value rows (the rescale factor is the exponential of the bottom element, zero, and it multiplies zeros).  The
  second tile rescales them by the exponential of old maximum minus new maximum and adds its own terms.  The
  output block is the accumulator divided by the denominator, which is positive.  That quotient is the
  two-step form of the online softmax, which equals the softmax-weighted sum over all 2048 rows; and the tile's
  score is the attention score, the scale 1/16 commuting out of the inner product.  Hence the output block at
  (r, d) is the attention of the block's row r at column d.
-/
import proofs.«159938_j14027363188928_2_alg».proof.Proof.KernelPay2
import proofs.«159938_j14027363188928_2_alg».proof.Proof.LibOnlineSoftmax

noncomputable section

namespace Cert.KernelPay

open Idealize.ShloMosaic Idealize.ShloMosaic.ValueIdx Cert.KernelIdeal Cert.KernelIdeal.Gen

/-- THE OUTPUT BLOCK: the accumulator divided, row by row, by the denominator. -/
theorem pay4_apply (v54 : Vec Ideal S512x256 .f32) (v55 : Vec Ideal S512x1 .f32) (r : Fin 512) (d : Fin 256) :
    k0_pay4 (F := Ideal) v54 v55 (ix3 (0 : Fin 1) r d) = Ideal.div (v54 (ix2 r d)) (v55 (ix2 r (0 : Fin 1))) := by
  unfold k0_pay4
  refine (shapeCast_ab_1ab_apply _ _ (0 : Fin 1) r d).trans ?_
  show Ideal.div (v54 (ix2 r d)) (broadcastTo S512x256 v55 _ (ix2 r d)) = _
  rw [broadcastTo_a1_ab_apply]

/-- The value block rounded for the second product is the value block. -/
theorem pay9_apply (v5 : Vec Ideal S1x1024x256 .f32) (j : Fin 1024) (d : Fin 256) :
    k0_pay9 (F := Ideal) v5 (ix2 j d) = v5 (ix3 (0 : Fin 1) j d) :=
  pay8_apply v5 j d

/-- The exponential of a real. -/
theorem exp_coe' (a : ℝ) : Ideal.exp ((a : ℝ) : EReal) = ((Real.exp a : ℝ) : EReal) := rfl

/-- The tile's score is the attention score of the rows the tile holds: the scale commutes out of the inner product. -/
theorem s_eq_score (xr : Cert.AttnSpec.Arr) (b : Fin 16) (ι : Fin 512 → Fin 2048) (κ : Fin 1024 → Fin 2048)
    (r : Fin 512) (j : Fin 1024) :
    s (fun r d => xr b (ι r) d) (fun j d => xr b (κ j) d) r j = Cert.AttnSpec.score xr b (ι r) (κ j) := by
  unfold s kn Cert.AttnSpec.score Cert.AttnSpec.key Cert.AttnSpec.knorm
  rw [Finset.sum_mul]
  exact Finset.sum_congr rfl fun d _ => by ring

section Block

variable (vq : Vec Ideal S1x512x256 .f32) (vk0 vk1 : Vec Ideal S1x1024x256 .f32)
  (q : Fin 512 → Fin 256 → ℝ) (kv0 kv1 : Fin 1024 → Fin 256 → ℝ)
  (hq : ∀ r d, vq (ix3 (0 : Fin 1) r d) = ((q r d : ℝ) : EReal))
  (hk0 : ∀ j d, vk0 (ix3 (0 : Fin 1) j d) = ((kv0 j d : ℝ) : EReal))
  (hk1 : ∀ j d, vk1 (ix3 (0 : Fin 1) j d) = ((kv1 j d : ℝ) : EReal))

/-! ### The first tile, from the reset values -/

include hq hk0 in
/-- After the first tile the running maximum of row r is the largest score of the first tile. -/
theorem m0_apply (r : Fin 512) :
    k0_pay3 (F := Ideal) (k0_pay11 vq vk0 (k0_pay5 (F := Ideal))) (ix2 r (0 : Fin 1)) = ((smax q kv0 r : ℝ) : EReal) := by
  rw [pay3_eq, pay11_apply vq vk0 (k0_pay5 (F := Ideal)) q kv0 hq hk0 (fun _ => ⊥) (fun _ => pay5_apply _)]
  exact max_eq_right bot_le

include hq hk0 in
/-- After the first tile the running denominator is the sum of the first tile's weights. -/
theorem l0_apply (r : Fin 512) :
    k0_pay1 (F := Ideal) (k0_pay14 vq vk0 (k0_pay5 (F := Ideal)) (k0_pay6 (F := Ideal))) (ix2 r (0 : Fin 1))
      = ((∑ j, Real.exp (s q kv0 r j - smax q kv0 r) : ℝ) : EReal) := by
  rw [pay1_eq, pay14_apply vq vk0 (k0_pay5 (F := Ideal)) q kv0 hq hk0 (fun _ => ⊥) (fun _ => pay5_apply _)
    (fun r => smax q kv0 r) (fun _ => max_eq_right bot_le), pay6_apply, mul_zero, zero_add]

include hq hk0 in
/-- After the first tile the accumulator is the first tile's weights against its value rows. -/
theorem a0_apply (r : Fin 512) (d : Fin 256) :
    k0_pay2 (F := Ideal) (k0_pay9 vk0) (k0_pay12 vq vk0 (k0_pay5 (F := Ideal))) (k0_pay13 vq vk0 (k0_pay5 (F := Ideal))) (k0_pay7 (F := Ideal)) (ix2 r d)
      = ((∑ j, Real.exp (s q kv0 r j - smax q kv0 r) * kv0 j d : ℝ) : EReal) := by
  rw [pay2_apply vq vk0 (k0_pay5 (F := Ideal)) q kv0 hq hk0 (fun _ => ⊥) (fun _ => pay5_apply _)
    (fun r => smax q kv0 r) (fun _ => max_eq_right bot_le), pay7_apply, mul_zero, zero_add]

/-! ### The second tile -/

include hq hk0 hk1 in
/-- After the second tile the running denominator, in the two-step form. -/
theorem l1_apply (r : Fin 512) :
    k0_pay1 (F := Ideal) (k0_pay14 vq vk1 (k0_pay3 (k0_pay11 vq vk0 (k0_pay5 (F := Ideal)))) (k0_pay1 (k0_pay14 vq vk0 (k0_pay5 (F := Ideal)) (k0_pay6 (F := Ideal)))))
        (ix2 r (0 : Fin 1))
      = ((Real.exp (smax q kv0 r - max (smax q kv0 r) (smax q kv1 r)) * (∑ j, Real.exp (s q kv0 r j - smax q kv0 r))
          + ∑ j, Real.exp (s q kv1 r j - max (smax q kv0 r) (smax q kv1 r)) : ℝ) : EReal) := by
  rw [pay1_eq, pay14_apply vq vk1 _ q kv1 hq hk1 (fun r => ((smax q kv0 r : ℝ) : EReal)) (m0_apply vq vk0 q kv0 hq hk0)
    (fun r => max (smax q kv0 r) (smax q kv1 r)) (fun _ => (EReal.coe_strictMono.monotone.map_max).symm),
    l0_apply vq vk0 q kv0 hq hk0, ← EReal.coe_sub, exp_coe', ← EReal.coe_mul, ← EReal.coe_add]

include hq hk0 hk1 in
/-- After the second tile the accumulator, in the two-step form. -/
theorem a1_apply (r : Fin 512) (d : Fin 256) :
    k0_pay2 (F := Ideal) (k0_pay9 vk1) (k0_pay12 vq vk1 (k0_pay3 (k0_pay11 vq vk0 (k0_pay5 (F := Ideal)))))
        (k0_pay13 vq vk1 (k0_pay3 (k0_pay11 vq vk0 (k0_pay5 (F := Ideal)))))
        (k0_pay2 (k0_pay9 vk0) (k0_pay12 vq vk0 (k0_pay5 (F := Ideal))) (k0_pay13 vq vk0 (k0_pay5 (F := Ideal))) (k0_pay7 (F := Ideal))) (ix2 r d)
      = ((Real.exp (smax q kv0 r - max (smax q kv0 r) (smax q kv1 r)) * (∑ j, Real.exp (s q kv0 r j - smax q kv0 r) * kv0 j d)
          + ∑ j, Real.exp (s q kv1 r j - max (smax q kv0 r) (smax q kv1 r)) * kv1 j d : ℝ) : EReal) := by
  rw [pay2_apply vq vk1 _ q kv1 hq hk1 (fun r => ((smax q kv0 r : ℝ) : EReal)) (m0_apply vq vk0 q kv0 hq hk0)
    (fun r => max (smax q kv0 r) (smax q kv1 r)) (fun _ => (EReal.coe_strictMono.monotone.map_max).symm),
    a0_apply vq vk0 q kv0 hq hk0, ← EReal.coe_sub, exp_coe', ← EReal.coe_mul, ← EReal.coe_add]

/-! ### The output block after both tiles -/

include hq hk0 hk1 in
/-- The output block after both tiles, as a real quotient in the two-step form. -/
theorem block_real (r : Fin 512) (d : Fin 256) :
    k0_pay4 (F := Ideal)
        (k0_pay2 (k0_pay9 vk1) (k0_pay12 vq vk1 (k0_pay3 (k0_pay11 vq vk0 (k0_pay5 (F := Ideal)))))
          (k0_pay13 vq vk1 (k0_pay3 (k0_pay11 vq vk0 (k0_pay5 (F := Ideal)))))
          (k0_pay2 (k0_pay9 vk0) (k0_pay12 vq vk0 (k0_pay5 (F := Ideal))) (k0_pay13 vq vk0 (k0_pay5 (F := Ideal))) (k0_pay7 (F := Ideal))))
        (k0_pay1 (k0_pay14 vq vk1 (k0_pay3 (k0_pay11 vq vk0 (k0_pay5 (F := Ideal))))
          (k0_pay1 (k0_pay14 vq vk0 (k0_pay5 (F := Ideal)) (k0_pay6 (F := Ideal))))))
        (ix3 (0 : Fin 1) r d)
      = (((Real.exp (smax q kv0 r - max (smax q kv0 r) (smax q kv1 r)) * (∑ j, Real.exp (s q kv0 r j - smax q kv0 r) * kv0 j d)
            + ∑ j, Real.exp (s q kv1 r j - max (smax q kv0 r) (smax q kv1 r)) * kv1 j d)
          / (Real.exp (smax q kv0 r - max (smax q kv0 r) (smax q kv1 r)) * (∑ j, Real.exp (s q kv0 r j - smax q kv0 r))
            + ∑ j, Real.exp (s q kv1 r j - max (smax q kv0 r) (smax q kv1 r))) : ℝ) : EReal) := by
  rw [pay4_apply, a1_apply vq vk0 vk1 q kv0 kv1 hq hk0 hk1, l1_apply vq vk0 vk1 q kv0 kv1 hq hk0 hk1]
  have hpos : 0 < Real.exp (smax q kv0 r - max (smax q kv0 r) (smax q kv1 r)) * (∑ j, Real.exp (s q kv0 r j - smax q kv0 r))
      + ∑ j, Real.exp (s q kv1 r j - max (smax q kv0 r) (smax q kv1 r)) :=
    add_pos_of_nonneg_of_pos
      (mul_nonneg (Real.exp_pos _).le (Finset.sum_nonneg fun _ _ => (Real.exp_pos _).le))
      (Finset.sum_pos (fun _ _ => Real.exp_pos _) Finset.univ_nonempty)
  rw [Ideal.div_coe hpos.ne', ← EReal.coe_mul, mul_one_div]

end Block

/-- THE KERNEL'S OUTPUT BLOCK: for the query block qi of batch b, after the first key/value tile (rows 0 … 1023) and the
    second (rows 1024 … 2047), the output block at (r, d) is the attention of row qi·512 + r at column d. -/
theorem block_out (xr : Cert.AttnSpec.Arr) (b : Fin 16) (qi : Fin 4)
    (vq : Vec Ideal S1x512x256 .f32) (vk0 vk1 : Vec Ideal S1x1024x256 .f32)
    (hq : ∀ (r : Fin 512) (d : Fin 256), vq (ix3 (0 : Fin 1) r d) = ((xr b ⟨qi.val * 512 + r.val, by omega⟩ d : ℝ) : EReal))
    (hk0 : ∀ (j : Fin 1024) (d : Fin 256), vk0 (ix3 (0 : Fin 1) j d) = ((xr b ⟨j.val, by omega⟩ d : ℝ) : EReal))
    (hk1 : ∀ (j : Fin 1024) (d : Fin 256), vk1 (ix3 (0 : Fin 1) j d) = ((xr b ⟨1024 + j.val, by omega⟩ d : ℝ) : EReal))
    (r : Fin 512) (d : Fin 256) :
    k0_pay4 (F := Ideal)
        (k0_pay2 (k0_pay9 vk1) (k0_pay12 vq vk1 (k0_pay3 (k0_pay11 vq vk0 (k0_pay5 (F := Ideal)))))
          (k0_pay13 vq vk1 (k0_pay3 (k0_pay11 vq vk0 (k0_pay5 (F := Ideal)))))
          (k0_pay2 (k0_pay9 vk0) (k0_pay12 vq vk0 (k0_pay5 (F := Ideal))) (k0_pay13 vq vk0 (k0_pay5 (F := Ideal))) (k0_pay7 (F := Ideal))))
        (k0_pay1 (k0_pay14 vq vk1 (k0_pay3 (k0_pay11 vq vk0 (k0_pay5 (F := Ideal))))
          (k0_pay1 (k0_pay14 vq vk0 (k0_pay5 (F := Ideal)) (k0_pay6 (F := Ideal))))))
        (ix3 (0 : Fin 1) r d)
      = ((Cert.AttnSpec.out xr b ⟨qi.val * 512 + r.val, by omega⟩ d : ℝ) : EReal) := by
  have hq' : ∀ (r : Fin 512) (d : Fin 256), vq (ix3 (0 : Fin 1) r d)
      = (((fun (r : Fin 512) (d : Fin 256) => xr b ((fun r : Fin 512 => (⟨qi.val * 512 + r.val, by omega⟩ : Fin 2048)) r) d) r d : ℝ) : EReal) := hq
  have hk0' : ∀ (j : Fin 1024) (d : Fin 256), vk0 (ix3 (0 : Fin 1) j d)
      = (((fun (j : Fin 1024) (d : Fin 256) => xr b (Cert.OnlineSoftmax.lo j) d) j d : ℝ) : EReal) := hk0
  have hk1' : ∀ (j : Fin 1024) (d : Fin 256), vk1 (ix3 (0 : Fin 1) j d)
      = (((fun (j : Fin 1024) (d : Fin 256) => xr b (Cert.OnlineSoftmax.hi j) d) j d : ℝ) : EReal) := hk1
  rw [block_real vq vk0 vk1 _ _ _ hq' hk0' hk1' r d]
  refine congrArg (fun x : ℝ => (x : EReal)) ?_
  have hs0 : ∀ jj : Fin 1024, s (fun (r : Fin 512) (d : Fin 256) => xr b ((fun r : Fin 512 => (⟨qi.val * 512 + r.val, by omega⟩ : Fin 2048)) r) d)
      (fun (j : Fin 1024) (d : Fin 256) => xr b (Cert.OnlineSoftmax.lo j) d) r jj
        = Cert.AttnSpec.score xr b ⟨qi.val * 512 + r.val, by omega⟩ (Cert.OnlineSoftmax.lo jj) :=
    fun jj => s_eq_score xr b _ _ r jj
  have hs1 : ∀ jj : Fin 1024, s (fun (r : Fin 512) (d : Fin 256) => xr b ((fun r : Fin 512 => (⟨qi.val * 512 + r.val, by omega⟩ : Fin 2048)) r) d)
      (fun (j : Fin 1024) (d : Fin 256) => xr b (Cert.OnlineSoftmax.hi j) d) r jj
        = Cert.AttnSpec.score xr b ⟨qi.val * 512 + r.val, by omega⟩ (Cert.OnlineSoftmax.hi jj) :=
    fun jj => s_eq_score xr b _ _ r jj
  simp only [smax, hs0, hs1]
  exact Cert.OnlineSoftmax.two_tiles (Cert.AttnSpec.score xr b ⟨qi.val * 512 + r.val, by omega⟩) (fun j => xr b j d)

end Cert.KernelPay

end
-- ==== Proof.KernelIdeal.Value2.lean ====
/-
  The output block of a query tile, as attention.

  The two grid points of a query tile are an even point (first key/value tile) and the odd point after it (last
  key/value tile); both read the same query block.  The state after the even point is the first-tile update of the
  reset values; the state after the odd point is the last-tile update of that state, and its output block is the
  quotient of the updated weighted sum by the updated denominator.  At the ideal instance, on an argument whose
  entries are coercions of reals, the blocks' entries are the argument's rows, and that quotient is the attention of the
  block's rows over the 2048 rows of the two key/value tiles.
-/
import proofs.«159938_j14027363188928_2_alg».proof.Proof.KernelIdeal.Value1
import proofs.«159938_j14027363188928_2_alg».proof.Proof.KernelIdeal.ValueBlocks
import proofs.«159938_j14027363188928_2_alg».proof.Proof.KernelPay3
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output block at a last key/value tile, from the blocks of its query tile -/

/-- At an odd point the output's staging buffer ends at the output payload of the state the last-tile update leaves
    from the state the first-tile update (at the point before, on the same query block) leaves from the reset values. -/
theorem out_odd (c : Dev nD) (t : Fin cfg0.N) (h1 : ¬t.val % 2 = 0) :
    (outsAt m c t.val t.isLt).1
      = k0_pay4 (k0_pay2 (k0_pay9 (iblk m c 1 t)) (k0_pay12 (iblk m c 0 t) (iblk m c 1 t) (k0_pay3 (k0_pay11 (iblk m c 0 t) (iblk m c 1 ⟨t.val - 1, (Nat.lt_of_le_of_lt (Nat.sub_le _ _) t.isLt)⟩) k0_pay5))) (k0_pay13 (iblk m c 0 t) (iblk m c 1 t) (k0_pay3 (k0_pay11 (iblk m c 0 t) (iblk m c 1 ⟨t.val - 1, (Nat.lt_of_le_of_lt (Nat.sub_le _ _) t.isLt)⟩) k0_pay5))) (k0_pay2 (k0_pay9 (iblk m c 1 ⟨t.val - 1, (Nat.lt_of_le_of_lt (Nat.sub_le _ _) t.isLt)⟩)) (k0_pay12 (iblk m c 0 t) (iblk m c 1 ⟨t.val - 1, (Nat.lt_of_le_of_lt (Nat.sub_le _ _) t.isLt)⟩) k0_pay5) (k0_pay13 (iblk m c 0 t) (iblk m c 1 ⟨t.val - 1, (Nat.lt_of_le_of_lt (Nat.sub_le _ _) t.isLt)⟩) k0_pay5) k0_pay7))
        (k0_pay1 (k0_pay14 (iblk m c 0 t) (iblk m c 1 t) (k0_pay3 (k0_pay11 (iblk m c 0 t) (iblk m c 1 ⟨t.val - 1, (Nat.lt_of_le_of_lt (Nat.sub_le _ _) t.isLt)⟩) k0_pay5)) (k0_pay1 (k0_pay14 (iblk m c 0 t) (iblk m c 1 ⟨t.val - 1, (Nat.lt_of_le_of_lt (Nat.sub_le _ _) t.isLt)⟩) k0_pay5 k0_pay6)))) := by
  have h0' : (⟨t.val - 1, (Nat.lt_of_le_of_lt (Nat.sub_le _ _) t.isLt)⟩ : Fin cfg0.N).val % 2 = 0 := by
    show (t.val - 1) % 2 = 0; omega
  have hs : outsAt m c (t.val - 1) (Nat.lt_of_le_of_lt (Nat.sub_le _ _) t.isLt) = stFirst m c ⟨t.val - 1, (Nat.lt_of_le_of_lt (Nat.sub_le _ _) t.isLt)⟩ h0' :=
    outsAt_first m c ⟨t.val - 1, (Nat.lt_of_le_of_lt (Nat.sub_le _ _) t.isLt)⟩ h0'
  have hq : (iblk m c 0 ⟨t.val - 1, (Nat.lt_of_le_of_lt (Nat.sub_le _ _) t.isLt)⟩ : Vec F S1x512x256 .f32) = iblk m c 0 t :=
    iblk_q_pair m c ⟨t.val - 1, (Nat.lt_of_le_of_lt (Nat.sub_le _ _) t.isLt)⟩ t (by show (t.val - 1) / 2 = t.val / 2; omega)
  rw [outsAt_last m c t h1, last_out, hs, first_max, first_den, first_acc, hq]

/-- At the ideal instance, on an argument of finite entries: the output block of the odd point of batch b and query
    tile qi holds, at (r, d), the attention of row 512·qi + r of batch b at column d. -/
theorem out_odd_apply (m : (ℓ : Loc nD τ sig) → Buf (Elt Ideal) ℓ) (c : Dev nD) (xr : Cert.AttnSpec.Arr)
    (hx : ∀ b i d, m ((c.tc : Thread nD τ).loc main_arg0) (ValueIdx.ix3 b i d) = ((xr b i d : ℝ) : EReal))
    (t : Fin cfg0.N) (b : Fin 16) (qi : Fin 4) (ht : t.val = b.val * 8 + qi.val * 2 + 1) (r : Fin 512) (d : Fin 256) :
    ((outsAt (F := Ideal) m c t.val t.isLt).1 : Vec Ideal S1x512x256 .f32) (ValueIdx.ix3 (0 : Fin 1) r d)
      = ((Cert.AttnSpec.out xr b ⟨qi.val * 512 + r.val, by omega⟩ d : ℝ) : EReal) := by
  have hb := b.isLt
  have hqi := qi.isLt
  have h1 : ¬t.val % 2 = 0 := by omega
  rw [out_odd m c t h1]
  exact Cert.KernelPay.block_out xr b qi (iblk m c 0 t) (iblk m c 1 ⟨t.val - 1, (Nat.lt_of_le_of_lt (Nat.sub_le _ _) t.isLt)⟩) (iblk m c 1 t)
    (fun r d => (iblk_q_apply m c t b qi ⟨by omega, by omega⟩ r d).trans (hx _ _ _))
    (fun j d => ((iblk_kv_apply m c ⟨t.val - 1, (Nat.lt_of_le_of_lt (Nat.sub_le _ _) t.isLt)⟩ b (⟨0, by omega⟩ : Fin 2)
        ⟨by show (t.val - 1) / 8 = b.val; omega, by show (t.val - 1) % 2 = 0; omega⟩ j d).trans (hx _ _ _)).trans
      (congrArg (fun k : Fin 2048 => ((xr b k d : ℝ) : EReal)) (Fin.ext (by show 0 * 1024 + j.val = j.val; omega))))
    (fun j d => ((iblk_kv_apply m c t b (⟨1, by omega⟩ : Fin 2) ⟨by omega, by show t.val % 2 = 1; omega⟩ j d).trans (hx _ _ _)).trans
      (congrArg (fun k : Fin 2048 => ((xr b k d : ℝ) : EReal)) (Fin.ext (by show 1 * 1024 + j.val = 1024 + j.val; omega))))
    r d

end Cert.KernelIdeal.Attn

end
-- ==== Proof.KernelIdeal.Value3.lean ====
/-
  The result array after the last grid point is attention.

  The output window writes its block back at the odd grid points only: point t = 8·b + 2·q + 1, the last key/value
  tile of query tile q of batch b, writes rows [512·q, 512·q + 512) of batch b.  What is written there is, entry by
  entry, the attention of the argument (the two-tile computation of the block's rows), so every write-back is the
  restriction to its block of ONE function of the array index: i ↦ attention at (i₀, i₁, i₂).  The blocks tile the
  result, hence after the last point the result array is that function.
-/
import proofs.«159938_j14027363188928_2_alg».proof.Proof.KernelIdeal.State
import proofs.«159938_j14027363188928_2_alg».proof.Proof.KernelIdeal.ValueBlocks
import proofs.«159938_j14027363188928_2_alg».proof.Proof.KernelIdeal.Value2
import proofs.«159938_j14027363188928_2_alg».proof.Proof.AttnSpec
import Idealize.ShloMosaic.Lib.Pipeline.Value
import Idealize.ShloMosaic.Lib.ValueIdx

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable (m : (ℓ : Loc nD τ sig) → Buf (Elt Ideal) ℓ)

/-- The array the result ends at, for an argument that is the coercion of the real array xr: attention, index by index. -/
def outG (xr : Cert.AttnSpec.Arr) : S16x2048x256.Idx → EReal :=
  fun i => ((Cert.AttnSpec.out xr (i 0) (i 1) (i 2) : ℝ) : EReal)

/-- What an odd point writes back is its block of that array: row r of the block of point t is row
    512·((t / 2) mod 4) + r of batch t / 8. -/
theorem flushed_eq (c : Dev nD) (xr : Cert.AttnSpec.Arr)
    (hx : ∀ b i d, m ((c.tc : Thread nD τ).loc main_arg0) (ix3 b i d) = ((xr b i d : ℝ) : EReal))
    (t : Fin cfg0.N) (hf : (cfg0.win 2).flush t = true) :
    (dats (F := Ideal) m 0 c).flushed 2 t = ((cfg0.win 2).blk t).view.read (Elt Ideal) (outG xr) := by
  have hodd : t.val % 2 = 1 := (flush0_2 t).mp hf
  have htN : t.val < 128 := lt_of_lt_of_eq t.isLt N_0
  obtain ⟨e0, e1, e2⟩ := index_out t
  show (cfg0.win 2).cut (grid0.coords t) ((dats (F := Ideal) m 0 c).after 2 t) = _
  rw [after_out]
  funext j
  obtain ⟨z, r, d, rfl⟩ : ∃ (z : Fin 1) (r : Fin 512) (d : Fin 256), j = ix3 z r d := ⟨j 0, j 1, j 2, eq_ix3 j⟩
  obtain rfl : z = 0 := Subsingleton.elim _ _
  show ((outsAt (F := Ideal) m c t.val t.isLt).1 : Vec Ideal S1x512x256 .f32) (ix3 (0 : Fin 1) r d)
    = outG xr (((cfg0.win 2).blk t).view.emb (ix3 (0 : Fin 1) r d))
  have hb : ((cfg0.win 2).blk t).view.emb (ix3 (0 : Fin 1) r d)
      = ix3 (⟨t.val / 8, by omega⟩ : Fin 16) (⟨(t.val / 2) % 4 * 512 + r.val, by omega⟩ : Fin 2048) d := by
    funext a; apply Fin.ext
    match a with
    | ⟨0, _⟩ => show win0_2.index t (0 : Fin 3) * 1 + 1 * 0 = t.val / 8; omega
    | ⟨1, _⟩ => show win0_2.index t (1 : Fin 3) * 512 + 1 * r.val = (t.val / 2) % 4 * 512 + r.val; omega
    | ⟨2, _⟩ => show win0_2.index t (2 : Fin 3) * 256 + 1 * d.val = d.val; omega
  rw [hb, out_odd_apply m c xr hx t ⟨t.val / 8, by omega⟩ ⟨(t.val / 2) % 4, by omega⟩
    (by show t.val = t.val / 8 * 8 + (t.val / 2) % 4 * 2 + 1; omega) r d]
  rfl

/-- After the last grid point the result array is attention, index by index. -/
theorem final_eq (c : Dev nD) (xr : Cert.AttnSpec.Arr)
    (hx : ∀ b i d, m ((c.tc : Thread nD τ).loc main_arg0) (ix3 b i d) = ((xr b i d : ℝ) : EReal)) :
    (dats (F := Ideal) m 0 c).arrAt 2 cfg0.N = outG xr :=
  (dats (F := Ideal) m 0 c).arrAt_eq_of_cover 2 (outG xr) (fun t hf => flushed_eq m c xr hx t hf) covered_out

/-- The result array at (b, i, d) is the attention of the real array at (b, i, d). -/
theorem result_eq (c : Dev nD) (xr : Cert.AttnSpec.Arr)
    (hx : ∀ b i d, m ((c.tc : Thread nD τ).loc main_arg0) (ix3 b i d) = ((xr b i d : ℝ) : EReal))
    (b : Fin 16) (i : Fin 2048) (d : Fin 256) :
    (dats (F := Ideal) m 0 c).arrAt 2 cfg0.N (ix3 b i d) = ((Cert.AttnSpec.out xr b i d : ℝ) : EReal) :=
  congrFun (final_eq m c xr hx) (ix3 b i d)

end Cert.KernelIdeal.Attn

end
-- ==== Proof.RefAttn.lean ====
/-
  The reference program's result, read index by index, is attention on the reals (the specification's `out`).

  The reference is a chain of twenty-nine elementwise, layout, reduction and contraction operations.  Each one,
  read at an index whose coordinates are literal, takes its operands at indices computed from those coordinates;
  the first part of this file computes those indices.  On an argument array all of whose entries are coercions
  of reals, every intermediate value is again the coercion of a real, because the exact operations on extended
  reals restrict to the real ones away from their corners: a square root of a nonnegative sum of squares, a
  quotient by a clamped norm that is positive, a quotient by a sum of exponentials that is positive, and a
  maximum folded from the negative infinity over a nonempty row, which is the row's largest score.  The second
  part states those restrictions; the third walks the chain, one lemma per stage, each saying that the stage at
  an index is the coercion of the corresponding real quantity of the specification.
-/
import proofs.«159938_j14027363188928_2_alg».proof.Proof.Gen.ReferenceIdeal.Read
import proofs.«159938_j14027363188928_2_alg».proof.Proof.AttnSpec

noncomputable section

namespace Cert.RefAttn

open Idealize.ShloMosaic Cert.ReferenceIdeal Cert.ReferenceIdeal.Read ValueIdx

/-! ## The index maps of the layout operations at literal coordinates -/

theorem idx_call0_v1 (b : Fin 16) (j : Fin 2048) (k : Fin 256) :
    idx_main_call0_v1 (ix2 b j) k = ix3 b j k := by
  funext a; match a with | ⟨0, _⟩ => rfl | ⟨1, _⟩ => rfl | ⟨2, _⟩ => rfl

theorem idx_call0_v2 (b : Fin 16) (j : Fin 2048) (z : Fin 1) :
    idx_main_call0_v2 (ix3 b j z) = ix2 b j := by
  funext a; match a with | ⟨0, _⟩ => rfl | ⟨1, _⟩ => rfl

theorem idx_v3 (b : Fin 16) (j : Fin 2048) (d : Fin 256) :
    idx_main_v3 (ix3 b j d) = ix3 b j (0 : Fin 1) := by
  funext a; match a with | ⟨0, _⟩ => rfl | ⟨1, _⟩ => rfl | ⟨2, _⟩ => rfl

theorem lidx_v5 (b : Fin 16) (i j : Fin 2048) (k : Fin 256) :
    lidx_main_v5 (ix3 b i j) k = ix3 b i k := by
  funext a; match a with | ⟨0, _⟩ => rfl | ⟨1, _⟩ => rfl | ⟨2, _⟩ => rfl

theorem ridx_v5 (b : Fin 16) (i j : Fin 2048) (k : Fin 256) :
    ridx_main_v5 (ix3 b i j) k = ix3 b j k := by
  funext a; match a with | ⟨0, _⟩ => rfl | ⟨1, _⟩ => rfl | ⟨2, _⟩ => rfl

theorem idx_v11 (b : Fin 16) (i : Fin 2048) (z : Fin 1) :
    idx_main_v11 (ix3 b i z) = ix2 b i := by
  funext a; match a with | ⟨0, _⟩ => rfl | ⟨1, _⟩ => rfl

theorem idx_v12 (b : Fin 16) (i j : Fin 2048) :
    idx_main_v12 (ix3 b i j) = ix3 b i (0 : Fin 1) := by
  funext a; match a with | ⟨0, _⟩ => rfl | ⟨1, _⟩ => rfl | ⟨2, _⟩ => rfl

theorem idx_v15 (b : Fin 16) (i : Fin 2048) (k : Fin 2048) :
    idx_main_v15 (ix2 b i) k = ix3 b i k := by
  funext a; match a with | ⟨0, _⟩ => rfl | ⟨1, _⟩ => rfl | ⟨2, _⟩ => rfl

theorem idx_v16 (b : Fin 16) (i : Fin 2048) (z : Fin 1) :
    idx_main_v16 (ix3 b i z) = ix2 b i := by
  funext a; match a with | ⟨0, _⟩ => rfl | ⟨1, _⟩ => rfl

theorem idx_v17 (b : Fin 16) (i j : Fin 2048) :
    idx_main_v17 (ix3 b i j) = ix3 b i (0 : Fin 1) := by
  funext a; match a with | ⟨0, _⟩ => rfl | ⟨1, _⟩ => rfl | ⟨2, _⟩ => rfl

theorem lidx_v19 (b : Fin 16) (i : Fin 2048) (d : Fin 256) (k : Fin 2048) :
    lidx_main_v19 (ix3 b i d) k = ix3 b i k := by
  funext a; match a with | ⟨0, _⟩ => rfl | ⟨1, _⟩ => rfl | ⟨2, _⟩ => rfl

theorem ridx_v19 (b : Fin 16) (i : Fin 2048) (d : Fin 256) (k : Fin 2048) :
    ridx_main_v19 (ix3 b i d) k = ix3 b k d := by
  funext a; match a with | ⟨0, _⟩ => rfl | ⟨1, _⟩ => rfl | ⟨2, _⟩ => rfl

/-! ## Real arithmetic inside the extended reals -/

/-- The coercion of a finite sum of reals is the sum of the coercions. -/
theorem coe_sum {ι : Type} [Fintype ι] (f : ι → ℝ) :
    ((∑ i, f i : ℝ) : EReal) = ∑ i, ((f i : ℝ) : EReal) := by
  classical
  induction (Finset.univ : Finset ι) using Finset.induction_on with
  | empty => simp
  | insert a s ha ih => rw [Finset.sum_insert ha, Finset.sum_insert ha, EReal.coe_add, ih]

/-- The exact quotient of a real by a nonzero real is the real quotient. -/
theorem div_coe_coe (a : ℝ) {c : ℝ} (hc : c ≠ 0) :
    Ideal.div ((a : ℝ) : EReal) ((c : ℝ) : EReal) = ((a / c : ℝ) : EReal) := by
  rw [Ideal.div_coe hc, ← EReal.coe_mul, mul_one_div]

/-- The square root of a nonnegative real. -/
theorem sqrt_coe_nonneg {a : ℝ} (ha : 0 ≤ a) : Ideal.sqrt ((a : ℝ) : EReal) = ((Real.sqrt a : ℝ) : EReal) := by
  rw [Ideal.sqrt_coe, if_neg (not_lt.mpr ha)]

/-- The maximum of two reals. -/
theorem max_coe_coe (a c : ℝ) : max ((a : ℝ) : EReal) ((c : ℝ) : EReal) = ((max a c : ℝ) : EReal) :=
  (EReal.coe_strictMono.monotone.map_max (a := a) (b := c)).symm

/-- Folding the maximum from the bottom element over finitely many reals gives the largest of them. -/
theorem fold_max_bot_coe {n : Nat} (hn : (Finset.univ : Finset (Fin n)).Nonempty) (f : Fin n → ℝ) :
    (Finset.univ : Finset (Fin n)).fold max (⊥ : EReal) (fun k => ((f k : ℝ) : EReal))
      = ((Finset.univ.sup' hn f : ℝ) : EReal) := by
  rw [Finset.comp_sup'_eq_sup'_comp hn (fun r : ℝ => (r : EReal)) (fun a c => (max_coe_coe a c).symm),
    Finset.sup'_eq_sup]
  rfl

/-- The binary32 word 0x2B8CBCCC: exponent field 87, fraction 834764, so
    (2²³ + 834764) · 2^(87 − 127 − 23) = 9223372 · 2⁻⁶³. -/
theorem ofBits_eps : Ideal.ofBits .f32 0x2B8CBCCC#32 = ((Cert.AttnSpec.eps : ℝ) : EReal) := by
  unfold Cert.AttnSpec.eps
  simp [Ideal.ofBits, Ideal.ieee, -EReal.coe_mul]; norm_num

/-- The binary32 word 0x3D800000: exponent field 123, fraction 0, so 2²³ · 2^(123 − 127 − 23) = 2⁻⁴. -/
theorem ofBits_sc : Ideal.ofBits .f32 0x3D800000#32 = ((Cert.AttnSpec.sc : ℝ) : EReal) := by
  unfold Cert.AttnSpec.sc
  simp [Ideal.ofBits, Ideal.ieee, -EReal.coe_mul]; norm_num

/-- The binary32 word 0xFF800000 is the negative infinity, the bottom element. -/
theorem ofBits_neg_inf : Ideal.ofBits .f32 0xFF800000#32 = ⊥ := by
  simp [Ideal.ofBits, Ideal.ieee]

/-! ## The stages of the reference, each read at an index as the coercion of a real -/

section Stages
open Cert.AttnSpec

variable (x0 : (⟨S16x2048x256, .f32⟩ : BufTy).Contents (Elt Ideal)) (xr : Cert.AttnSpec.Arr)
  (hx : ∀ b i d, x0 (ix3 b i d) = ((xr b i d : ℝ) : EReal))
include hx

/-- The sum of the squares of a row. -/
theorem sumsq_eq (b : Fin 16) (j : Fin 2048) :
    val_main_call0_v1 (F := Ideal) x0 (ix2 b j) = ((∑ d, xr b j d * xr b j d : ℝ) : EReal) := by
  rw [val_main_call0_v1_apply, val_main_call0_cst_apply, Ideal.ofBits_def, Ideal.ofBits_zero_f32, zero_add, coe_sum]
  refine Finset.sum_congr rfl fun k _ => ?_
  rw [idx_call0_v1, val_main_call0_v0_apply, Ideal.mulf_def, hx, ← EReal.coe_mul]

/-- The Euclidean norm of a row. -/
theorem norm_eq (b : Fin 16) (j : Fin 2048) (z : Fin 1) :
    val_main_v0 (F := Ideal) x0 (ix3 b j z) = ((Real.sqrt (∑ d, xr b j d * xr b j d) : ℝ) : EReal) := by
  rw [val_main_v0_apply, Ideal.hostUnary_sqrt_def, val_main_call0_v2_apply, idx_call0_v2, sumsq_eq x0 xr hx,
    sqrt_coe_nonneg (Finset.sum_nonneg fun d _ => mul_self_nonneg _)]

/-- The clamped norm. -/
theorem knorm_eq (b : Fin 16) (j : Fin 2048) (z : Fin 1) :
    val_main_v2 (F := Ideal) x0 (ix3 b j z) = ((knorm xr b j : ℝ) : EReal) := by
  rw [val_main_v2_apply, Ideal.maximumf_def, norm_eq x0 xr hx, val_main_v1_apply, val_main_cst_apply, Ideal.ofBits_def,
    ofBits_eps, max_coe_coe]
  rfl

/-- The key: a row divided by its clamped norm. -/
theorem key_eq (b : Fin 16) (j : Fin 2048) (d : Fin 256) :
    val_main_v4 (F := Ideal) x0 (ix3 b j d) = ((key xr b j d : ℝ) : EReal) := by
  rw [val_main_v4_apply, Ideal.hostDivf_def, val_main_v3_apply, idx_v3, knorm_eq x0 xr hx, hx,
    div_coe_coe _ (knorm_pos xr b j).ne']
  rfl

/-- The inner product of a query row with a key row. -/
theorem raw_eq (b : Fin 16) (i j : Fin 2048) :
    val_main_v5 (F := Ideal) x0 (ix3 b i j) = ((∑ d, xr b i d * key xr b j d : ℝ) : EReal) := by
  rw [val_main_v5_apply, coe_sum]
  refine Finset.sum_congr rfl fun k _ => ?_
  rw [lidx_v5, ridx_v5, hx, key_eq x0 xr hx, ← EReal.coe_mul]

/-- The scaled score. -/
theorem score_eq (b : Fin 16) (i j : Fin 2048) :
    val_main_v7 (F := Ideal) x0 (ix3 b i j) = ((score xr b i j : ℝ) : EReal) := by
  rw [val_main_v7_apply, Ideal.mulf_def, raw_eq x0 xr hx, val_main_v6_apply, val_main_cst_0_apply, Ideal.ofBits_def,
    ofBits_sc, ← EReal.coe_mul]
  rfl

omit hx in
/-- The index a reduction over the last axis reads: the row's index with the coordinate inserted last. -/
theorem lift_last (h : S16x2048x2048.Reduces [2] S16x2048) (b : Fin 16) (i k : Fin 2048) :
    h.lift (ix2 b i) k = ix3 b i k := by
  funext a; match a with | ⟨0, _⟩ => rfl | ⟨1, _⟩ => rfl | ⟨2, _⟩ => rfl

/-- The maximum the reduction computes over a row of scores, from the negative infinity. -/
theorem rowmax8_eq (b : Fin 16) (i : Fin 2048) :
    val_main_v8 (F := Ideal) x0 (ix2 b i) = ((rowMax xr b i : ℝ) : EReal) := by
  have h : S16x2048x2048.Reduces [2] S16x2048 := by decide
  unfold val_main_v8
  refine (Host.reduce_eq_fold_single (FloatOps.maximumf (F := Ideal) (φ := .f32)) _ _ _ h _ (ix2 b i)).trans ?_
  show Finset.fold max (Ideal.ofBits .f32 0xFF800000#32)
    (fun k : Fin 2048 => val_main_v7 (F := Ideal) x0 (h.lift (ix2 b i) k)) Finset.univ = _
  have e : (fun k : Fin 2048 => val_main_v7 (F := Ideal) x0 (h.lift (ix2 b i) k))
      = fun k : Fin 2048 => ((score xr b i k : ℝ) : EReal) :=
    funext fun k => by rw [lift_last, score_eq x0 xr hx]
  rw [e, ofBits_neg_inf, fold_max_bot_coe Finset.univ_nonempty]
  rfl

/-- The row maximum after the guard against an empty row. -/
theorem rowmax_eq (b : Fin 16) (i : Fin 2048) :
    val_main_v10 (F := Ideal) x0 (ix2 b i) = ((rowMax xr b i : ℝ) : EReal) := by
  rw [val_main_v10_apply, Ideal.maximumf_def, val_main_v9_apply, val_main_cst_2_apply, Ideal.ofBits_def, ofBits_neg_inf,
    rowmax8_eq x0 xr hx]
  exact max_eq_right bot_le

/-- The unnormalised weight. -/
theorem weight_eq (b : Fin 16) (i j : Fin 2048) :
    val_main_v14 (F := Ideal) x0 (ix3 b i j) = ((weight xr b i j : ℝ) : EReal) := by
  rw [val_main_v14_apply, Ideal.hostUnary_exp_def, val_main_v13_apply, Ideal.subf_def, score_eq x0 xr hx,
    val_main_v12_apply, idx_v12, val_main_v11_apply, idx_v11, rowmax_eq x0 xr hx, ← EReal.coe_sub, Ideal.exp_coe]
  rfl

/-- The softmax denominator. -/
theorem denom_eq (b : Fin 16) (i : Fin 2048) :
    val_main_v15 (F := Ideal) x0 (ix2 b i) = ((denom xr b i : ℝ) : EReal) := by
  rw [val_main_v15_apply, val_main_cst_3_apply, Ideal.ofBits_def, Ideal.ofBits_zero_f32, zero_add]
  unfold Cert.AttnSpec.denom
  rw [coe_sum]
  refine Finset.sum_congr rfl fun k _ => ?_
  rw [idx_v15, weight_eq x0 xr hx]

omit hx in
/-- The denominator is a sum of exponentials, hence positive. -/
theorem denom_pos (b : Fin 16) (i : Fin 2048) : 0 < denom xr b i :=
  Finset.sum_pos (fun j _ => Real.exp_pos _) Finset.univ_nonempty

/-- The normalised weight. -/
theorem prob_eq (b : Fin 16) (i j : Fin 2048) :
    val_main_v18 (F := Ideal) x0 (ix3 b i j) = ((weight xr b i j / denom xr b i : ℝ) : EReal) := by
  rw [val_main_v18_apply, Ideal.hostDivf_def, weight_eq x0 xr hx, val_main_v17_apply, idx_v17, val_main_v16_apply, idx_v16,
    denom_eq x0 xr hx, div_coe_coe _ (denom_pos xr b i).ne']

/-- The reference's result is attention on the reals. -/
theorem ref_out (b : Fin 16) (i : Fin 2048) (d : Fin 256) :
    val_main_v19 (F := Ideal) x0 (ix3 b i d) = ((Cert.AttnSpec.out xr b i d : ℝ) : EReal) := by
  rw [val_main_v19_apply]
  unfold Cert.AttnSpec.out
  rw [coe_sum]
  refine Finset.sum_congr rfl fun k _ => ?_
  rw [lidx_v19, ridx_v19, prob_eq x0 xr hx, hx, ← EReal.coe_mul]

end Stages

end Cert.RefAttn

end
-- ==== Proof.LibIdealReal.lean ====
/-
  The ideal float instance on finite values, read as real arithmetic.

  At the ideal instance a float is an extended real and every operation is the exact one.  On values that are
  coercions of reals the operations stay inside the reals: sums, products, differences, maxima, quotients by a
  nonzero real, exponentials and square roots of nonnegative reals all are the coercion of the real operation.
  This file states those facts in the spellings programs use (the scalar field of the instance, the vector
  operation read at an index, the host's variant of the operation), gives the extended reals that four binary32
  words denote, the behaviour of the operations at the bottom element (the value a running maximum starts
  from), and reads a maximum taken by folding `max` from the bottom element over finitely many coerced reals
  as the coercion of the real maximum.

  General: nothing here mentions a program.  It imports only the library's ideal instance (PureOps/Ideal.lean), the laws
  of that instance (PureOps/Ideal/Laws.lean: reductions over one axis as folds and sums) and indices by coordinates
  (Lib/ValueIdx.lean).

  Contents (namespace Cert.IdealReal):
    coe_sum, coe_sum_univ          coercion commutes with finite sums
    coe_mul', coe_add', coe_sub', coe_max'   the arithmetic on coerced reals, oriented towards the reals
    div_coe_coe                    Ideal.div ↑a ↑b = ↑(a / b) for b ≠ 0
    exp_coe', exp_bot', sqrt_coe_nonneg       exponential and square root on coerced reals
    bot_sub_coe, max_bot_left, max_bot_right, coe_sub_bot …    the bottom element
    *_apply                        vector operations read at an index
    ofBits_eps, ofBits_sixteenth, ofBits_neg_inf, ofBits_zero  four binary32 words
    fold_max_bot_coe               the fold of max from ⊥ over coerced reals is the coerced real maximum
    exp_bot_sub_coe, sum_coe_mul_coe, sqrt_sum_mul_self       small compositions of the above
    sup'_univ_split, sum_univ_split, exp_sub_mul_sum_exp, exp_sub_mul_sum_exp_mul
                                   a maximum or sum over a range cut in two; rescaled sums of exponentials
    multiReduction_maximumf_coe, multiReduction_add_coe, hostReduce_maximumf_coe, hostReduceAdd_coe
                                   a maximum / sum reduction over one axis whose source elements are coerced reals
-/
import Idealize.ShloMosaic.PureOps.Ideal
import Idealize.ShloMosaic.PureOps.Ideal.Laws
import Idealize.ShloMosaic.Lib.ValueIdx

noncomputable section

namespace Cert.IdealReal

open Idealize.ShloMosaic

/-! ## Sums -/

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ i, f i : ℝ) : EReal) = ∑ i, ((f i : ℝ) : EReal) := coe_sum Finset.univ f

/-! ## Arithmetic on coerced reals, oriented towards the reals -/

theorem coe_mul' (a b : ℝ) : ((a : ℝ) : EReal) * ((b : ℝ) : EReal) = ((a * b : ℝ) : EReal) := (EReal.coe_mul a b).symm
theorem coe_add' (a b : ℝ) : ((a : ℝ) : EReal) + ((b : ℝ) : EReal) = ((a + b : ℝ) : EReal) := (EReal.coe_add a b).symm
theorem coe_sub' (a b : ℝ) : ((a : ℝ) : EReal) - ((b : ℝ) : EReal) = ((a - b : ℝ) : EReal) := (EReal.coe_sub a b).symm
theorem coe_max' (a b : ℝ) : max ((a : ℝ) : EReal) ((b : ℝ) : EReal) = ((max a b : ℝ) : EReal) :=
  (EReal.coe_strictMono.monotone.map_max (a := a) (b := b)).symm

/-- The ideal instance's division of a real by a nonzero real is the real quotient. -/
theorem div_coe_coe (a : ℝ) {b : ℝ} (hb : b ≠ 0) : Ideal.div ((a : ℝ) : EReal) ((b : ℝ) : EReal) = ((a / b : ℝ) : EReal) := by
  rw [Ideal.div_coe hb, ← EReal.coe_mul, mul_one_div]

/-- The exponential of a real. -/
theorem exp_coe' (a : ℝ) : Ideal.exp ((a : ℝ) : EReal) = ((Real.exp a : ℝ) : EReal) := rfl
/-- The exponential of the bottom element is zero. -/
theorem exp_bot' : Ideal.exp ⊥ = 0 := rfl
/-- The square root of a nonnegative real. -/
theorem sqrt_coe_nonneg {a : ℝ} (ha : 0 ≤ a) : Ideal.sqrt ((a : ℝ) : EReal) = ((Real.sqrt a : ℝ) : EReal) := by
  rw [Ideal.sqrt_coe, if_neg (not_lt.mpr ha)]

/-! ## The bottom element -/

theorem bot_sub_coe (a : ℝ) : (⊥ : EReal) - ((a : ℝ) : EReal) = ⊥ := EReal.bot_sub _
theorem max_bot_left (x : EReal) : max ⊥ x = x := max_eq_right bot_le
theorem max_bot_right (x : EReal) : max x ⊥ = x := max_eq_left bot_le

/-! ## Vector operations read at an index (the ones Lib/ValueIdx.lean does not list) -/

section Apply
variable {s : Shape} {φ : FTy}

theorem exp_apply (x : FVec Ideal s φ) (i : s.Idx) : exp x i = Ideal.exp (x i) := rfl
theorem sqrt_apply (x : FVec Ideal s φ) (i : s.Idx) : sqrt x i = Ideal.sqrt (x i) := rfl
theorem hostExp_apply (x : FVec Ideal s φ) (i : s.Idx) : Host.exp x i = Ideal.exp (x i) := rfl
theorem hostSqrt_apply (x : FVec Ideal s φ) (i : s.Idx) : Host.sqrt x i = Ideal.sqrt (x i) := rfl
theorem hostDivf_apply (x y : FVec Ideal s φ) (i : s.Idx) : Host.divf x y i = Ideal.div (x i) (y i) := rfl
theorem hostAbsf_apply (x : FVec Ideal s φ) (i : s.Idx) : Host.absf x i = max (x i) (-(x i)) := rfl
theorem broadcast_ofBits_apply (b : BitVec φ.bits) (i : s.Idx) :
    broadcast s (Scalar.ofBits (F := Ideal) φ b) i = Ideal.ofBits φ b := rfl
theorem scalar_ofBits (b : BitVec φ.bits) : Scalar.ofBits (F := Ideal) φ b = Ideal.ofBits φ b := rfl

end Apply

/-! ## Four binary32 words -/

/-- The word 0x2B8CBCCC: exponent field 87, fraction 834764, so (2²³ + 834764) · 2^(87 − 127 − 23) = 9223372 · 2⁻⁶³. -/
theorem ofBits_eps : Ideal.ofBits .f32 0x2B8CBCCC#32 = (((9223372 : ℝ) / 2 ^ 63 : ℝ) : EReal) := by
  simp [Ideal.ofBits, Ideal.ieee, -EReal.coe_mul]; norm_num

/-- The word 0x3D800000: exponent field 123, fraction 0, so 2²³ · 2^(123 − 127 − 23) = 2⁻⁴. -/
theorem ofBits_sixteenth : Ideal.ofBits .f32 0x3D800000#32 = (((1 : ℝ) / 16 : ℝ) : EReal) := by
  simp [Ideal.ofBits, Ideal.ieee, -EReal.coe_mul]; norm_num

/-- The word 0xFF800000 is the negative infinity: the bottom element. -/
theorem ofBits_neg_inf : Ideal.ofBits .f32 0xFF800000#32 = ⊥ := by
  simp [Ideal.ofBits, Ideal.ieee]

/-- The word 0x7F800000 is the positive infinity: the top element. -/
theorem ofBits_pos_inf : Ideal.ofBits .f32 0x7F800000#32 = ⊤ := by
  simp [Ideal.ofBits, Ideal.ieee]

/-- The zero word is zero. -/
theorem ofBits_zero : Ideal.ofBits .f32 0x00000000#32 = 0 := Ideal.ofBits_zero_f32

/-! ## Maxima and sums over one axis, on coerced reals -/

/-- Folding `max` from the bottom element over finitely many coerced reals gives the coercion of their real maximum. -/
theorem fold_max_bot_coe {ι : Type} (s : Finset ι) (hs : s.Nonempty) (f : ι → ℝ) :
    s.fold max (⊥ : EReal) (fun j => ((f j : ℝ) : EReal)) = ((s.sup' hs f : ℝ) : EReal) := by
  classical
  induction hs using Finset.Nonempty.cons_induction with
  | singleton a => simp
  | cons a s ha hs ih =>
    rw [Finset.fold_cons, ih, Finset.sup'_cons hs]
    exact (EReal.coe_strictMono.monotone.map_max).symm

/-- A binary32 maximum reduction over one axis, started from the negative infinity, read at a result index at which
    every source element along the axis is a coerced real: the coercion of the real maximum over the axis. -/
theorem multiReduction_maximumf_coe {s t : Shape} {a : Fin s.rank} (src : FVec Ideal s .f32)
    (h : s.Reduces [a] t) (hφ : FKind.Formats .f32) (hacc : (0xFF800000#32 : BitVec 32) = FKind.maximumf.neutral .f32 hφ) (j : t.Idx)
    (H : (Finset.univ : Finset (Fin (s.size a))).Nonempty) (f : Fin (s.size a) → ℝ)
    (hf : ∀ k, src (h.lift j k) = ((f k : ℝ) : EReal)) :
    multiReduction .maximumf [a] t src 0xFF800000#32 h hφ hacc j = ((Finset.univ.sup' H f : ℝ) : EReal) := by
  rw [Ideal.multiReduction_maximumf_single]
  have e : (src ∘ h.lift j) = fun k => ((f k : ℝ) : EReal) := funext hf
  rw [e, Ideal.ofBits_def, ofBits_neg_inf]
  exact fold_max_bot_coe _ H f

/-- A binary32 sum reduction over one axis, read at a result index at which every source element along the axis is a
    coerced real: the coercion of the real sum over the axis. -/
theorem multiReduction_add_coe {s t : Shape} {a : Fin s.rank} (src : FVec Ideal s .f32)
    (h : s.Reduces [a] t) (hφ : FKind.Formats .f32) (hacc : (0x00000000#32 : BitVec 32) = FKind.add.neutral .f32 hφ) (j : t.Idx)
    (f : Fin (s.size a) → ℝ) (hf : ∀ k, src (h.lift j k) = ((f k : ℝ) : EReal)) :
    multiReduction .add [a] t src 0x00000000#32 h hφ hacc j = ((∑ k, f k : ℝ) : EReal) := by
  rw [Ideal.multiReduction_add_single, coe_sum_univ]
  exact Finset.sum_congr rfl fun k _ => hf k

/-- The host's maximum reduction over one axis from an initial value that is the bottom element, likewise. -/
theorem hostReduce_maximumf_coe {s t u : Shape} {a : Fin s.rank} (x : FVec Ideal s .f32) (init : FVec Ideal u .f32)
    (h' : s.ReducesTo [a] t) (h : s.Reduces [a] t) (hu : 0 < u.numel) (j : t.Idx)
    (hinit : init (Shape.Idx.first hu) = ⊥)
    (H : (Finset.univ : Finset (Fin (s.size a))).Nonempty) (f : Fin (s.size a) → ℝ)
    (hf : ∀ k, x (h.lift j k) = ((f k : ℝ) : EReal)) :
    Host.reduce (FloatOps.maximumf (F := Ideal) (φ := .f32)) x init h' hu j = ((Finset.univ.sup' H f : ℝ) : EReal) := by
  rw [Host.reduce_eq_fold_single _ x init h' h hu j]
  have e : (x ∘ h.lift j) = fun k => ((f k : ℝ) : EReal) := funext hf
  rw [e, hinit]
  exact fold_max_bot_coe _ H f

/-- The host's sum reduction over one axis from an initial value that is zero, likewise. -/
theorem hostReduceAdd_coe {s t u : Shape} {a : Fin s.rank} (x : FVec Ideal s .f32) (init : FVec Ideal u .f32)
    (h' : s.ReducesTo [a] t) (h : s.Reduces [a] t) (hu : 0 < u.numel) (j : t.Idx)
    (hinit : init (Shape.Idx.first hu) = 0)
    (f : Fin (s.size a) → ℝ) (hf : ∀ k, x (h.lift j k) = ((f k : ℝ) : EReal)) :
    Host.reduceAdd x init h' hu j = ((∑ k, f k : ℝ) : EReal) := by
  unfold Host.reduceAdd
  rw [Ideal.hostReduceAdd_def, Ideal.hostReduceAdd_single h' h, hinit, zero_add, coe_sum_univ]
  exact Finset.sum_congr rfl fun k _ => hf k

/-- The exponential of the bottom element minus a real is zero (the rescaling factor of a running sum whose running
    maximum is still the bottom element). -/
theorem exp_bot_sub_coe (a : ℝ) : Ideal.exp ((⊥ : EReal) - ((a : ℝ) : EReal)) = 0 := by
  rw [bot_sub_coe]; rfl

/-- A sum of products of coerced reals is the coercion of the real sum of products (a contraction read on reals). -/
theorem sum_coe_mul_coe {ι : Type} [Fintype ι] (f g : ι → ℝ) :
    ∑ k, ((f k : ℝ) : EReal) * ((g k : ℝ) : EReal) = ((∑ k, f k * g k : ℝ) : EReal) := by
  rw [coe_sum_univ]; exact Finset.sum_congr rfl fun k _ => coe_mul' _ _

/-- The square root of a coerced sum of squares. -/
theorem sqrt_sum_mul_self {ι : Type} [Fintype ι] (f : ι → ℝ) :
    Ideal.sqrt ((∑ d, f d * f d : ℝ) : EReal) = ((Real.sqrt (∑ d, f d * f d) : ℝ) : EReal) :=
  sqrt_coe_nonneg (Finset.sum_nonneg fun d _ => mul_self_nonneg _)

/-! ## An index range cut in two, and rescaled sums of exponentials (real arithmetic) -/

/-- The maximum over an index range cut in two is the larger of the two parts' maxima. -/
theorem sup'_univ_split {m n N : ℕ} (hN : m + n = N) (f : Fin N → ℝ)
    (H : (Finset.univ : Finset (Fin N)).Nonempty) (H1 : (Finset.univ : Finset (Fin m)).Nonempty)
    (H2 : (Finset.univ : Finset (Fin n)).Nonempty) :
    Finset.univ.sup' H f
      = max (Finset.univ.sup' H1 fun i : Fin m => f ⟨i.val, by omega⟩)
            (Finset.univ.sup' H2 fun i : Fin n => f ⟨m + i.val, by omega⟩) := by
  subst hN
  apply le_antisymm
  · apply Finset.sup'_le
    intro i _
    refine Fin.addCases (motive := fun i => f i ≤ _) (fun i => ?_) (fun i => ?_) i
    · exact le_max_of_le_left (Finset.le_sup' (fun i : Fin m => f ⟨i.val, by omega⟩) (Finset.mem_univ i))
    · exact le_max_of_le_right (Finset.le_sup' (fun i : Fin n => f ⟨m + i.val, by omega⟩) (Finset.mem_univ i))
  · apply max_le
    · apply Finset.sup'_le
      intro i _
      exact Finset.le_sup' f (Finset.mem_univ _)
    · apply Finset.sup'_le
      intro i _
      exact Finset.le_sup' f (Finset.mem_univ _)

/-- A sum over an index range cut in two is the sum of the two parts' sums. -/
theorem sum_univ_split {M : Type} [AddCommMonoid M] {m n N : ℕ} (hN : m + n = N) (f : Fin N → M) :
    ∑ k, f k = (∑ i : Fin m, f ⟨i.val, by omega⟩) + ∑ i : Fin n, f ⟨m + i.val, by omega⟩ := by
  subst hN
  rw [Fin.sum_univ_add]
  rfl

/-- Moving a sum of exponentials from the reference point a to the reference point b multiplies it by exp (a − b). -/
theorem exp_sub_mul_sum_exp {ι : Type} (s : Finset ι) (g : ι → ℝ) (a b : ℝ) :
    Real.exp (a - b) * ∑ j ∈ s, Real.exp (g j - a) = ∑ j ∈ s, Real.exp (g j - b) := by
  rw [Finset.mul_sum]
  refine Finset.sum_congr rfl fun j _ => ?_
  rw [← Real.exp_add]
  congr 1; ring

/-- The same for a sum of exponentials weighted by further factors. -/
theorem exp_sub_mul_sum_exp_mul {ι : Type} (s : Finset ι) (g v : ι → ℝ) (a b : ℝ) :
    Real.exp (a - b) * ∑ j ∈ s, Real.exp (g j - a) * v j = ∑ j ∈ s, Real.exp (g j - b) * v j := by
  rw [Finset.mul_sum]
  refine Finset.sum_congr rfl fun j _ => ?_
  rw [← mul_assoc, ← Real.exp_add]
  congr 2; ring

end Cert.IdealReal

end
-- ==== Proof.Finite.lean ====
/-
  From the precondition to real entries.

  The precondition states that every entry of the argument array has absolute value below the positive infinity.  An
  extended real whose absolute value max x (-x) is below the top element is neither the top nor the bottom element,
  so it is the coercion of a real.  Hence an array satisfying the precondition is, entry by entry, the coercion of an
  array of reals.
-/
import proofs.«159938_j14027363188928_2_alg».proof.Pre_finite_inputs
import proofs.«159938_j14027363188928_2_alg».proof.Proof.AttnSpec
import proofs.«159938_j14027363188928_2_alg».proof.Proof.LibIdealReal
import Idealize.ShloMosaic.Lib.ReduceAll
import Idealize.ShloMosaic.Lib.ValueIdx

noncomputable section

namespace Cert.Finite

open Idealize.ShloMosaic Idealize.ShloMosaic.ValueIdx

/-- The scalar shape has one index. -/
instance : Subsingleton Cert.Pre_finite_inputs.S_.Idx := ⟨fun a b => funext fun d => d.elim0⟩

/-- An extended real whose absolute value is below the top element is the coercion of a real. -/
theorem coe_of_abs_lt_top (x : EReal) (h : max x (-x) < ⊤) : ∃ r : ℝ, x = ((r : ℝ) : EReal) := by
  induction x using EReal.rec with
  | bot => exact absurd h (by simp)
  | top => exact absurd h (by simp)
  | coe r => exact ⟨r, rfl⟩

/-- A strict comparison of extended reals that answers one holds. -/
theorem lt_of_cmp_olt (x y : EReal) (h : Ideal.cmp .olt x y = 1#1) : x < y := by
  unfold Ideal.cmp at h
  by_contra hn
  simp [hn] at h

variable [Cert.Pre_finite_inputs.Facts]

/-- Every entry of an array satisfying the precondition is the coercion of a real. -/
theorem entry_real (x : FVec Ideal Cert.Pre_finite_inputs.S16x2048x256 .f32)
    (h : Cert.Pre_finite_inputs.fn (F := Ideal) x = fun _ => 1#1) (i : Cert.Pre_finite_inputs.S16x2048x256.Idx) :
    ∃ r : ℝ, x i = ((r : ℝ) : EReal) := by
  have h0 := congrFun h ix0
  dsimp only [Cert.Pre_finite_inputs.fn] at h0
  have hi := Host.reduce_andi_all _ _ _ _ _ h0 i
  have hlt : max (x i) (-(x i)) < ⊤ := by
    have := lt_of_cmp_olt _ _ hi
    change max (x i) (-(x i)) < Ideal.ofBits .f32 0x7F800000#32 at this
    rwa [Cert.IdealReal.ofBits_pos_inf] at this
  exact coe_of_abs_lt_top _ hlt

/-- An array satisfying the precondition is the coercion of an array of reals. -/
theorem real_of_pre (x : FVec Ideal Cert.Pre_finite_inputs.S16x2048x256 .f32)
    (h : Cert.Pre_finite_inputs.fn (F := Ideal) x = fun _ => 1#1) :
    ∃ xr : Cert.AttnSpec.Arr, ∀ b i d, x (ix3 b i d) = ((xr b i d : ℝ) : EReal) :=
  ⟨fun b i d => (x (ix3 b i d)).toReal, fun b i d => by
    obtain ⟨r, hr⟩ := entry_real x h (ix3 b i d)
    show x (ix3 b i d) = (((x (ix3 b i d)).toReal : ℝ) : EReal)
    rw [hr, EReal.toReal_coe]⟩

end Cert.Finite

end
-- ==== Proof.Claims.lean ====
/-
  The five claims, assembled.

  Each program runs and leaves its argument array unchanged.  On a finite argument array — one that is, entry by
  entry, the coercion of an array xr of reals — the kernel read at the ideal instance and the reference both end
  with one and the same array: the coercion of the attention of xr (Cert.AttnSpec.out).  The kernel's side is the
  value of its output array after the last grid point; the reference's side is the composed term of its
  operations; the precondition supplies xr.
-/
import proofs.«159938_j14027363188928_2_alg».proof.Defs
import proofs.«159938_j14027363188928_2_alg».proof.Proof.Gen.Kernel
import proofs.«159938_j14027363188928_2_alg».proof.Proof.Gen.KernelIdeal
import proofs.«159938_j14027363188928_2_alg».proof.Proof.Gen.ReferenceIdeal
import proofs.«159938_j14027363188928_2_alg».proof.Proof.Gen.ReferenceIdeal.Run
import proofs.«159938_j14027363188928_2_alg».proof.Proof.Gen.ReferenceIdeal.Read
import proofs.«159938_j14027363188928_2_alg».proof.Proof.Gen.Pre_finite_inputs
import proofs.«159938_j14027363188928_2_alg».proof.Proof.Kernel.Frame
import proofs.«159938_j14027363188928_2_alg».proof.Proof.KernelIdeal.Frame
import proofs.«159938_j14027363188928_2_alg».proof.Proof.KernelIdeal.Value3
import proofs.«159938_j14027363188928_2_alg».proof.Proof.RefAttn
import proofs.«159938_j14027363188928_2_alg».proof.Proof.Finite

noncomputable section

/-! ## The claims -/

namespace Cert.Proof.Attn

open Idealize.ShloMosaic Idealize.ShloMosaic.TcCoe Idealize.SL.Sem Idealize.ShloMosaic.ValueIdx

/-- The word-level program runs and leaves its argument unchanged. -/
theorem frame_k : Cert.frame_Kernel := fun m ρ _ => Cert.Kernel.Attn.frame (F := Bits) m ρ

/-- So does the program read at the ideal instance. -/
theorem frame_ki : Cert.frame_KernelIdeal := fun m ρ _ => Cert.KernelIdeal.Attn.frame (F := Ideal) m ρ

/-- So does the reference. -/
theorem frame_ref : Cert.frame_ReferenceIdeal := fun m ρ _ =>
  (θ_run Cert.ReferenceIdeal.defs _ _).mono (fun _ h c => (h c).2) (Cert.ReferenceIdeal.Value.run (F := Ideal) m ρ)

/-- The idealized program is the program's own text read on extended reals: nothing was rewritten. -/
theorem preserves : Cert.preserves_Kernel_KernelIdeal := trivial

/-- The array both programs end with, on a device whose argument array is the coercion of the real array xr:
    the coercion of the attention of xr. -/
def outArr (xr : Cert.AttnSpec.Arr) : Cert.KernelIdeal.S16x2048x256.Idx → EReal :=
  fun idx => ((Cert.AttnSpec.out xr (idx 0) (idx 1) (idx 2) : ℝ) : EReal)

theorem outArr_ix3 (xr : Cert.AttnSpec.Arr) (b : Fin 16) (i : Fin 2048) (d : Fin 256) :
    outArr xr (ix3 b i d) = ((Cert.AttnSpec.out xr b i d : ℝ) : EReal) := rfl

/-- At the ideal instance, on finite inputs, the kernel and the reference both end with the attention of the
    real array their common argument is the coercion of. -/
theorem algebraic : Cert.algebraic_KernelIdeal_ReferenceIdeal := by
  intro m ρ m' ρ' hpre hagree
  have hreal : ∀ c : Dev Cert.KernelIdeal.nD, ∃ xr : Cert.AttnSpec.Arr, ∀ b i d,
      m ((c.tc : Thread Cert.KernelIdeal.nD Cert.KernelIdeal.τ).loc Cert.KernelIdeal.main_arg0) (ix3 b i d) = ((xr b i d : ℝ) : EReal) :=
    fun c => Cert.Finite.real_of_pre _ (hpre c)
  choose xr hxr using hreal
  refine ⟨fun c => outArr (xr c), ?_, ?_⟩
  · refine (θ_run (Cert.KernelIdeal.defs (F := Ideal)) _ _).mono (fun _ h c => ⟨(h c).1.trans ?_, (h c).2⟩)
      (Cert.KernelIdeal.Attn.run_main (F := Ideal) m ρ)
    funext idx
    rw [eq_ix3 idx]
    exact Cert.KernelIdeal.Attn.result_eq m c (xr c) (hxr c) _ _ _
  · refine (θ_run (Cert.ReferenceIdeal.defs (F := Ideal)) _ _).mono (fun _ h c => ⟨(h c).1.trans ?_, (h c).2⟩)
      (Cert.ReferenceIdeal.Value.run (F := Ideal) m' ρ')
    rw [Cert.ReferenceIdeal.Read.val_main_v19_eq, hagree c]
    funext idx
    rw [eq_ix3 idx]
    exact Cert.RefAttn.ref_out _ (xr c) (hxr c) _ _ _

end Cert.Proof.Attn

end
-- ==== Proof.lean ====
/-
  Cosine-key attention: a flash-attention kernel against its plain reference, over the extended reals.

  The claim has five parts.  Three frames: each program, run from a memory whose input holds finite numbers, terminates
  without a fault and leaves its argument array unchanged.  The kernel's idealization rewrote no operation, so that part
  is trivially true.  And the value part: at the exact instance, from memories agreeing on the argument x of shape
  [16, 2048, 256], the idealized kernel and the idealized reference end with the same result array.

  Both compute, for every batch b, query row i and lane d,
      out[b, i, d] = Σ_j softmax_j (Σ_e x[b,i,e] · k[b,j,e] / 16) · x[b, j, d],     k[b, j, ·] = x[b, j, ·] / max(‖x[b, j, ·]‖₂, ε)
  (Proof/AttnSpec.lean states it on the reals).  The reference does so literally.  The kernel walks a grid of
  (batch, query tile of 512 rows, key/value tile of 1024 rows): it scales the query by 1/16 before the inner products and
  keeps, per query row, a running maximum m, a running denominator l and a running weighted sum a; a new key/value tile
  rescales the old l and a by exp(m_old − m_new), and after the last tile the block a / l is written back.  With
  finite inputs every quantity is a real number, the rescaling is the addition law of exp, and dividing the weighted sum
  by the denominator is dividing each weight (Proof/LibOnlineSoftmax.lean); so the two results agree entry by entry.
  Finiteness is used: on the extended reals these laws fail at the infinities.

  The two input windows of the kernel's pallas_call read one array, so the region's launch is proved here from the
  library's launch theorem for windows that share an array (Proof/KernelIdeal/Launch.lean), the kernel body's two control
  cases are run once each on symbolic memrefs (RunFirst, RunLast), and the scratch buffers' contents are carried from a
  query tile's first key/value tile to its last through the region invariant (State, Body).  The word-level program's
  frame is the same text at the other instance (Proof/Kernel/).
-/
import proofs.«159938_j14027363188928_2_alg».proof.Defs
import proofs.«159938_j14027363188928_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Attn.frame_k, Cert.Proof.Attn.frame_ki, Cert.Proof.Attn.frame_ref, Cert.Proof.Attn.preserves, Cert.Proof.Attn.algebraic⟩

end Cert.Proof

end
